-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩
abbrev S1600000x64 : Shape := ⟨2, ![1600000, 64]⟩
abbrev S1x64 : Shape := ⟨2, ![1, 64]⟩
abbrev S100000x40 : Shape := ⟨2, ![100000, 40]⟩
abbrev S4000x40 : Shape := ⟨2, ![4000, 40]⟩
abbrev S1600000x40 : Shape := ⟨2, ![1600000, 40]⟩
abbrev S1x40 : Shape := ⟨2, ![1, 40]⟩
abbrev S4000 : Shape := ⟨1, ![4000]⟩

abbrev nBuf : Space → Nat
  | .hbm => 61
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .bf16⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .bf16⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S1x64, .f32⟩
  | .hbm, ⟨44, _⟩ => ⟨S100000x40, .bf16⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x40, .bf16⟩
  | .hbm, ⟨54, _⟩ => ⟨S1600000x40, .f32⟩
  | .hbm, ⟨55, _⟩ => ⟨S_, .f32⟩
  | .hbm, ⟨56, _⟩ => ⟨S100000x40, .f32⟩
  | .hbm, ⟨57, _⟩ => ⟨S1600000x1, .i32⟩
  | .hbm, ⟨58, _⟩ => ⟨S100000x40, .f32⟩
  | .hbm, ⟨59, _⟩ => ⟨S1x40, .f32⟩
  | .hbm, ⟨60, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S128x64, .f32⟩
  | .local _ .vmem, ⟨5, _⟩ => ⟨S4000x64, .bf16⟩
  | .local _ .vmem, ⟨6, _⟩ => ⟨S4000x64, .bf16⟩
  | .local _ .vmem, ⟨7, _⟩ => ⟨S4000x64, .f32⟩
  | .local _ .vmem, ⟨8, _⟩ => ⟨S4000x64, .f32⟩
  | .local _ .vmem, ⟨9, _⟩ => ⟨S4000x64, .bf16⟩
  | .local _ .vmem, ⟨10, _⟩ => ⟨S4000x64, .bf16⟩
  | .local _ .vmem, ⟨11, _⟩ => ⟨S4000x1, .f32⟩
  | .local _ .vmem, ⟨12, _⟩ => ⟨S4000x1, .f32⟩
  | .local _ .vmem, ⟨13, _⟩ => ⟨S1x64, .f32⟩
  | .local _ .vmem, ⟨14, _⟩ => ⟨S64x40, .f32⟩
  | .local _ .vmem, ⟨15, _⟩ => ⟨S4000x40, .bf16⟩
  | .local _ .vmem, ⟨16, _⟩ => ⟨S4000x40, .bf16⟩
  | .local _ .vmem, ⟨17, _⟩ => ⟨S4000x40, .f32⟩
  | .local _ .vmem, ⟨18, _⟩ => ⟨S4000x40, .f32⟩
  | .local _ .vmem, ⟨19, _⟩ => ⟨S4000x40, .bf16⟩
  | .local _ .vmem, ⟨20, _⟩ => ⟨S4000x40, .bf16⟩
  | .local _ .vmem, ⟨21, _⟩ => ⟨S4000x1, .f32⟩
  | .local _ .vmem, ⟨22, _⟩ => ⟨S4000x1, .f32⟩
  | .local _ .vmem, ⟨23, _⟩ => ⟨S1x40, .f32⟩
  | .local _ .vmem, ⟨24, _⟩ => ⟨S4000x40, .f32⟩
  | .local _ .vmem, ⟨25, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x40 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x40 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x40 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x40_S64x40_0_0 : ∀ a, (![0, 0] : Fin 2 → Nat) a + S64x40.size a ≤ S64x40.size a
  h_S64x40 : 0 < S64x40.numel
  inb_S4000x40_S4000x40_0_0 : ∀ a, (![0, 0] : Fin 2 → Nat) a + S4000x40.size a ≤ S4000x40.size a
  h_S4000x40 : 0 < S4000x40.numel
  packedbf16_S4000x40_S4000x40_0_0 : (Rect.unit (s := S4000x40) ![0, 0] S4000x40.size inb_S4000x40_S4000x40_0_0).PackedRows (EltTy.packing .bf16)
  bcast_S_S100000x40 : S_.BroadcastsInDim S100000x40 (![] : Fin 0 → Fin S100000x40.rank)
  shapeCasts_S40_S1x40 : S40.ShapeCasts S1x40
  shapeCasts_S4000x40_S4000x40 : S4000x40.ShapeCasts S4000x40
  broadcasts_S4000x1_S4000x40 : S4000x1.Broadcasts S4000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  shapeCasts_S4000_S4000x1 : S4000.ShapeCasts S4000x1
  scatter_S100000_S1600000x1_S1600000_n_0_0_1_wf : ScatterDims.WF S100000 S1600000x1 S1600000 [] [0] [0] 1
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x40_S4000x40_1_0_0_1_n_n_wf : DotDims.WF S4000x64 S64x40 S4000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .bf16 = 32 ∨ (Rect.block (s := S100000x64) S4000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .bf16 = 32 ∨ (Rect.block (s := S100000x64) S4000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x40.size a ≤ S64x40.size a
  hwx1_4 : ∀ i : grid1.Coords, EltTy.bits .f32 = 32 ∨ (Rect.block (s := S64x40) S64x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x40.size a ≤ S100000x40.size a
  hwx1_5 : ∀ i : grid1.Coords, EltTy.bits .bf16 = 32 ∨ (Rect.block (s := S100000x40) S4000x40.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x40.size a ≤ S100000x40.size a
  hwx2_0 : ∀ i : grid2.Coords, EltTy.bits .f32 = 32 ∨ (Rect.block (s := S100000x40) S4000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x40.size a ≤ S100000x40.size a
  hwx2_1 : ∀ i : grid2.Coords, EltTy.bits .bf16 = 32 ∨ (Rect.block (s := S100000x40) S4000x40.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x40.size a ≤ S1x40.size a
  hwx2_3 : ∀ i : grid2.Coords, EltTy.bits .f32 = 32 ∨ (Rect.block (s := S1x40) S1x40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x40.size a ≤ S100000x40.size a
  hwx2_4 : ∀ i : grid2.Coords, EltTy.bits .f32 = 32 ∨ (Rect.block (s := S100000x40) S4000x40.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x40_S4000x40_1_0_0_1_n_n : DotDims S4000x64 S64x40 S4000x40 where
  lhsContracting := [1]
  rhsContracting := [0]
  lhsNonContracting := [0]
  rhsNonContracting := [1]
  lhsBatch := []
  rhsBatch := []
  wf := dot_S4000x64_S64x40_S4000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S4000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S4000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S4000x40.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S4000x40.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x40, .f32⟩
  | 5 => ⟨S40, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x64, .f32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x40, .f32⟩
  | 70 => ⟨S_, .f32⟩
  | 71 => ⟨S1700000, .f32⟩
  | 72 => ⟨S_, .f32⟩
  | 73 => ⟨S100000, .f32⟩
  | 74 => ⟨S1700000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S1700000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x40, .f32⟩
  | 112 => ⟨S1700000x1, .f32⟩
  | 113 => ⟨S1700000x40, .f32⟩
  | 114 => ⟨S1700000x40, .f32⟩
  | 115 => ⟨S_, .f32⟩
  | 116 => ⟨S100000x40, .f32⟩
  | 117 => ⟨S1700000x1, .i32⟩
  | 118 => ⟨S100000x40, .f32⟩
  | 119 => ⟨S1x40, .f32⟩
  | 120 => ⟨S100000x40, .f32⟩
  | 121 => ⟨S100000x40, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x128, .f32⟩

abbrev hbmTy0_1 (i : Nat) : BufTy := match i % 128 with
  | 0 => ⟨S100000x40, .f32⟩
  | 1 => ⟨S100000x40, .f32⟩
  | 2 => ⟨S100000x40, .f32⟩
  | 3 => ⟨S_, .f32⟩
  | 4 => ⟨S100000, .f32⟩
  | 5 => ⟨S100000x1, .f32⟩
  | 6 => ⟨S100000x1, .f32⟩
  | 7 => ⟨S100000x40, .f32⟩
  | 8 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KerRun.lean ====
/-
  The idealized kernel's run with its result named. Every weakly fair execution of the program ends with the result
  array holding what the last of the three launches leaves in it — the contents of the buffers after the third region,
  a fold through the host stretches and the regions from the launch memory — and with the six arguments as launched.
-/
import proofs.«119770_j32229434589355_2_alg».proof.Proof.Gen.KernelIdeal.Frame

set_option maxRecDepth 16384

noncomputable section

namespace Cert.KernelIdeal.RunV

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's eight segments (five host stretches, three regions): the last thread state holds every
    unscoped buffer at the contents after the third region, read here at the result and at the six arguments. -/
theorem run_main : θ_run defs (onTc (τ := τ) (main (F := F))) ⟨m, fun _ => 0, ρ⟩ (fun r => ∀ c : Dev nD,
      r.2.mem ((c.tc : Thread nD τ).loc main_v41) = W8 m ρ c (Proc.devRef .tc main_v41) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v41 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunV

end
-- ==== Proof.Spec.lean ====
/-
  A two-layer graph convolution with symmetric degree normalisation and a row-wise log-softmax, written twice as
  functions of the same data, entry by entry, on the extended reals.

  The data: `n` nodes, `E` edges. An edge `e` has a destination row number `D e` (an integer; an edge whose number is not a
  node's is dropped by every accumulation) and a source node `S e`. One propagation adds, into row `i`, the rows gathered at
  the sources of the edges whose destination is `i` (`agg`).

  * The factored form (`kerOut`) keeps the normalisation at the nodes: with `d i = 1/sqrt(deg i)`, `deg i` the number of
    edges into `i` plus one for the node's own loop, a layer is `d i · (Σ_{e → i} hs (S e) + hs i) + b` on the prescaled
    features `hs j = (x j · d j) · W`.
  * The edge form (`refOut`) lists the loops as `n` further edges `j → j` after the `E` given ones (edge list of length
    `E'`), weighs the message of every edge by `d (source) · d (destination)` and adds the bias: `Σ_{e → i} h (S' e) · (d (S' e) · d (T' e)) + b`
    with `h = x · W`. `T' e` is the node at which the destination's `d` is looked up.

  Both end with the same row-wise log-softmax. The constants (`z` the zero word, `one`, `ninf` the word of minus infinity)
  are parameters, so that nothing here evaluates a bit pattern.
-/
import Mathlib
import Idealize.ShloMosaic.PureOps.Ideal

noncomputable section

namespace Cert.Gcn

open Idealize.ShloMosaic Finset

variable {n E C K : ℕ}

/-- Rows accumulated at their destinations: entry `(i, c)` is `z` plus the sum of `u e c` over the edges `e` with `D e = i`. -/
def agg (z : EReal) (D : Fin E → ℤ) (u : Fin E → Fin C → EReal) (i : Fin n) (c : Fin C) : EReal :=
  z + ∑ e ∈ univ.filter (fun e : Fin E => D e = (i.val : ℤ)), u e c

/-- The same for one number per edge. -/
def aggV (z : EReal) (D : Fin E → ℤ) (u : Fin E → EReal) (i : Fin n) : EReal :=
  z + ∑ e ∈ univ.filter (fun e : Fin E => D e = (i.val : ℤ)), u e

/-- `1/sqrt(dg)` where `dg` is above `z`, else `z`. -/
def dinvOf (z dg : EReal) : EReal :=
  Scalar.select (Ideal.cmp .ogt dg z) (Ideal.rsqrt dg) z

/-- A matrix product, entry by entry. -/
def mm (a : Fin n → Fin K → EReal) (w : Fin K → Fin C → EReal) (i : Fin n) (c : Fin C) : EReal :=
  ∑ k : Fin K, a i k * w k c

/-- The log-softmax of one row: the entry minus the row's maximum, minus the logarithm of the sum of the exponentials
    of the entries so shifted. The maximum is a fold from `ninf`, the sum starts from `z`. -/
def lsmRow (ninf z : EReal) (r : Fin C → EReal) (c : Fin C) : EReal :=
  (r c - (univ : Finset (Fin C)).fold max ninf r)
    - Ideal.log (z + ∑ k : Fin C, Ideal.exp (r k - (univ : Finset (Fin C)).fold max ninf r))

/-! ## The factored form -/

/-- The degree: the edges into `i`, each counted `one`, plus `one` for the node's own loop. -/
def kDeg (z one : EReal) (D : Fin E → ℤ) (i : Fin n) : EReal := aggV z D (fun _ => one) i + one

/-- One layer on prescaled features `hs`. -/
def kLayer (z : EReal) (d : Fin n → EReal) (D : Fin E → ℤ) (S : Fin E → Fin n) (hs : Fin n → Fin C → EReal)
    (b : Fin C → EReal) (i : Fin n) (c : Fin C) : EReal :=
  d i * (agg z D (fun e c => hs (S e) c) i c + hs i c) + b c

/-- The whole factored computation. -/
def kerOut {K1 K2 K3 : ℕ} (z one ninf : EReal) (D : Fin E → ℤ) (S : Fin E → Fin n)
    (x : Fin n → Fin K1 → EReal) (W1 : Fin K1 → Fin K2 → EReal) (b1 : Fin K2 → EReal)
    (W2 : Fin K2 → Fin K3 → EReal) (b2 : Fin K3 → EReal) (i : Fin n) (c : Fin K3) : EReal :=
  lsmRow ninf z
    (kLayer z (fun i => dinvOf z (kDeg z one D i)) D S
      (mm (fun i k => dinvOf z (kDeg z one D i) * max
          (kLayer z (fun i => dinvOf z (kDeg z one D i)) D S
            (mm (fun i k => x i k * dinvOf z (kDeg z one D i)) W1) b1 i k) z) W2) b2 i) c

/-! ## The edge form -/

variable {E' : ℕ}

/-- The degree over the edge list that already holds the loops. -/
def rDeg (z one : EReal) (D' : Fin E' → ℤ) (i : Fin n) : EReal := aggV z D' (fun _ => one) i

/-- One layer: every edge's message weighed by the two ends' normalisation, accumulated, plus the bias. -/
def rLayer (z : EReal) (d : Fin n → EReal) (D' : Fin E' → ℤ) (S' T' : Fin E' → Fin n) (h : Fin n → Fin C → EReal)
    (b : Fin C → EReal) (i : Fin n) (c : Fin C) : EReal :=
  agg z D' (fun e c => h (S' e) c * (d (S' e) * d (T' e))) i c + b c

/-- The whole edge-form computation. -/
def refOut {K1 K2 K3 : ℕ} (z one ninf : EReal) (D' : Fin E' → ℤ) (S' T' : Fin E' → Fin n)
    (x : Fin n → Fin K1 → EReal) (W1 : Fin K1 → Fin K2 → EReal) (b1 : Fin K2 → EReal)
    (W2 : Fin K2 → Fin K3 → EReal) (b2 : Fin K3 → EReal) (i : Fin n) (c : Fin K3) : EReal :=
  lsmRow ninf z
    (rLayer z (fun i => dinvOf z (rDeg z one D' i)) D' S' T'
      (mm (fun i k => max
          (rLayer z (fun i => dinvOf z (rDeg z one D' i)) D' S' T' (mm x W1) b1 i k) z) W2) b2 i) c

/-! ## The edge list as 32-bit words -/

/-- A row number as the host wraps it before a gather: a negative number gets the row count added. -/
def wrapW (w : BitVec 32) : BitVec 32 := Scalar.select (IntOp.cmpi .slt w 0#32) (IntOp.addi w 100000#32) w

/-- The node a gather reads for the row number `w`: wrapped, read signed, clamped into `0 … 99999`. -/
def posOf (w : BitVec 32) : Fin 100000 := ⟨min (wrapW w).toInt.toNat (100000 - 1), by omega⟩

/-- A list of `1600000` words followed by the words `0, 1, …, 99999`. -/
def catW (a : Fin 1600000 → BitVec 32) (e : Fin 1700000) : BitVec 32 :=
  if h : e.val < 1600000 then a ⟨e.val, h⟩ else BitVec.ofNat 32 (e.val - 1600000)

end Cert.Gcn

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibMatProduct.lean ====
/-
  A matrix product as one whole-array function of its two factors, for any extents.

  `prod x w` is the `[M, N]` array whose entry `(r, c)` is the sum over `k` of `x (r, k) · w (k, c)`, on the extended reals.
  Both the kernel's matrix unit accumulating into zero and the host's `dot_general`, for the dimension numbers of a plain
  `[M, K]` by `[K, N]` product, are this function: each is that sum at every entry. A kernel that computes a product block
  of rows by block of rows and a reference that computes it whole can then both be stated with the one term `prod x w`.
-/
import proofs.«119770_j32229434589355_2_alg».proof.Proof.LibPlainDot

noncomputable section

namespace Cert.MatProduct

open Idealize.ShloMosaic Idealize.ShloMosaic.ValueIdx

/-- The row of a rank-2 index, as a number below the row count. -/
def rowOf {M N : ℕ} (y : (⟨2, ![M, N]⟩ : Shape).Idx) : Fin M := ⟨(y 0).val, (y 0).isLt⟩
/-- The column of a rank-2 index, as a number below the column count. -/
def colOf {M N : ℕ} (y : (⟨2, ![M, N]⟩ : Shape).Idx) : Fin N := ⟨(y 1).val, (y 1).isLt⟩

theorem eq_row_col {M N : ℕ} (y : (⟨2, ![M, N]⟩ : Shape).Idx) : y = ix2 (rowOf y) (colOf y) := eq_ix2 y

/-- The product of an `[M, K]` and a `[K, N]` array of extended reals, entry by entry. -/
def prod {M K N : ℕ} (x : (⟨2, ![M, K]⟩ : Shape).Idx → EReal) (w : (⟨2, ![K, N]⟩ : Shape).Idx → EReal) :
    (⟨2, ![M, N]⟩ : Shape).Idx → EReal :=
  fun y => ∑ k : Fin K, x (ix2 (rowOf y) k) * w (ix2 k (colOf y))

/-- The matrix unit accumulating into the zero splat is the product. -/
theorem matmul_zero_eq_prod {M K N : ℕ} {φ₁ φ₂ : FTy} (prec : Option ContractPrecision)
    (lhs : FVec Ideal ⟨2, ![M, K]⟩ φ₁) (rhs : FVec Ideal ⟨2, ![K, N]⟩ φ₂) :
    FloatOps.matmul (DotDims.plain M K N) prec lhs rhs (constant (F := Ideal) ⟨2, ![M, N]⟩ .f32 0x00000000#32) = prod lhs rhs := by
  funext y
  rw [eq_row_col y]
  exact Cert.Sage.matmul_plain_zero_apply prec lhs rhs (rowOf y) (colOf y)

/-- The host's `dot_general` is the product. -/
theorem dotGeneral_eq_prod {M K N : ℕ} {φ₁ φ₂ : FTy} (prec : Option ContractPrecision) (sched : HostSchedule)
    (lhs : FVec Ideal ⟨2, ![M, K]⟩ φ₁) (rhs : FVec Ideal ⟨2, ![K, N]⟩ φ₂) :
    FloatOps.dotGeneral (DotDims.plain M K N) prec sched lhs rhs = prod lhs rhs := by
  funext y
  rw [eq_row_col y]
  exact Cert.Sage.dotGeneral_plain_apply prec sched lhs rhs (rowOf y) (colOf y)

end Cert.MatProduct

end
-- ==== Proof.SpecIdx.lean ====
/-
  The two forms of the computation (Spec.lean) as arrays over the programs' literal shapes: the features, weights and biases
  read off rank-2 and rank-1 arrays, the edge list read off a `[2, 1600000]` array of 32-bit words (row 0 the sources,
  row 1 the destinations; a destination is read signed, a source is looked up wrapped and clamped), the constants the words
  of zero, one and minus infinity.
-/
import proofs.«119770_j32229434589355_2_alg».proof.Proof.Spec
import proofs.«119770_j32229434589355_2_alg».proof.Proof.LibMatProduct
import Idealize.ShloMosaic.Lib.ValueIdx

noncomputable section

namespace Cert.Gcn

open Idealize.ShloMosaic Idealize.ShloMosaic.ValueIdx
open Cert.MatProduct (rowOf colOf)

/-- The zero word. -/
abbrev zW : EReal := Ideal.ofBits .f32 0x00000000#32
/-- The word of one. -/
abbrev oneW : EReal := Ideal.ofBits .f32 0x3F800000#32
/-- The word of minus infinity. -/
abbrev ninfW : EReal := Ideal.ofBits .f32 0xFF800000#32

/-- The source words of the edge list. -/
def srcW (ei : (⟨2, ![2, 1600000]⟩ : Shape).Idx → BitVec 32) (e : Fin 1600000) : BitVec 32 := ei (ix2 (0 : Fin 2) e)
/-- The destination words of the edge list. -/
def dstW (ei : (⟨2, ![2, 1600000]⟩ : Shape).Idx → BitVec 32) (e : Fin 1600000) : BitVec 32 := ei (ix2 (1 : Fin 2) e)

/-- The factored form as one array of the six argument arrays. -/
def kerArr (x : (⟨2, ![100000, 128]⟩ : Shape).Idx → EReal) (ei : (⟨2, ![2, 1600000]⟩ : Shape).Idx → BitVec 32)
    (w1 : (⟨2, ![128, 64]⟩ : Shape).Idx → EReal) (b1 : (⟨1, ![64]⟩ : Shape).Idx → EReal)
    (w2 : (⟨2, ![64, 40]⟩ : Shape).Idx → EReal) (b2 : (⟨1, ![40]⟩ : Shape).Idx → EReal) :
    (⟨2, ![100000, 40]⟩ : Shape).Idx → EReal :=
  fun y => kerOut zW oneW ninfW (fun e : Fin 1600000 => (dstW ei e).toInt) (fun e : Fin 1600000 => posOf (srcW ei e))
    (fun i k => x (ix2 i k)) (fun k c => w1 (ix2 k c)) (fun c => b1 (ix1 c)) (fun k c => w2 (ix2 k c)) (fun c => b2 (ix1 c))
    (rowOf y) (colOf y)

/-- The edge form as one array of the six argument arrays: the edge list is the given edges followed by the loops. -/
def refArr (x : (⟨2, ![100000, 128]⟩ : Shape).Idx → EReal) (ei : (⟨2, ![2, 1600000]⟩ : Shape).Idx → BitVec 32)
    (w1 : (⟨2, ![128, 64]⟩ : Shape).Idx → EReal) (b1 : (⟨1, ![64]⟩ : Shape).Idx → EReal)
    (w2 : (⟨2, ![64, 40]⟩ : Shape).Idx → EReal) (b2 : (⟨1, ![40]⟩ : Shape).Idx → EReal) :
    (⟨2, ![100000, 40]⟩ : Shape).Idx → EReal :=
  fun y => refOut zW oneW ninfW (fun e : Fin 1700000 => (catW (dstW ei) e).toInt) (fun e : Fin 1700000 => posOf (catW (srcW ei) e))
    (fun e : Fin 1700000 => posOf (catW (dstW ei) e))
    (fun i k => x (ix2 i k)) (fun k c => w1 (ix2 k c)) (fun c => b1 (ix1 c)) (fun k c => w2 (ix2 k c)) (fun c => b2 (ix1 c))
    (rowOf y) (colOf y)

end Cert.Gcn

end
-- ==== Proof.LibScatterAddRows.lean ====
/-
  Rows of updates added into a table at a column of row numbers, at the extended reals, read at an index.

  What `table.at[rows].add(updates)` lowers to for a table `[N, C]`, row numbers `[E]` held as an `[E, 1]` array and
  updates `[E, C]`: a scatter whose one window axis is the columns, the row axis inserted, the one start component the
  row. Update entry `(e, k)` lands at row `rows (e, 0)`, read as a signed integer and NOT clamped, column `k`; an update
  whose row number is negative or at least `N` is dropped. So entry `(n, c)` of the result is the table's entry plus the
  sum of `updates (e, c)` over the `e` whose row number is `n`.
-/
import Idealize.ShloMosaic.Lib.ValueIdx
import Idealize.ShloMosaic.PureOps.Ideal.Laws

noncomputable section

namespace Cert.LibScatterAddRows

open Idealize.ShloMosaic Idealize.ShloMosaic.ValueIdx

/-- The dimension numbers of that scatter; their conditions are decided on a program's literal shapes. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window starts at the row number of the update's row, read signed. -/
theorem start_row (j : (⟨2, ![E, C]⟩ : Shape).Idx) (idx : IVec ⟨2, ![E, 1]⟩ w) :
    (rowDims N E C wf).start j idx 0 = (idx (ix2 (j 0) (0 : Fin 1))).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no start component names, the window starts at `0`. -/
theorem start_col (j : (⟨2, ![E, C]⟩ : Shape).Idx) (idx : IVec ⟨2, ![E, 1]⟩ w) :
    (rowDims N E C wf).start j idx 1 = 0 := by
  unfold ScatterDims.start
  rw [dif_neg (show ¬ (1 : Fin 2) ∈ (rowDims N E C wf).scatterDimsToOperandDims from
    fun h => Nat.one_ne_zero (congrArg Fin.val (List.mem_singleton.mp h)))]

/-- The row axis is inserted: its window coordinate is `0`. -/
theorem window_row (j : (⟨2, ![E, C]⟩ : Shape).Idx) : (rowDims N E C wf).window j 0 = 0 := by
  unfold ScatterDims.window
  rw [dif_neg (show (0 : Fin 2) ∉ (rowDims N E C wf).sKept from fun h => by
    simp [ScatterDims.sKept, Shape.kept] at h)]

/-- The column axis is the window axis: its window coordinate is the update's column. -/
theorem window_col (j : (⟨2, ![E, C]⟩ : Shape).Idx) : (rowDims N E C wf).window j 1 = (j 1).val := by
  unfold ScatterDims.window
  rw [dif_pos (show (1 : Fin 2) ∈ (rowDims N E C wf).sKept from by
    simp [ScatterDims.sKept, Shape.kept])]
  rfl

/-- Where an update lands: update index `j` lands at `(n, c)` exactly when its row's number, read signed, is `n` and
    its column is `c`. A row number that is negative or at least `N` equals no `n`: the update is dropped. -/
theorem resultIdx?_eq_some_iff (idx : IVec ⟨2, ![E, 1]⟩ w) (j : (⟨2, ![E, C]⟩ : Shape).Idx) (n : Fin N) (c : Fin C) :
    (rowDims N E C wf).resultIdx? j idx = some (ix2 n c)
      ↔ (idx (ix2 (j 0) (0 : Fin 1))).toInt = (n.val : Int) ∧ j 1 = c := by
  have h0 := start_row wf j idx
  have h1 := start_col wf j idx
  have w0 := window_row wf j
  have w1 := window_col wf j
  have hj1 : (j 1).val < C := idx2_lt1 j
  have hn : n.val < N := n.isLt
  have hc : c.val < C := c.isLt
  unfold ScatterDims.resultIdx?
  by_cases hall : ∀ a, 0 ≤ (rowDims N E C wf).start j idx a + (rowDims N E C wf).window j a
      ∧ (rowDims N E C wf).start j idx a + (rowDims N E C wf).window j a < (⟨2, ![N, C]⟩ : Shape).size a
  · rw [dif_pos hall]
    constructor
    · intro h
      have h' := Option.some.inj h
      have a0 := (hall 0).1
      have e0 : ((rowDims N E C wf).start j idx 0 + (rowDims N E C wf).window j 0).toNat = n.val :=
        congrArg Fin.val (congrFun h' 0)
      have e1 : ((rowDims N E C wf).start j idx 1 + (rowDims N E C wf).window j 1).toNat = c.val :=
        congrArg Fin.val (congrFun h' 1)
      rw [h0, w0] at a0 e0
      rw [h1, w1] at e1
      exact ⟨by omega, Fin.ext (by omega)⟩
    · rintro ⟨hs, hk⟩
      refine congrArg some (funext fun a => Fin.ext ?_)
      match a with
      | ⟨0, _⟩ =>
        show ((rowDims N E C wf).start j idx 0 + (rowDims N E C wf).window j 0).toNat = n.val
        rw [h0, w0]; omega
      | ⟨1, _⟩ =>
        show ((rowDims N E C wf).start j idx 1 + (rowDims N E C wf).window j 1).toNat = c.val
        rw [h1, w1, hk]; omega
  · rw [dif_neg hall]
    constructor
    · intro h; cases h
    · rintro ⟨hs, hk⟩
      refine absurd (fun a => ?_) hall
      match a with
      | ⟨0, _⟩ =>
        show 0 ≤ (rowDims N E C wf).start j idx 0 + (rowDims N E C wf).window j 0
          ∧ (rowDims N E C wf).start j idx 0 + (rowDims N E C wf).window j 0 < (N : Int)
        rw [h0, w0]; omega
      | ⟨1, _⟩ =>
        show 0 ≤ (rowDims N E C wf).start j idx 1 + (rowDims N E C wf).window j 1
          ∧ (rowDims N E C wf).start j idx 1 + (rowDims N E C wf).window j 1 < (C : Int)
        rw [h1, w1]; omega

/-- The same at an update index given by its coordinates `(e, k)`. -/
theorem resultIdx?_ix2_eq_some_iff (idx : IVec ⟨2, ![E, 1]⟩ w) (e : Fin E) (k : Fin C) (n : Fin N) (c : Fin C) :
    (rowDims N E C wf).resultIdx? (ix2 e k) idx = some (ix2 n c)
      ↔ (idx (ix2 e (0 : Fin 1))).toInt = (n.val : Int) ∧ k = c :=
  resultIdx?_eq_some_iff wf idx (ix2 e k) n c

/-- THE ACCUMULATING SCATTER READ AT `(n, c)`: the table's entry plus the sum of column `c` of the update rows whose row
    number, read signed, is `n`. -/
theorem scatterAdd_rows_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e ∈ Finset.univ.filter (fun e : Fin E => (idx (ix2 e (0 : Fin 1))).toInt = (n.val : Int)),
          upd (ix2 e c) := by
  unfold Ideal.hostScatterAdd
  congr 1
  refine Finset.sum_nbij' (fun j => (j 0 : Fin E)) (fun e => ix2 e c) ?_ ?_ ?_ ?_ ?_
  · intro j hj
    have hj' := (Finset.mem_filter.mp hj).2
    exact Finset.mem_filter.mpr ⟨Finset.mem_univ _, ((resultIdx?_eq_some_iff wf idx j n c).mp hj').1⟩
  · intro e he
    have he' := (Finset.mem_filter.mp he).2
    exact Finset.mem_filter.mpr ⟨Finset.mem_univ _, (resultIdx?_ix2_eq_some_iff wf idx e c n c).mpr ⟨he', rfl⟩⟩
  · intro j hj
    rw [Finset.mem_filter] at hj
    have hk := ((resultIdx?_eq_some_iff wf idx j n c).mp hj.2).2
    rw [← hk]
    exact (eq_ix2 j).symm
  · intro e _
    rfl
  · intro j hj
    rw [Finset.mem_filter] at hj
    have hk := ((resultIdx?_eq_some_iff wf idx j n c).mp hj.2).2
    rw [← hk]
    exact congrArg upd (eq_ix2 j)

/-- The same with the host's accumulating scatter at the ideal instance on the left. -/
theorem host_scatterAdd_rows_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (rowDims N E C wf) x idx upd (ix2 n c)
      = x (ix2 n c) + ∑ e ∈ Finset.univ.filter (fun e : Fin E => (idx (ix2 e (0 : Fin 1))).toInt = (n.val : Int)),
          upd (ix2 e c) :=
  scatterAdd_rows_apply wf x idx upd n c

end Cert.LibScatterAddRows

end
-- ==== Proof.LibScatterAddVec.lean ====
/-
  Scalar updates added into a vector at a column of positions, at the extended reals, read at an index.

  What `vec.at[pos].add(updates)` lowers to for a vector `[N]`, positions `[E]` held as an `[E, 1]` array and updates
  `[E]`: a scatter with no window axis, the vector's one axis inserted, the one start component that axis. Update entry
  `e` lands at position `pos (e, 0)`, read as a signed integer and NOT clamped; an update whose position is negative or
  at least `N` is dropped. So entry `n` of the result is the vector's entry plus the sum of `updates e` over the `e`
  whose position is `n`.
-/
import Idealize.ShloMosaic.Lib.ValueIdx
import Idealize.ShloMosaic.PureOps.Ideal.Laws

noncomputable section

namespace Cert.LibScatterAddVec

open Idealize.ShloMosaic Idealize.ShloMosaic.ValueIdx

/-- The dimension numbers of that scatter; their conditions are decided on a program's literal shapes. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- On the vector's axis the window starts at the update's position, read signed. -/
theorem start_pos (j : (⟨1, ![E]⟩ : Shape).Idx) (idx : IVec ⟨2, ![E, 1]⟩ w) :
    (vecDims N E wf).start j idx 0 = (idx (ix2 (j 0) (0 : Fin 1))).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The vector's axis is inserted: its window coordinate is `0`. -/
theorem window_pos (j : (⟨1, ![E]⟩ : Shape).Idx) : (vecDims N E wf).window j 0 = 0 := by
  unfold ScatterDims.window
  rw [dif_neg (show (0 : Fin 1) ∉ (vecDims N E wf).sKept from fun h => by
    simp [ScatterDims.sKept, Shape.kept] at h)]

/-- Where an update lands: update index `j` lands at `n` exactly when its position, read signed, is `n`. A position
    that is negative or at least `N` equals no `n`: the update is dropped. -/
theorem resultIdx?_eq_some_iff (idx : IVec ⟨2, ![E, 1]⟩ w) (j : (⟨1, ![E]⟩ : Shape).Idx) (n : Fin N) :
    (vecDims N E wf).resultIdx? j idx = some (ix1 n) ↔ (idx (ix2 (j 0) (0 : Fin 1))).toInt = (n.val : Int) := by
  have h0 := start_pos wf j idx
  have w0 := window_pos wf j
  have hn : n.val < N := n.isLt
  unfold ScatterDims.resultIdx?
  by_cases hall : ∀ a, 0 ≤ (vecDims N E wf).start j idx a + (vecDims N E wf).window j a
      ∧ (vecDims N E wf).start j idx a + (vecDims N E wf).window j a < (⟨1, ![N]⟩ : Shape).size a
  · rw [dif_pos hall]
    constructor
    · intro h
      have h' := Option.some.inj h
      have a0 := (hall 0).1
      have e0 : ((vecDims N E wf).start j idx 0 + (vecDims N E wf).window j 0).toNat = n.val :=
        congrArg Fin.val (congrFun h' 0)
      rw [h0, w0] at a0 e0
      omega
    · intro hs
      refine congrArg some (funext fun a => Fin.ext ?_)
      match a with
      | ⟨0, _⟩ =>
        show ((vecDims N E wf).start j idx 0 + (vecDims N E wf).window j 0).toNat = n.val
        rw [h0, w0]; omega
  · rw [dif_neg hall]
    constructor
    · intro h; cases h
    · intro hs
      refine absurd (fun a => ?_) hall
      match a with
      | ⟨0, _⟩ =>
        show 0 ≤ (vecDims N E wf).start j idx 0 + (vecDims N E wf).window j 0
          ∧ (vecDims N E wf).start j idx 0 + (vecDims N E wf).window j 0 < (N : Int)
        rw [h0, w0]; omega

/-- THE ACCUMULATING SCATTER READ AT `n`: the vector's entry plus the sum of the updates whose position, read signed,
    is `n`. -/
theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  refine Finset.sum_nbij' (fun j => (j 0 : Fin E)) (fun e => ix1 e) ?_ ?_ ?_ ?_ ?_
  · intro j hj
    have hj' := (Finset.mem_filter.mp hj).2
    exact Finset.mem_filter.mpr ⟨Finset.mem_univ _, (resultIdx?_eq_some_iff wf idx j n).mp hj'⟩
  · intro e he
    have he' := (Finset.mem_filter.mp he).2
    exact Finset.mem_filter.mpr ⟨Finset.mem_univ _, (resultIdx?_eq_some_iff wf idx (ix1 e) n).mpr he'⟩
  · intro j _
    exact (eq_ix1 j).symm
  · intro e _
    rfl
  · intro j _
    exact congrArg upd (eq_ix1 j)

/-- The same with the host's accumulating scatter at the ideal instance on the left. -/
theorem host_scatterAdd_vec_apply {φ : FTy} (x : FVec Ideal ⟨1, ![N]⟩ φ) (idx : IVec ⟨2, ![E, 1]⟩ w)
    (upd : FVec Ideal ⟨1, ![E]⟩ φ) (n : Fin N) :
    Host.scatterAdd (vecDims N E wf) x idx upd (ix1 n)
      = x (ix1 n) + ∑ e ∈ Finset.univ.filter (fun e : Fin E => (idx (ix2 e (0 : Fin 1))).toInt = (n.val : Int)),
          upd (ix1 e) :=
  scatterAdd_vec_apply wf x idx upd n

end Cert.LibScatterAddVec

end
-- ==== Proof.LibGatherRows.lean ====
/-
  Whole rows of a table gathered at a column of row numbers, read at an index, for any extents.

  What `table[rows]` lowers to for a table `[N, C]` and row numbers `[R]` held as an `[R, 1]` array: a gather with one
  offset axis (the columns), the row axis collapsed, slices of one row. Result entry `(r, k)` is the table at column `k`
  of the row whose number is `rows (r, 0)`, read as a signed integer and clamped into `0 … N − 1`; the column passes
  through.
-/
import Idealize.ShloMosaic.Lib.ValueIdx

noncomputable section

namespace Cert.LibGatherRows

open Idealize.ShloMosaic Idealize.ShloMosaic.ValueIdx

variable {α : Type}

/-- The dimension numbers of that gather; their conditions are decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather read at `(r, k)`: column `k` of the row numbered `rows (r, 0)`, read signed and clamped into the table. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N R C wf) x idx (ix2 r k)
      = x (ix2 ⟨min (idx (ix2 r (0 : Fin 1))).toInt.toNat (N - 1), by omega⟩ k) := by
  unfold Host.gather
  refine congrArg x (funext fun a => Fin.ext ?_)
  match a with
  | ⟨0, _⟩ =>
    show (rowDims N R C wf).start (ix2 r k) idx 0 + (rowDims N R C wf).batchCoord (ix2 r k) 0
      + (rowDims N R C wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r k) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r k) idx 1 + (rowDims N R C wf).batchCoord (ix2 r k) 1
      + (rowDims N R C wf).offCoord (ix2 r k) 1 = k.val
    rw [GatherDims.batchCoord_eq_zero _ _ _ List.not_mem_nil]
    unfold GatherDims.start
    rw [dif_neg (show ¬ (1 : Fin 2) ∈ (rowDims N R C wf).startIndexMap from
      fun h => Nat.one_ne_zero (congrArg Fin.val (List.mem_singleton.mp h)))]
    simp only [Nat.add_zero, Nat.zero_add]
    rfl

end Cert.LibGatherRows

end
-- ==== Proof.LibHostColumn.lean ====
/-
  A row statistic spread back over the rows, on the host; and a fold that does not mind its starting value twice.

  A host reduction along the rows of an `[n, d]` array comes back as an `[n]` vector. To combine it with the array again
  the host spreads it into a column `[n, 1]` and the column along the rows to `[n, d]` (two `broadcast_in_dim`s, with
  dimension maps `[0]` and `[0, 1]`): entry (r, q) of the result is entry r of the vector. Both steps are stated for
  arbitrary extents. The last lemma: the maximum of a value with a fold of the maximum that started from that same value is
  the fold (what `max(x, axis, initial=-inf)` adds to a reduce that already started from −∞).
-/
import Idealize.ShloMosaic.Lib.Pipeline.Value
import Idealize.ShloMosaic.Lib.ValueIdx
import Idealize.ShloMosaic.PureOps.Ideal

noncomputable section

namespace Cert.LibHostColumn

open Idealize.ShloMosaic Idealize.ShloMosaic.ValueIdx

/-- A vector spread into a column reads, at (r, 0), the vector's entry r. -/
theorem column_apply {α : Type} {n : ℕ} (x : (⟨1, ![n]⟩ : Shape).Idx → α)
    (h : (⟨1, ![n]⟩ : Shape).BroadcastsInDim ⟨2, ![n, 1]⟩ (![0] : Fin 1 → Fin 2)) (r : Fin n) (u : Fin 1) :
    broadcastInDim ⟨2, ![n, 1]⟩ ![0] h x (ix2 r u) = x (ix1 r) := by
  refine broadcastInDim_apply _ h x (ix2 r u) (ix1 r) fun a => ?_
  match a with
  | ⟨0, _⟩ =>
    show r.val = if n = 1 then 0 else r.val
    split
    · have := r.isLt; omega
    · rfl

/-- A column spread along the rows reads, at (r, q), the column's entry r. -/
theorem spread_apply {α : Type} {n d : ℕ} (x : (⟨2, ![n, 1]⟩ : Shape).Idx → α)
    (h : (⟨2, ![n, 1]⟩ : Shape).BroadcastsInDim ⟨2, ![n, d]⟩ (![0, 1] : Fin 2 → Fin 2)) (r : Fin n) (q : Fin d) :
    broadcastInDim ⟨2, ![n, d]⟩ ![0, 1] h x (ix2 r q) = x (ix2 r (0 : Fin 1)) := by
  refine broadcastInDim_apply _ h x (ix2 r q) (ix2 r (0 : Fin 1)) fun a => ?_
  match a with
  | ⟨0, _⟩ =>
    show r.val = if n = 1 then 0 else r.val
    split
    · have := r.isLt; omega
    · rfl
  | ⟨1, _⟩ => rfl

/-- One more maximum with the fold's starting value changes nothing. -/
theorem max_start_fold {ι : Type} (s : Finset ι) (a : EReal) (f : ι → EReal) : max a (s.fold max a f) = s.fold max a f :=
  max_eq_right (Finset.le_fold_max a |>.mpr (Or.inl le_rfl))

end Cert.LibHostColumn

end
-- ==== Proof.LibHostRow.lean ====
/-
  A bias row spread over the rows of a matrix, and a scalar spread over an array, on the host.

  To add a length-`d` vector to every row of an `[n, d]` array the host first regards the vector as one row `[1, d]`
  and then repeats that row `n` times (two `broadcast_in_dim`s, with dimension maps `[1]` and `[0, 1]`): entry (r, q) of
  the result is entry q of the vector. A scalar spread to any shape (dimension map `[]`) reads the scalar everywhere.
  All three steps are stated for arbitrary extents.
-/
import Idealize.ShloMosaic.Lib.Pipeline.Value
import Idealize.ShloMosaic.Lib.ValueIdx

noncomputable section

namespace Cert.LibHostRow

open Idealize.ShloMosaic Idealize.ShloMosaic.ValueIdx

/-- A vector regarded as one row reads, at (0, q), the vector's entry q. -/
theorem row_apply {α : Type} {d : ℕ} (x : (⟨1, ![d]⟩ : Shape).Idx → α)
    (h : (⟨1, ![d]⟩ : Shape).BroadcastsInDim ⟨2, ![1, d]⟩ (![1] : Fin 1 → Fin 2)) (u : Fin 1) (q : Fin d) :
    broadcastInDim ⟨2, ![1, d]⟩ ![1] h x (ix2 u q) = x (ix1 q) := by
  refine broadcastInDim_apply _ h x (ix2 u q) (ix1 q) fun a => ?_
  match a with
  | ⟨0, _⟩ =>
    show q.val = if d = 1 then 0 else q.val
    split
    · have := q.isLt; omega
    · rfl

/-- One row repeated down the rows reads, at (r, q), the row's entry q. -/
theorem rows_apply {α : Type} {n d : ℕ} (x : (⟨2, ![1, d]⟩ : Shape).Idx → α)
    (h : (⟨2, ![1, d]⟩ : Shape).BroadcastsInDim ⟨2, ![n, d]⟩ (![0, 1] : Fin 2 → Fin 2)) (r : Fin n) (q : Fin d) :
    broadcastInDim ⟨2, ![n, d]⟩ ![0, 1] h x (ix2 r q) = x (ix2 (0 : Fin 1) q) := by
  refine broadcastInDim_apply _ h x (ix2 r q) (ix2 (0 : Fin 1) q) fun a => ?_
  match a with
  | ⟨0, _⟩ => rfl
  | ⟨1, _⟩ =>
    show q.val = if d = 1 then 0 else q.val
    split
    · have := q.isLt; omega
    · rfl

/-- A scalar spread to any shape reads, everywhere, the scalar. -/
theorem scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun a => a.elim0

end Cert.LibHostRow

end
-- ==== Proof.KerWords.lean ====
/-
  The host side of the factored graph convolution, read at an index, for the edge list held as 32-bit words.

  * A row of the `[2, E]` edge array cut out and flattened is that row's words.
  * A source word is wrapped before a gather: `select (w <s 0) (w + 100000) w`.
  * The rows of a table gathered at the wrapped sources, widened, and accumulated at the destinations: entry `(i, c)` is the
    start value plus the sum over the edges whose destination word, read signed, is `i`, of the table at column `c` of the
    row the source word selects (wrapped, read signed, clamped).
  * The degree: ones accumulated at the destinations, plus one.
-/
import Idealize.ShloMosaic.Lib.ValueIdx
import Idealize.ShloMosaic.Lib.Pipeline.Value
import Idealize.ShloMosaic.PureOps.Ideal.Laws
import proofs.«119770_j32229434589355_2_alg».proof.Proof.SpecIdx
import proofs.«119770_j32229434589355_2_alg».proof.Proof.LibScatterAddRows
import proofs.«119770_j32229434589355_2_alg».proof.Proof.LibScatterAddVec
import proofs.«119770_j32229434589355_2_alg».proof.Proof.LibGatherRows
import proofs.«119770_j32229434589355_2_alg».proof.Proof.LibHostColumn
import proofs.«119770_j32229434589355_2_alg».proof.Proof.LibHostRow

noncomputable section

namespace Cert.Gcn.Words

open Idealize.ShloMosaic Idealize.ShloMosaic.ValueIdx Finset

/-- Row 0 of the edge array, cut out and flattened, holds the source words. -/
theorem srcRow_apply (ei : (⟨2, ![2, 1600000]⟩ : Shape).Idx → BitVec 32)
    (hs : (⟨2, ![2, 1600000]⟩ : Shape).Slices ![0, 0] ⟨2, ![1, 1600000]⟩)
    (hc : (⟨2, ![1, 1600000]⟩ : Shape).ShapeCasts ⟨1, ![1600000]⟩) (e : Fin 1600000) :
    shapeCast ⟨1, ![1600000]⟩ (extractStridedSlice ⟨2, ![1, 1600000]⟩ ![0, 0] ei hs) hc (ix1 e) = srcW ei e := by
  refine (shapeCast_apply _ hc (ix1 e) (ix2 (0 : Fin 1) e) ?_).trans ?_
  · rw [Shape.rowMajor_val_two, Shape.rowMajor_val_one]
    show 0 * 1600000 + e.val = e.val
    omega
  · exact extractStridedSlice_apply ![0, 0] ei hs (ix2 (0 : Fin 1) e) (ix2 (0 : Fin 2) e) (fun a => by
      match a with
      | ⟨0, _⟩ => rfl
      | ⟨1, _⟩ => exact (Nat.zero_add _).symm)

/-- Row 1 of the edge array, cut out and flattened, holds the destination words. -/
theorem dstRow_apply (ei : (⟨2, ![2, 1600000]⟩ : Shape).Idx → BitVec 32)
    (hs : (⟨2, ![2, 1600000]⟩ : Shape).Slices ![1, 0] ⟨2, ![1, 1600000]⟩)
    (hc : (⟨2, ![1, 1600000]⟩ : Shape).ShapeCasts ⟨1, ![1600000]⟩) (e : Fin 1600000) :
    shapeCast ⟨1, ![1600000]⟩ (extractStridedSlice ⟨2, ![1, 1600000]⟩ ![1, 0] ei hs) hc (ix1 e) = dstW ei e := by
  refine (shapeCast_apply _ hc (ix1 e) (ix2 (0 : Fin 1) e) ?_).trans ?_
  · rw [Shape.rowMajor_val_two, Shape.rowMajor_val_one]
    show 0 * 1600000 + e.val = e.val
    omega
  · exact extractStridedSlice_apply ![1, 0] ei hs (ix2 (0 : Fin 1) e) (ix2 (1 : Fin 2) e) (fun a => by
      match a with
      | ⟨0, _⟩ => rfl
      | ⟨1, _⟩ => exact (Nat.zero_add _).symm)

theorem cmpi_at {s : Shape} {w : ℕ} (p : CmpIPredicate) (x y : IVec s w) (i : s.Idx) :
    cmpi p x y i = IntOp.cmpi p (x i) (y i) := rfl

theorem addi_at {s : Shape} {w : ℕ} (x y : IVec s w) (i : s.Idx) : addi x y i = IntOp.addi (x i) (y i) := rfl

/-- The wrapped words, as a column, read at `(e, 0)`. -/
theorem wrapCol_apply {E : ℕ} (v : IVec ⟨1, ![E]⟩ 32)
    (hb : (⟨0, ![]⟩ : Shape).BroadcastsInDim ⟨1, ![E]⟩ (![] : Fin 0 → Fin 1))
    (hcol : (⟨1, ![E]⟩ : Shape).BroadcastsInDim ⟨2, ![E, 1]⟩ (![0] : Fin 1 → Fin 2)) (e : Fin E) :
    broadcastInDim ⟨2, ![E, 1]⟩ ![0] hcol
        (select (cmpi .slt v (broadcastInDim ⟨1, ![E]⟩ ![] hb (constantI ⟨0, ![]⟩ 32 0#32)))
          (addi v (broadcastInDim ⟨1, ![E]⟩ ![] hb (constantI ⟨0, ![]⟩ 32 100000#32))) v) (ix2 e (0 : Fin 1))
      = wrapW (v (ix1 e)) := by
  have h0 : broadcastInDim ⟨1, ![E]⟩ ![] hb (constantI ⟨0, ![]⟩ 32 0#32) (ix1 e) = 0#32 :=
    Cert.LibHostRow.scalar_apply _ hb _
  have h1 : broadcastInDim ⟨1, ![E]⟩ ![] hb (constantI ⟨0, ![]⟩ 32 100000#32) (ix1 e) = 100000#32 :=
    Cert.LibHostRow.scalar_apply _ hb _
  rw [Cert.LibHostColumn.column_apply, select_apply, cmpi_at, addi_at, h0, h1]
  rfl

/-- Rows gathered at a column of sources, widened, accumulated at a column of destinations. -/
theorem edgeSum_apply {C : ℕ} (hs : FVec Ideal ⟨2, ![100000, C]⟩ .bf16)
    (srcCol dstCol : IVec ⟨2, ![1600000, 1]⟩ 32) (zero : FVec Ideal ⟨2, ![100000, C]⟩ .f32)
    (wfS : ScatterDims.WF ⟨2, ![100000, C]⟩ ⟨2, ![1600000, 1]⟩ ⟨2, ![1600000, C]⟩ [1] [0] [0] 1)
    (wfG : GatherDims.WF ⟨2, ![100000, C]⟩ ⟨2, ![1600000, 1]⟩ ⟨2, ![1600000, C]⟩ [1] [0] [] [0] [] 1 ![1, C])
    (hlt : FTy.bf16.bits < FTy.f32.bits) (i : Fin 100000) (c : Fin C) :
    Host.scatterAdd (Cert.LibScatterAddRows.rowDims 100000 1600000 C wfS) zero dstCol
        (extf .f32 (Host.gather (Cert.LibGatherRows.rowDims 100000 1600000 C wfG) hs srcCol) hlt) (ix2 i c)
      = zero (ix2 i c) + ∑ e ∈ univ.filter (fun e : Fin 1600000 => (dstCol (ix2 e (0 : Fin 1))).toInt = (i.val : ℤ)),
          hs (ix2 ⟨min (srcCol (ix2 e (0 : Fin 1))).toInt.toNat (100000 - 1), by omega⟩ c) := by
  rw [Cert.LibScatterAddRows.host_scatterAdd_rows_apply]
  refine congrArg (zero (ix2 i c) + ·) ?_
  refine Finset.sum_congr rfl fun e _ => ?_
  rw [extf_apply]
  exact Cert.LibGatherRows.gather_rows_apply (by omega) wfG hs srcCol e c

/-- Ones accumulated at a column of destinations. -/
theorem degSum_apply (dstCol : IVec ⟨2, ![1600000, 1]⟩ 32) (zero : FVec Ideal ⟨1, ![100000]⟩ .f32)
    (ones : FVec Ideal ⟨1, ![1600000]⟩ .f32)
    (wfS : ScatterDims.WF ⟨1, ![100000]⟩ ⟨2, ![1600000, 1]⟩ ⟨1, ![1600000]⟩ [] [0] [0] 1) (i : Fin 100000) :
    Host.scatterAdd (Cert.LibScatterAddVec.vecDims 100000 1600000 wfS) zero dstCol ones (ix1 i)
      = zero (ix1 i) + ∑ e ∈ univ.filter (fun e : Fin 1600000 => (dstCol (ix2 e (0 : Fin 1))).toInt = (i.val : ℤ)),
          ones (ix1 e) :=
  Cert.LibScatterAddVec.host_scatterAdd_vec_apply wfS zero dstCol ones i

end Cert.Gcn.Words

end
-- ==== Proof.LibColumn.lean ====
/-
  A column kept beside an array: the two layout steps of a row-wise reduction with its axis kept.

  A vector of length a regarded as an a × 1 column reads, at (i, u), the vector at i; an a × 1 column broadcast
  across b columns reads, at (p, c), the column at p. Both hold for every a and b (a = 1 and b = 1 included:
  the unit coordinate is then the only one there is). Indices are written with the literal-extent constructors
  ix1, ix2, so that the statements apply by unification to a term written the same way.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`, whatever the unit
    coordinate `u`. Every `a`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at `p`. Every `a` and `b`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KerHost.lean ====
/-
  The host side of the idealized kernel: what its stretches of host operations hold, as functions of the arguments.

  The destination words as a column; the source words wrapped, as a column; the degree (ones accumulated at the
  destinations, plus one); the normalisation column (the inverse square root of the degree where that is positive, else
  zero); and, for a table of rows, the rows gathered at the sources and accumulated at the destinations. Each is read at an
  index in the terms of the specification.
-/
import proofs.«119770_j32229434589355_2_alg».proof.Proof.Gen.KernelIdeal.Frame
import proofs.«119770_j32229434589355_2_alg».proof.Proof.KerWords
import proofs.«119770_j32229434589355_2_alg».proof.Proof.LibColumn
import Idealize.ShloMosaic.Lib.ValueIdx

set_option maxRecDepth 16384

noncomputable section

namespace Cert.KernelIdeal.HostV

open Cert.KernelIdeal Cert.KernelIdeal.Gen
open Idealize.ShloMosaic Idealize.ShloMosaic.TcCoe Idealize.ShloMosaic.ValueIdx
open Idealize.SL.Sem
open Cert.Gcn

/-- The destination words, flattened. -/
def dstVec (a1 : IVec S2x1600000 32) : IVec S1600000 32 :=
  shapeCast S1600000 (extractStridedSlice S1x1600000 ![1, 0] a1 slices_S2x1600000_S1x1600000_1_0) shapeCasts_S1x1600000_S1600000

/-- The source words, flattened. -/
def srcVec (a1 : IVec S2x1600000 32) : IVec S1600000 32 :=
  shapeCast S1600000 (extractStridedSlice S1x1600000 ![0, 0] a1 slices_S2x1600000_S1x1600000_0_0) shapeCasts_S1x1600000_S1600000

/-- The destination words as a column. -/
def dstCol (a1 : IVec S2x1600000 32) : IVec S1600000x1 32 :=
  broadcastInDim S1600000x1 ![0] bcast_S1600000_S1600000x1_0 (dstVec a1)

/-- The source words, wrapped, as a column. -/
def srcCol (a1 : IVec S2x1600000 32) : IVec S1600000x1 32 :=
  broadcastInDim S1600000x1 ![0] bcast_S1600000_S1600000x1_0
    (select (cmpi .slt (srcVec a1) (broadcastInDim S1600000 ![] bcast_S_S1600000 (constantI S_ 32 0#32)))
      (addi (srcVec a1) (broadcastInDim S1600000 ![] bcast_S_S1600000 (constantI S_ 32 100000#32))) (srcVec a1))

/-- The degree. -/
def degV (a1 : IVec S2x1600000 32) : FVec Ideal S100000 .f32 :=
  addf (Host.scatterAdd scatter_S100000_S1600000x1_S1600000_n_0_0_1
      (broadcastInDim S100000 ![] bcast_S_S100000 (constant (F := Ideal) S_ .f32 0x00000000#32)) (dstCol a1)
      (broadcastInDim S1600000 ![] bcast_S_S1600000 (constant (F := Ideal) S_ .f32 0x3F800000#32)))
    (broadcastInDim S100000 ![] bcast_S_S100000 (constant (F := Ideal) S_ .f32 0x3F800000#32))

/-- The normalisation column. -/
def dinv2 (a1 : IVec S2x1600000 32) : FVec Ideal S100000x1 .f32 :=
  shapeCast S100000x1
    (select (cmpf .ogt (degV a1) (broadcastInDim S100000 ![] bcast_S_S100000 (constant (F := Ideal) S_ .f32 0x00000000#32)))
      (Host.rsqrt (degV a1)) (broadcastInDim S100000 ![] bcast_S_S100000 (constant (F := Ideal) S_ .f32 0x00000000#32)))
    shapeCasts_S100000_S100000x1

/-- The rows of a 64-column table gathered at the sources and accumulated at the destinations. -/
def es64 (hs : FVec Ideal S100000x64 .bf16) (a1 : IVec S2x1600000 32) : FVec Ideal S100000x64 .f32 :=
  Host.scatterAdd scatter_S100000x64_S1600000x1_S1600000x64_1_0_0_1
    (broadcastInDim S100000x64 ![] bcast_S_S100000x64 (constant (F := Ideal) S_ .f32 0x00000000#32)) (dstCol a1)
    (extf .f32 (Host.gather gather_S100000x64_S1600000x1_S1600000x64_1_0_n_n_0_1_164 hs (srcCol a1)) bitsLt_bf16_f32)

/-- The rows of a 40-column table gathered at the sources and accumulated at the destinations. -/
def es40 (hs : FVec Ideal S100000x40 .bf16) (a1 : IVec S2x1600000 32) : FVec Ideal S100000x40 .f32 :=
  Host.scatterAdd scatter_S100000x40_S1600000x1_S1600000x40_1_0_0_1
    (broadcastInDim S100000x40 ![] bcast_S_S100000x40 (constant (F := Ideal) S_ .f32 0x00000000#32)) (dstCol a1)
    (extf .f32 (Host.gather gather_S100000x40_S1600000x1_S1600000x40_1_0_n_n_0_1_140 hs (srcCol a1)) bitsLt_bf16_f32)

/-! ## Read at an index -/

theorem dstCol_apply (a1 : IVec S2x1600000 32) (e : Fin 1600000) :
    dstCol a1 (ix2 e (0 : Fin 1)) = dstW a1 e := by
  unfold dstCol dstVec
  rw [Cert.LibHostColumn.column_apply]
  exact Words.dstRow_apply a1 _ _ e

theorem srcCol_apply (a1 : IVec S2x1600000 32) (e : Fin 1600000) :
    srcCol a1 (ix2 e (0 : Fin 1)) = wrapW (srcW a1 e) := by
  unfold srcCol
  refine (Words.wrapCol_apply (srcVec a1) _ _ e).trans ?_
  unfold srcVec
  rw [Words.srcRow_apply]

theorem degV_apply (a1 : IVec S2x1600000 32) (i : Fin 100000) :
    degV a1 (ix1 i) = kDeg zW oneW (fun e : Fin 1600000 => (dstW a1 e).toInt) i := by
  unfold degV
  have hdc : ∀ e : Fin 1600000, dstCol a1 (ix2 e (0 : Fin 1)) = dstW a1 e := dstCol_apply a1
  generalize dstCol a1 = dc at hdc ⊢
  rw [addf_apply]
  refine congrArg₂ (· + ·) ?_ ?_
  · refine (Words.degSum_apply dc _ _ scatter_S100000_S1600000x1_S1600000_n_0_0_1_wf i).trans ?_
    unfold aggV
    rw [Cert.LibHostRow.scalar_apply]
    refine congrArg (zW + ·) (Finset.sum_congr ?_ fun e _ => ?_)
    · ext e
      simp only [Finset.mem_filter, Finset.mem_univ, true_and]
      rw [hdc]
    · rw [Cert.LibHostRow.scalar_apply]
      rfl
  · rw [Cert.LibHostRow.scalar_apply]
    rfl

theorem hostRsqrt_at {s : Shape} (x : FVec Ideal s .f32) (i : s.Idx) : Host.rsqrt x i = FloatOps.hostUnary .rsqrt (x i) := rfl

theorem dinv2_apply (a1 : IVec S2x1600000 32) (i : Fin 100000) (u : Fin 1) :
    dinv2 a1 (ix2 i u) = dinvOf zW (kDeg zW oneW (fun e : Fin 1600000 => (dstW a1 e).toInt) i) := by
  unfold dinv2
  have hdeg := degV_apply a1 i
  generalize degV a1 = dg at hdeg ⊢
  rw [Cert.LibColumn.shapeCast_a_a1_apply, select_apply, cmpf_apply, hostRsqrt_at, Cert.LibHostRow.scalar_apply, hdeg]
  generalize kDeg zW oneW (fun e : Fin 1600000 => (dstW a1 e).toInt) i = dv
  rfl

theorem es64_apply (hs : FVec Ideal S100000x64 .bf16) (a1 : IVec S2x1600000 32) (i : Fin 100000) (c : Fin 64) :
    es64 hs a1 (ix2 i c)
      = agg zW (fun e : Fin 1600000 => (dstW a1 e).toInt) (fun e c => hs (ix2 (posOf (srcW a1 e)) c)) i c := by
  unfold es64
  have hdc : ∀ e : Fin 1600000, dstCol a1 (ix2 e (0 : Fin 1)) = dstW a1 e := dstCol_apply a1
  have hsc : ∀ e : Fin 1600000, srcCol a1 (ix2 e (0 : Fin 1)) = wrapW (srcW a1 e) := srcCol_apply a1
  generalize dstCol a1 = dc at hdc ⊢
  generalize srcCol a1 = sc at hsc ⊢
  refine (Words.edgeSum_apply hs sc dc _ scatter_S100000x64_S1600000x1_S1600000x64_1_0_0_1_wf
    gather_S100000x64_S1600000x1_S1600000x64_1_0_n_n_0_1_164_wf bitsLt_bf16_f32 i c).trans ?_
  unfold agg
  rw [Cert.LibHostRow.scalar_apply]
  refine congrArg (zW + ·) (Finset.sum_congr ?_ fun e _ => ?_)
  · ext e
    simp only [Finset.mem_filter, Finset.mem_univ, true_and]
    rw [hdc]
  · refine congrArg hs (congrArg (ix2 · c) (Fin.ext ?_))
    show min (sc (ix2 e (0 : Fin 1))).toInt.toNat (100000 - 1) = min (wrapW (srcW a1 e)).toInt.toNat (100000 - 1)
    rw [hsc]

theorem es40_apply (hs : FVec Ideal S100000x40 .bf16) (a1 : IVec S2x1600000 32) (i : Fin 100000) (c : Fin 40) :
    es40 hs a1 (ix2 i c)
      = agg zW (fun e : Fin 1600000 => (dstW a1 e).toInt) (fun e c => hs (ix2 (posOf (srcW a1 e)) c)) i c := by
  unfold es40
  have hdc : ∀ e : Fin 1600000, dstCol a1 (ix2 e (0 : Fin 1)) = dstW a1 e := dstCol_apply a1
  have hsc : ∀ e : Fin 1600000, srcCol a1 (ix2 e (0 : Fin 1)) = wrapW (srcW a1 e) := srcCol_apply a1
  generalize dstCol a1 = dc at hdc ⊢
  generalize srcCol a1 = sc at hsc ⊢
  refine (Words.edgeSum_apply hs sc dc _ scatter_S100000x40_S1600000x1_S1600000x40_1_0_0_1_wf
    gather_S100000x40_S1600000x1_S1600000x40_1_0_n_n_0_1_140_wf bitsLt_bf16_f32 i c).trans ?_
  unfold agg
  rw [Cert.LibHostRow.scalar_apply]
  refine congrArg (zW + ·) (Finset.sum_congr ?_ fun e _ => ?_)
  · ext e
    simp only [Finset.mem_filter, Finset.mem_univ, true_and]
    rw [hdc]
  · refine congrArg hs (congrArg (ix2 · c) (Fin.ext ?_))
    show min (sc (ix2 e (0 : Fin 1))).toInt.toNat (100000 - 1) = min (wrapW (srcW a1 e)).toInt.toNat (100000 - 1)
    rw [hsc]

end Cert.KernelIdeal.HostV

end
-- ==== Proof.LibRowBlocks.lean ====
/-
  Rows of a block and rows of the whole array.

  The kernel works on blocks of consecutive rows; the reference works on the whole array. Every step of the
  dense stack acts on each row by itself: a product with a fixed matrix on the right, the addition of a fixed
  bias row, a function applied entry by entry, the sum of two arrays. So if a block holds the rows
  o, o + 1, … of a taller array before such a step, it holds the same rows of the taller result after it.
  This file states that relation (`RowsAt`) and proves that each kind of step keeps it.
-/
import Idealize.ShloMosaic.Lib.ValueIdx
import Idealize.ShloMosaic.PureOps.Ideal.Laws
import proofs.«119770_j32229434589355_2_alg».proof.Proof.LibMatProduct

noncomputable section

namespace Cert.Bridge

open Idealize.ShloMosaic Idealize.ShloMosaic.ValueIdx

/-- The array `hk` of `M` rows is the stretch of `hr` that starts at row `o`: row `p` of `hk` is row `o + p` of `hr`. -/
def RowsAt {α : Type} {M R N : ℕ} (o : ℕ) (hk : (⟨2, ![M, N]⟩ : Shape).Idx → α) (hr : (⟨2, ![R, N]⟩ : Shape).Idx → α) : Prop :=
  ∀ (p : Fin M) (r : Fin R) (j : Fin N), r.val = o + p.val → hk (ix2 p j) = hr (ix2 r j)

variable {α β γ δ : Type} {M R N : ℕ} {o : ℕ}

/-- A function applied entry by entry keeps the relation. -/
theorem RowsAt.map (f : α → β) {a : (⟨2, ![M, N]⟩ : Shape).Idx → α} {a' : (⟨2, ![R, N]⟩ : Shape).Idx → α}
    (h : RowsAt o a a') : RowsAt o (fun i => f (a i)) (fun i => f (a' i)) :=
  fun p r j e => congrArg f (h p r j e)

/-- A function of two arrays applied entry by entry keeps the relation. -/
theorem RowsAt.map₂ (f : α → β → γ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    (ha : RowsAt o a a') (hb : RowsAt o b b') : RowsAt o (fun i => f (a i) (b i)) (fun i => f (a' i) (b' i)) :=
  fun p r j e => by
    show f (a (ix2 p j)) (b (ix2 p j)) = f (a' (ix2 r j)) (b' (ix2 r j))
    rw [ha p r j e, hb p r j e]

/-- A function of three arrays applied entry by entry keeps the relation. -/
theorem RowsAt.map₃ (f : α → β → γ → δ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    {c : (⟨2, ![M, N]⟩ : Shape).Idx → γ} {c' : (⟨2, ![R, N]⟩ : Shape).Idx → γ}
    (ha : RowsAt o a a') (hb : RowsAt o b b') (hc : RowsAt o c c') :
    RowsAt o (fun i => f (a i) (b i) (c i)) (fun i => f (a' i) (b' i) (c' i)) :=
  fun p r j e => by
    show f (a (ix2 p j)) (b (ix2 p j)) (c (ix2 p j)) = f (a' (ix2 r j)) (b' (ix2 r j)) (c' (ix2 r j))
    rw [ha p r j e, hb p r j e, hc p r j e]

/-- Two arrays that hold one value everywhere are related. -/
theorem RowsAt.const (v : α) : RowsAt (M := M) (R := R) (N := N) o (fun _ => v) (fun _ => v) :=
  fun _ _ _ _ => rfl

/-- Two arrays whose entries depend on the column only, through one function, are related. -/
theorem RowsAt.ofCols (g : Fin N → α) {a : (⟨2, ![M, N]⟩ : Shape).Idx → α} {a' : (⟨2, ![R, N]⟩ : Shape).Idx → α}
    (ha : ∀ p j, a (ix2 p j) = g j) (ha' : ∀ r j, a' (ix2 r j) = g j) : RowsAt o a a' :=
  fun p r j _ => (ha p j).trans (ha' r j).symm

/-- The product with a fixed matrix on the right keeps the relation: row `p` of the product only reads row `p`
    of the left factor. -/
theorem RowsAt.prod {K : ℕ} {x : (⟨2, ![M, K]⟩ : Shape).Idx → EReal} {x' : (⟨2, ![R, K]⟩ : Shape).Idx → EReal}
    (h : RowsAt o x x') (w : (⟨2, ![K, N]⟩ : Shape).Idx → EReal) :
    RowsAt o (Cert.MatProduct.prod x w) (Cert.MatProduct.prod x' w) :=
  fun p r j e => by
    show (∑ k : Fin K, x (ix2 p k) * w (ix2 k j)) = ∑ k : Fin K, x' (ix2 r k) * w (ix2 k j)
    exact Finset.sum_congr rfl fun k _ => by rw [h p r k e]

/-- Related arrays are equal where the taller one is read at the related row. -/
theorem RowsAt.apply {a : (⟨2, ![M, N]⟩ : Shape).Idx → α} {a' : (⟨2, ![R, N]⟩ : Shape).Idx → α}
    (h : RowsAt o a a') (p : Fin M) (r : Fin R) (j : Fin N) (e : r.val = o + p.val) : a (ix2 p j) = a' (ix2 r j) :=
  h p r j e

end Cert.Bridge

end
-- ==== Proof.LibRowBias.lean ====
/-
  A bias row added to every row of an array, with or without a floor, as one whole-array function.

  `addRow x b` is the `[R, N]` array whose entry `(r, c)` is `x (r, c) + b (0, c)`, on the extended reals, for a one-row
  array `b` of shape `[1, N]`; `addRowMax x b z` is the same floored at `z`, entry by entry. A vector unit that spreads
  the row down the rows, adds, and takes the maximum with a splat computes exactly these, for any extents; and both
  functions act on each row by itself, so they keep the relation "a block is a stretch of consecutive rows of a
  taller array".
-/
import Idealize.ShloMosaic.Lib.ValueIdx
import Idealize.ShloMosaic.Lib.Pipeline.Value
import Idealize.ShloMosaic.PureOps.Ideal.Laws
import proofs.«119770_j32229434589355_2_alg».proof.Proof.LibMatProduct

noncomputable section

namespace Cert.RowBias

open Idealize.ShloMosaic Idealize.ShloMosaic.ValueIdx
open Cert.MatProduct (rowOf colOf)

/-- Every row of `x` plus the one row of `b`, entry by entry. -/
def addRow {R N : ℕ} (x : (⟨2, ![R, N]⟩ : Shape).Idx → EReal) (b : (⟨2, ![1, N]⟩ : Shape).Idx → EReal) :
    (⟨2, ![R, N]⟩ : Shape).Idx → EReal :=
  fun y => x y + b (ix2 0 (colOf y))

/-- Every row of `x` plus the one row of `b`, floored at `z`, entry by entry. -/
def addRowMax {R N : ℕ} (x : (⟨2, ![R, N]⟩ : Shape).Idx → EReal) (b : (⟨2, ![1, N]⟩ : Shape).Idx → EReal) (z : EReal) :
    (⟨2, ![R, N]⟩ : Shape).Idx → EReal :=
  fun y => max (x y + b (ix2 0 (colOf y))) z

/-- A one-row array spread down `R` rows reads, at `(r, c)`, the row's entry `c`. -/
theorem spreadRow_apply {R N : ℕ} (b : (⟨2, ![1, N]⟩ : Shape).Idx → EReal)
    (h : (⟨2, ![1, N]⟩ : Shape).Broadcasts ⟨2, ![R, N]⟩) (y : (⟨2, ![R, N]⟩ : Shape).Idx) :
    broadcastTo ⟨2, ![R, N]⟩ b h y = b (ix2 0 (colOf y)) := by
  refine broadcastTo_apply b h y (ix2 0 (colOf y)) fun a => ?_
  match a with
  | ⟨0, _⟩ => exact (if_pos rfl).symm
  | ⟨1, _⟩ =>
    show (y 1).val = if N = 1 then 0 else (y 1).val
    have hy : (y 1).val < N := (y 1).isLt
    split_ifs with hN
    · omega
    · rfl

/-- The vector unit's `x + spread b`, through the identity casts the lowering leaves around both operands. -/
theorem vec_addRow {R N : ℕ} (x : FVec Ideal ⟨2, ![R, N]⟩ .f32) (b : FVec Ideal ⟨2, ![1, N]⟩ .f32)
    (h0 : (⟨2, ![R, N]⟩ : Shape).ShapeCasts ⟨2, ![R, N]⟩) (h1 h2 : (⟨2, ![1, N]⟩ : Shape).ShapeCasts ⟨2, ![1, N]⟩)
    (hb : (⟨2, ![1, N]⟩ : Shape).Broadcasts ⟨2, ![R, N]⟩) :
    addf (shapeCast ⟨2, ![R, N]⟩ x h0) (broadcastTo ⟨2, ![R, N]⟩ (shapeCast ⟨2, ![1, N]⟩ (shapeCast ⟨2, ![1, N]⟩ b h1) h2) hb)
      = addRow x b := by
  rw [shapeCast_self, shapeCast_self, shapeCast_self]
  funext y
  rw [addf_apply, spreadRow_apply]
  rfl

/-- The same floored at a splat of `z`. -/
theorem vec_addRowMax {R N : ℕ} (x : FVec Ideal ⟨2, ![R, N]⟩ .f32) (b : FVec Ideal ⟨2, ![1, N]⟩ .f32)
    (h0 : (⟨2, ![R, N]⟩ : Shape).ShapeCasts ⟨2, ![R, N]⟩) (h1 h2 : (⟨2, ![1, N]⟩ : Shape).ShapeCasts ⟨2, ![1, N]⟩)
    (hb : (⟨2, ![1, N]⟩ : Shape).Broadcasts ⟨2, ![R, N]⟩) (z : Ideal .f32) :
    maximumf (addf (shapeCast ⟨2, ![R, N]⟩ x h0) (broadcastTo ⟨2, ![R, N]⟩ (shapeCast ⟨2, ![1, N]⟩ (shapeCast ⟨2, ![1, N]⟩ b h1) h2) hb))
        (broadcast ⟨2, ![R, N]⟩ z)
      = addRowMax x b z := by
  rw [vec_addRow]
  funext y
  rw [maximumf_apply, broadcast_apply]
  rfl

/-- Two products agree at two entries when the rows and the columns those entries read agree. -/
theorem prod_entry_congr {M M' K N N' : ℕ} {x : (⟨2, ![M, K]⟩ : Shape).Idx → EReal} {x' : (⟨2, ![M', K]⟩ : Shape).Idx → EReal}
    {w : (⟨2, ![K, N]⟩ : Shape).Idx → EReal} {w' : (⟨2, ![K, N']⟩ : Shape).Idx → EReal}
    (y : (⟨2, ![M, N]⟩ : Shape).Idx) (y' : (⟨2, ![M', N']⟩ : Shape).Idx)
    (hx : ∀ k : Fin K, x (ix2 (rowOf y) k) = x' (ix2 (rowOf y') k))
    (hw : ∀ k : Fin K, w (ix2 k (colOf y)) = w' (ix2 k (colOf y'))) :
    Cert.MatProduct.prod x w y = Cert.MatProduct.prod x' w' y' :=
  Finset.sum_congr rfl fun k _ => by rw [hx k, hw k]

/-- `addRow` agrees at two entries when the entries and the bias entries they read agree. -/
theorem addRow_entry_congr {R R' N N' : ℕ} {x : (⟨2, ![R, N]⟩ : Shape).Idx → EReal} {x' : (⟨2, ![R', N']⟩ : Shape).Idx → EReal}
    {b : (⟨2, ![1, N]⟩ : Shape).Idx → EReal} {b' : (⟨2, ![1, N']⟩ : Shape).Idx → EReal}
    (y : (⟨2, ![R, N]⟩ : Shape).Idx) (y' : (⟨2, ![R', N']⟩ : Shape).Idx)
    (hx : x y = x' y') (hb : b (ix2 0 (colOf y)) = b' (ix2 0 (colOf y'))) :
    addRow x b y = addRow x' b' y' := by
  show x y + b (ix2 0 (colOf y)) = x' y' + b' (ix2 0 (colOf y'))
  rw [hx, hb]

/-- `addRowMax` agrees at two entries when the entries and the bias entries they read agree. -/
theorem addRowMax_entry_congr {R R' N N' : ℕ} {x : (⟨2, ![R, N]⟩ : Shape).Idx → EReal} {x' : (⟨2, ![R', N']⟩ : Shape).Idx → EReal}
    {b : (⟨2, ![1, N]⟩ : Shape).Idx → EReal} {b' : (⟨2, ![1, N']⟩ : Shape).Idx → EReal} (z : EReal)
    (y : (⟨2, ![R, N]⟩ : Shape).Idx) (y' : (⟨2, ![R', N']⟩ : Shape).Idx)
    (hx : x y = x' y') (hb : b (ix2 0 (colOf y)) = b' (ix2 0 (colOf y'))) :
    addRowMax x b z y = addRowMax x' b' z y' := by
  show max (x y + b (ix2 0 (colOf y))) z = max (x' y' + b' (ix2 0 (colOf y'))) z
  rw [hx, hb]

/-- A length-`N` vector regarded as one row reads, at `(0, c)`, the vector's entry `c`. -/
theorem vecRow_apply {α : Type} {N : ℕ} (b : (⟨1, ![N]⟩ : Shape).Idx → α)
    (h : (⟨1, ![N]⟩ : Shape).ShapeCasts ⟨2, ![1, N]⟩) (c : Fin N) :
    shapeCast ⟨2, ![1, N]⟩ b h (ix2 (0 : Fin 1) c) = b (ix1 c) := by
  refine shapeCast_apply b h (ix2 (0 : Fin 1) c) (ix1 c) ?_
  rw [Shape.rowMajor_val_one, Shape.rowMajor_val_two]
  show c.val = 0 * N + c.val
  omega

end Cert.RowBias

end
-- ==== Proof.LibColumnBroadcast.lean ====
/-
  A column spread along the columns of a matrix, read at an index, for any extents: an `[a, 1]` array
  broadcast to `[a, b]` holds, at `(p, c)`, the column's entry `p` whatever `c` is.
-/
import Idealize.ShloMosaic.Lib.ValueIdx
import Idealize.ShloMosaic.Lib.Pipeline.Value

noncomputable section

namespace Cert.Layout

open Idealize.ShloMosaic Idealize.ShloMosaic.ValueIdx

variable {α : Type}

/-- An `[a, 1]` array broadcast to `[a, b]` reads, at `(p, c)`, the operand's entry `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout

end
-- ==== Proof.LibRowScalars.lean ====
/-
  Reading a block of rows one row at a time, for any number of rows `a` and any row length `b`:

  * the sum along the lanes of an `[a, b]` array, at row `p`, is `∑ k : Fin b` of the entries of row `p`;
  * a vector of `a` entries regarded as an `[a, 1]` column has entry `p` in row `p`;
  * the single entry of a `[1, 1]` array broadcast down an `[a, 1]` column is that entry in every row;
  * the leading `m` columns of an `[a, b]` array, at `(p, k)`, are the array at `(p, k)`;
  * three `[a, 1]` columns laid side by side into `[a, 3]` have, in row `p`, the first column's entry at
    column 0, the second's at column 1, the third's at column 2.

  All hold for every extent `a` (and `b`, `m ≤ b`); the column count of the last one is the literal 3.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowScalars

open Idealize.ShloMosaic Idealize.ShloMosaic.ValueIdx

variable {α : Type}

/-- The lane sum of an `[a, b]` array of extended reals at row `p`: the sum of that row's `b` entries. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext d
  match d with
  | ⟨0, _⟩ => rfl
  | ⟨1, _⟩ => rfl

/-- A vector of `a` entries cast to an `[a, 1]` column reads, at `(p, u)`, entry `p`. -/
theorem column_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The one entry of a `[1, 1]` array broadcast down an `[a, 1]` column is that entry, in every row. -/
theorem splat11_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  have hu : u = 0 := Subsingleton.elim _ _
  subst hu
  exact broadcastTo_1b_ab_apply v h p 0

/-- The leading `m` columns of an `[a, b]` array read, at `(p, k)`, the array at `(p, k)`. -/
theorem leadingCols_apply {a b m : ℕ} (X : (⟨2, ![a, b]⟩ : Shape).Idx → α)
    (h : (⟨2, ![a, b]⟩ : Shape).Slices ![0, 0] ⟨2, ![a, m]⟩) (p : Fin a) (k : Fin m) (k' : Fin b) (hk : k'.val = k.val) :
    extractStridedSlice ⟨2, ![a, m]⟩ ![0, 0] X h (ix2 p k) = X (ix2 p k') :=
  slice2_axis1_apply 0 X h p k k' (by rw [hk, Nat.zero_add])

section ThreeColumns

variable {a : ℕ} (x y z : (⟨2, ![a, 1]⟩ : Shape).Idx → α)
  (h : Shape.Concatenates [(⟨2, ![a, 1]⟩ : Shape), ⟨2, ![a, 1]⟩, ⟨2, ![a, 1]⟩] ⟨2, ![a, 3]⟩ 1)

/-- Three columns side by side, read in column 0: the first column. -/
theorem cols3_apply_0 (p : Fin a) :
    concatenate ⟨2, ![a, 3]⟩ 1 [⟨⟨2, ![a, 1]⟩, x⟩, ⟨⟨2, ![a, 1]⟩, y⟩, ⟨⟨2, ![a, 1]⟩, z⟩] h (ix2 p (0 : Fin 3))
      = x (ix2 p (0 : Fin 1)) :=
  concatenate_apply_piece (t := ⟨2, ![a, 3]⟩) (1 : Fin 2) [⟨⟨2, ![a, 1]⟩, x⟩, ⟨⟨2, ![a, 1]⟩, y⟩, ⟨⟨2, ![a, 1]⟩, z⟩] h
    (ix2 p (0 : Fin 3)) 0 (by show 0 < 3; omega) ⟨2, ![a, 1]⟩ x rfl rfl 0 rfl (ix2 p (0 : Fin 1))
    (fun b hb => by
      match b with
      | ⟨0, _⟩ => rfl
      | ⟨1, _⟩ => exact absurd rfl hb)
    rfl

/-- Three columns side by side, read in column 1: the second column. -/
theorem cols3_apply_1 (p : Fin a) :
    concatenate ⟨2, ![a, 3]⟩ 1 [⟨⟨2, ![a, 1]⟩, x⟩, ⟨⟨2, ![a, 1]⟩, y⟩, ⟨⟨2, ![a, 1]⟩, z⟩] h (ix2 p (1 : Fin 3))
      = y (ix2 p (0 : Fin 1)) :=
  concatenate_apply_piece (t := ⟨2, ![a, 3]⟩) (1 : Fin 2) [⟨⟨2, ![a, 1]⟩, x⟩, ⟨⟨2, ![a, 1]⟩, y⟩, ⟨⟨2, ![a, 1]⟩, z⟩] h
    (ix2 p (1 : Fin 3)) 1 (by show 1 < 3; omega) ⟨2, ![a, 1]⟩ y rfl rfl 1 rfl (ix2 p (0 : Fin 1))
    (fun b hb => by
      match b with
      | ⟨0, _⟩ => rfl
      | ⟨1, _⟩ => exact absurd rfl hb)
    rfl

/-- Three columns side by side, read in column 2: the third column. -/
theorem cols3_apply_2 (p : Fin a) :
    concatenate ⟨2, ![a, 3]⟩ 1 [⟨⟨2, ![a, 1]⟩, x⟩, ⟨⟨2, ![a, 1]⟩, y⟩, ⟨⟨2, ![a, 1]⟩, z⟩] h (ix2 p (2 : Fin 3))
      = z (ix2 p (0 : Fin 1)) :=
  concatenate_apply_piece (t := ⟨2, ![a, 3]⟩) (1 : Fin 2) [⟨⟨2, ![a, 1]⟩, x⟩, ⟨⟨2, ![a, 1]⟩, y⟩, ⟨⟨2, ![a, 1]⟩, z⟩] h
    (ix2 p (2 : Fin 3)) 2 (by show 2 < 3; omega) ⟨2, ![a, 1]⟩ z rfl rfl 2 rfl (ix2 p (0 : Fin 1))
    (fun b hb => by
      match b with
      | ⟨0, _⟩ => rfl
      | ⟨1, _⟩ => exact absurd rfl hb)
    rfl

end ThreeColumns

end Cert.RowScalars

end
-- ==== Proof.LibHostRowMax.lean ====
/-
  A host reduction by maximum along the rows of a matrix, read at a row.

  For any extents: the one-operand host reduction of an `[n, d]` array along its second axis with the maximum as its body
  is, at row `p`, the fold of the maximum from the initial value over the row's `d` entries.
-/
import Idealize.ShloMosaic.PureOps.Ideal.Laws
import Idealize.ShloMosaic.PureOps.Reduce
import Idealize.ShloMosaic.Lib.ValueIdx

noncomputable section

namespace Cert.LibHostRowMax

open Idealize.ShloMosaic Idealize.ShloMosaic.ValueIdx

/-- Row `p` with the column coordinate `k` inserted is the entry `(p, k)`. -/
theorem lift_row {n d : ℕ} (hR : (⟨2, ![n, d]⟩ : Shape).Reduces [1] ⟨1, ![n]⟩) (p : Fin n) (k : Fin d) :
    hR.lift (ix1 p) k = ix2 p k := by
  funext a
  match a with
  | ⟨0, _⟩ => rfl
  | ⟨1, _⟩ => rfl

/-- The host's row maximum at row `p`: the fold of the maximum over the row from the initial value. -/
theorem reduce_max_row {n d : ℕ} {u : Shape} (A : (⟨2, ![n, d]⟩ : Shape).Idx → EReal) (init : u.Idx → EReal)
    (h' : (⟨2, ![n, d]⟩ : Shape).ReducesTo [1] ⟨1, ![n]⟩) (hR : (⟨2, ![n, d]⟩ : Shape).Reduces [1] ⟨1, ![n]⟩)
    (hu : 0 < u.numel) (p : Fin n) :
    Host.reduce (FloatOps.maximumf (F := Ideal) (φ := .f32)) A init h' hu (ix1 p)
      = (Finset.univ : Finset (Fin d)).fold max (init (Shape.Idx.first hu)) fun k => A (ix2 p k) := by
  refine (Host.reduce_eq_fold_single (α := Ideal .f32) FloatOps.maximumf A init h' hR hu (ix1 p)).trans ?_
  refine congrArg (Finset.fold max (init (Shape.Idx.first hu)) · Finset.univ) ?_
  funext k
  exact congrArg A (lift_row hR p k)

end Cert.LibHostRowMax

end
-- ==== Proof.KerBlocks.lean ====
/-
  The three dense stages of the factored graph convolution as functions of whole arrays, for any number of rows.

  Each stage acts on every row by itself. With `d` a column `[R, 1]` (the nodes' normalisation), `b` a one-row array
  `[1, N]` (the bias) and `w` a fixed matrix:
  * `projA x d w`: the rows of `x` scaled by `d`, times `w`;
  * `comb es hs d b`: `d · (es + hs) + b`, the aggregated rows plus the node's own row, normalised, plus the bias;
  * `projB es hs d b z w`: `d · max (comb …) z`, times `w`;
  * `lsmC ninf z es hs d b`: the row-wise log-softmax of `comb …`.
  So a block that holds rows `o, o + 1, …` of taller operands holds the same rows of the taller result (`RowsAt`), and the
  vector unit's spelling of each stage on a block (broadcasts of the column and of the bias row, the matrix unit
  accumulating into zero, narrowing and widening being the identity on the extended reals, lane reductions) is the stage.
-/
import Idealize.ShloMosaic.Lib.ValueIdx
import Idealize.ShloMosaic.Lib.Pipeline.Value
import Idealize.ShloMosaic.PureOps.Ideal.Laws
import proofs.«119770_j32229434589355_2_alg».proof.Proof.Spec
import proofs.«119770_j32229434589355_2_alg».proof.Proof.LibRowBlocks
import proofs.«119770_j32229434589355_2_alg».proof.Proof.LibRowBias
import proofs.«119770_j32229434589355_2_alg».proof.Proof.LibColumnBroadcast
import proofs.«119770_j32229434589355_2_alg».proof.Proof.LibRowScalars
import proofs.«119770_j32229434589355_2_alg».proof.Proof.LibHostRowMax
import proofs.«119770_j32229434589355_2_alg».proof.Proof.LibColumn

noncomputable section

namespace Cert.Gcn.Blk

open Idealize.ShloMosaic Idealize.ShloMosaic.ValueIdx
open Cert.MatProduct (rowOf colOf prod eq_row_col)
open Cert.Bridge (RowsAt)

variable {M R K N : ℕ} {o : ℕ}

/-! ## The stages -/

/-- Row `r` of `x` multiplied by entry `r` of the column `d`, on the right. -/
def scaleR (x : (⟨2, ![R, K]⟩ : Shape).Idx → EReal) (d : (⟨2, ![R, 1]⟩ : Shape).Idx → EReal) :
    (⟨2, ![R, K]⟩ : Shape).Idx → EReal :=
  fun y => x y * d (ix2 (rowOf y) (0 : Fin 1))

/-- The rows of `x` scaled by `d`, times `w`. -/
def projA (x : (⟨2, ![R, K]⟩ : Shape).Idx → EReal) (d : (⟨2, ![R, 1]⟩ : Shape).Idx → EReal)
    (w : (⟨2, ![K, N]⟩ : Shape).Idx → EReal) : (⟨2, ![R, N]⟩ : Shape).Idx → EReal :=
  prod (scaleR x d) w

/-- `d · (es + hs) + b`, entry by entry. -/
def comb (es hs : (⟨2, ![R, N]⟩ : Shape).Idx → EReal) (d : (⟨2, ![R, 1]⟩ : Shape).Idx → EReal)
    (b : (⟨2, ![1, N]⟩ : Shape).Idx → EReal) : (⟨2, ![R, N]⟩ : Shape).Idx → EReal :=
  fun y => d (ix2 (rowOf y) (0 : Fin 1)) * (es y + hs y) + b (ix2 (0 : Fin 1) (colOf y))

/-- `d · max (comb …) z`, entry by entry. -/
def hidden (es hs : (⟨2, ![R, K]⟩ : Shape).Idx → EReal) (d : (⟨2, ![R, 1]⟩ : Shape).Idx → EReal)
    (b : (⟨2, ![1, K]⟩ : Shape).Idx → EReal) (z : EReal) : (⟨2, ![R, K]⟩ : Shape).Idx → EReal :=
  fun y => d (ix2 (rowOf y) (0 : Fin 1)) * max (comb es hs d b y) z

/-- The hidden rows times `w`. -/
def projB (es hs : (⟨2, ![R, K]⟩ : Shape).Idx → EReal) (d : (⟨2, ![R, 1]⟩ : Shape).Idx → EReal)
    (b : (⟨2, ![1, K]⟩ : Shape).Idx → EReal) (z : EReal) (w : (⟨2, ![K, N]⟩ : Shape).Idx → EReal) :
    (⟨2, ![R, N]⟩ : Shape).Idx → EReal :=
  prod (hidden es hs d b z) w

/-- The row-wise log-softmax of `a`. -/
def lsmOf (ninf z : EReal) (a : (⟨2, ![R, N]⟩ : Shape).Idx → EReal) : (⟨2, ![R, N]⟩ : Shape).Idx → EReal :=
  fun y => Cert.Gcn.lsmRow ninf z (fun k => a (ix2 (rowOf y) k)) (colOf y)

/-- The row-wise log-softmax of `comb …`. -/
def lsmC (ninf z : EReal) (es hs : (⟨2, ![R, N]⟩ : Shape).Idx → EReal) (d : (⟨2, ![R, 1]⟩ : Shape).Idx → EReal)
    (b : (⟨2, ![1, N]⟩ : Shape).Idx → EReal) : (⟨2, ![R, N]⟩ : Shape).Idx → EReal :=
  lsmOf ninf z (comb es hs d b)

/-! ## Each stage acts on every row by itself -/

theorem rowsAt_scaleR {x : (⟨2, ![M, K]⟩ : Shape).Idx → EReal} {x' : (⟨2, ![R, K]⟩ : Shape).Idx → EReal}
    {d : (⟨2, ![M, 1]⟩ : Shape).Idx → EReal} {d' : (⟨2, ![R, 1]⟩ : Shape).Idx → EReal}
    (hx : RowsAt o x x') (hd : RowsAt o d d') : RowsAt o (scaleR x d) (scaleR x' d') :=
  fun p r j e => by
    show x (ix2 p j) * d (ix2 p (0 : Fin 1)) = x' (ix2 r j) * d' (ix2 r (0 : Fin 1))
    rw [hx p r j e, hd p r 0 e]

theorem rowsAt_projA {x : (⟨2, ![M, K]⟩ : Shape).Idx → EReal} {x' : (⟨2, ![R, K]⟩ : Shape).Idx → EReal}
    {d : (⟨2, ![M, 1]⟩ : Shape).Idx → EReal} {d' : (⟨2, ![R, 1]⟩ : Shape).Idx → EReal}
    (hx : RowsAt o x x') (hd : RowsAt o d d') (w : (⟨2, ![K, N]⟩ : Shape).Idx → EReal) :
    RowsAt o (projA x d w) (projA x' d' w) :=
  (rowsAt_scaleR hx hd).prod w

theorem rowsAt_comb {es hs : (⟨2, ![M, N]⟩ : Shape).Idx → EReal} {es' hs' : (⟨2, ![R, N]⟩ : Shape).Idx → EReal}
    {d : (⟨2, ![M, 1]⟩ : Shape).Idx → EReal} {d' : (⟨2, ![R, 1]⟩ : Shape).Idx → EReal}
    (he : RowsAt o es es') (hh : RowsAt o hs hs') (hd : RowsAt o d d') (b : (⟨2, ![1, N]⟩ : Shape).Idx → EReal) :
    RowsAt o (comb es hs d b) (comb es' hs' d' b) :=
  fun p r j e => by
    show d (ix2 p (0 : Fin 1)) * (es (ix2 p j) + hs (ix2 p j)) + b (ix2 (0 : Fin 1) j)
      = d' (ix2 r (0 : Fin 1)) * (es' (ix2 r j) + hs' (ix2 r j)) + b (ix2 (0 : Fin 1) j)
    rw [he p r j e, hh p r j e, hd p r 0 e]

theorem rowsAt_hidden {es hs : (⟨2, ![M, K]⟩ : Shape).Idx → EReal} {es' hs' : (⟨2, ![R, K]⟩ : Shape).Idx → EReal}
    {d : (⟨2, ![M, 1]⟩ : Shape).Idx → EReal} {d' : (⟨2, ![R, 1]⟩ : Shape).Idx → EReal}
    (he : RowsAt o es es') (hh : RowsAt o hs hs') (hd : RowsAt o d d') (b : (⟨2, ![1, K]⟩ : Shape).Idx → EReal)
    (z : EReal) : RowsAt o (hidden es hs d b z) (hidden es' hs' d' b z) :=
  fun p r j e => by
    show d (ix2 p (0 : Fin 1)) * max (comb es hs d b (ix2 p j)) z
      = d' (ix2 r (0 : Fin 1)) * max (comb es' hs' d' b (ix2 r j)) z
    rw [rowsAt_comb he hh hd b p r j e, hd p r 0 e]

theorem rowsAt_projB {es hs : (⟨2, ![M, K]⟩ : Shape).Idx → EReal} {es' hs' : (⟨2, ![R, K]⟩ : Shape).Idx → EReal}
    {d : (⟨2, ![M, 1]⟩ : Shape).Idx → EReal} {d' : (⟨2, ![R, 1]⟩ : Shape).Idx → EReal}
    (he : RowsAt o es es') (hh : RowsAt o hs hs') (hd : RowsAt o d d') (b : (⟨2, ![1, K]⟩ : Shape).Idx → EReal)
    (z : EReal) (w : (⟨2, ![K, N]⟩ : Shape).Idx → EReal) :
    RowsAt o (projB es hs d b z w) (projB es' hs' d' b z w) :=
  (rowsAt_hidden he hh hd b z).prod w

theorem rowsAt_lsmOf (ninf z : EReal) {a : (⟨2, ![M, N]⟩ : Shape).Idx → EReal} {a' : (⟨2, ![R, N]⟩ : Shape).Idx → EReal}
    (h : RowsAt o a a') : RowsAt o (lsmOf ninf z a) (lsmOf ninf z a') :=
  fun p r j e => by
    show Cert.Gcn.lsmRow ninf z (fun k => a (ix2 p k)) j = Cert.Gcn.lsmRow ninf z (fun k => a' (ix2 r k)) j
    have : (fun k => a (ix2 p k)) = fun k => a' (ix2 r k) := funext fun k => h p r k e
    rw [this]

theorem rowsAt_lsmC (ninf z : EReal) {es hs : (⟨2, ![M, N]⟩ : Shape).Idx → EReal}
    {es' hs' : (⟨2, ![R, N]⟩ : Shape).Idx → EReal}
    {d : (⟨2, ![M, 1]⟩ : Shape).Idx → EReal} {d' : (⟨2, ![R, 1]⟩ : Shape).Idx → EReal}
    (he : RowsAt o es es') (hh : RowsAt o hs hs') (hd : RowsAt o d d') (b : (⟨2, ![1, N]⟩ : Shape).Idx → EReal) :
    RowsAt o (lsmC ninf z es hs d b) (lsmC ninf z es' hs' d' b) :=
  rowsAt_lsmOf ninf z (rowsAt_comb he hh hd b)

/-! ## The vector unit's spelling -/

/-- A column spread along the rows reads, at `y`, the column's entry in `y`'s row. -/
theorem spreadCol_apply (d : (⟨2, ![M, 1]⟩ : Shape).Idx → EReal)
    (hb : (⟨2, ![M, 1]⟩ : Shape).Broadcasts ⟨2, ![M, K]⟩) (y : (⟨2, ![M, K]⟩ : Shape).Idx) :
    broadcastTo ⟨2, ![M, K]⟩ d hb y = d (ix2 (rowOf y) (0 : Fin 1)) := by
  rw [eq_row_col y]
  exact Cert.Layout.broadcastTo_a1_ab_apply d hb (rowOf y) (colOf y)

/-- The first stage on the matrix unit. -/
theorem vec_projA (x : FVec Ideal ⟨2, ![M, K]⟩ .f32) (d : FVec Ideal ⟨2, ![M, 1]⟩ .f32)
    (w : FVec Ideal ⟨2, ![K, N]⟩ .f32)
    (hc : (⟨2, ![M, 1]⟩ : Shape).ShapeCasts ⟨2, ![M, 1]⟩) (hb : (⟨2, ![M, 1]⟩ : Shape).Broadcasts ⟨2, ![M, K]⟩)
    (hlt : FTy.bf16.bits < FTy.f32.bits) :
    truncf .bf16 (matmul (DotDims.plain M K N) none
        (truncf .bf16 (mulf x (broadcastTo ⟨2, ![M, K]⟩ (shapeCast ⟨2, ![M, 1]⟩ d hc) hb)) hlt) (truncf .bf16 w hlt)
        (constant (F := Ideal) ⟨2, ![M, N]⟩ .f32 0x00000000#32)) hlt
      = projA x d w := by
  rw [shapeCast_self]
  show FloatOps.matmul (DotDims.plain M K N) none (mulf x (broadcastTo ⟨2, ![M, K]⟩ d hb)) w
      (constant (F := Ideal) ⟨2, ![M, N]⟩ .f32 0x00000000#32) = _
  rw [Cert.MatProduct.matmul_zero_eq_prod]
  unfold projA
  congr 1
  funext y
  rw [mulf_apply, spreadCol_apply]
  rfl

/-- The combination on the vector unit. -/
theorem vec_comb (es : FVec Ideal ⟨2, ![M, N]⟩ .f32) (hs : FVec Ideal ⟨2, ![M, N]⟩ .bf16)
    (d : FVec Ideal ⟨2, ![M, 1]⟩ .f32) (b : FVec Ideal ⟨2, ![1, N]⟩ .f32)
    (h0 h0' : (⟨2, ![M, N]⟩ : Shape).ShapeCasts ⟨2, ![M, N]⟩)
    (hc : (⟨2, ![M, 1]⟩ : Shape).ShapeCasts ⟨2, ![M, 1]⟩) (hb : (⟨2, ![M, 1]⟩ : Shape).Broadcasts ⟨2, ![M, N]⟩)
    (h1 : (⟨2, ![1, N]⟩ : Shape).ShapeCasts ⟨2, ![1, N]⟩) (hb1 : (⟨2, ![1, N]⟩ : Shape).Broadcasts ⟨2, ![M, N]⟩)
    (hlt : FTy.bf16.bits < FTy.f32.bits) :
    addf (mulf (broadcastTo ⟨2, ![M, N]⟩ (shapeCast ⟨2, ![M, 1]⟩ d hc) hb)
          (addf (shapeCast ⟨2, ![M, N]⟩ es h0) (extf .f32 (shapeCast ⟨2, ![M, N]⟩ hs h0') hlt)))
        (broadcastTo ⟨2, ![M, N]⟩ (shapeCast ⟨2, ![1, N]⟩ b h1) hb1)
      = comb es hs d b := by
  rw [shapeCast_self, shapeCast_self, shapeCast_self, shapeCast_self]
  funext y
  rw [addf_apply, mulf_apply, spreadCol_apply, Cert.RowBias.spreadRow_apply, addf_apply]
  rfl

/-- The second stage on the matrix unit. -/
theorem vec_projB (es : FVec Ideal ⟨2, ![M, K]⟩ .f32) (hs : FVec Ideal ⟨2, ![M, K]⟩ .bf16)
    (d : FVec Ideal ⟨2, ![M, 1]⟩ .f32) (b : FVec Ideal ⟨2, ![1, K]⟩ .f32) (w : FVec Ideal ⟨2, ![K, N]⟩ .f32)
    (h0 h0' : (⟨2, ![M, K]⟩ : Shape).ShapeCasts ⟨2, ![M, K]⟩)
    (hc : (⟨2, ![M, 1]⟩ : Shape).ShapeCasts ⟨2, ![M, 1]⟩) (hb : (⟨2, ![M, 1]⟩ : Shape).Broadcasts ⟨2, ![M, K]⟩)
    (h1 : (⟨2, ![1, K]⟩ : Shape).ShapeCasts ⟨2, ![1, K]⟩) (hb1 : (⟨2, ![1, K]⟩ : Shape).Broadcasts ⟨2, ![M, K]⟩)
    (hlt : FTy.bf16.bits < FTy.f32.bits) (z : Ideal .f32) :
    truncf .bf16 (matmul (DotDims.plain M K N) none
        (truncf .bf16 (mulf (broadcastTo ⟨2, ![M, K]⟩ (shapeCast ⟨2, ![M, 1]⟩ d hc) hb)
          (maximumf
            (addf (mulf (broadcastTo ⟨2, ![M, K]⟩ (shapeCast ⟨2, ![M, 1]⟩ d hc) hb)
                (addf (shapeCast ⟨2, ![M, K]⟩ es h0) (extf .f32 (shapeCast ⟨2, ![M, K]⟩ hs h0') hlt)))
              (broadcastTo ⟨2, ![M, K]⟩ (shapeCast ⟨2, ![1, K]⟩ b h1) hb1))
            (broadcast ⟨2, ![M, K]⟩ z))) hlt)
        (truncf .bf16 w hlt) (constant (F := Ideal) ⟨2, ![M, N]⟩ .f32 0x00000000#32)) hlt
      = projB es hs d b z w := by
  rw [vec_comb es hs d b h0 h0' hc hb h1 hb1 hlt, shapeCast_self]
  show FloatOps.matmul (DotDims.plain M K N) none
      (mulf (broadcastTo ⟨2, ![M, K]⟩ d hb) (maximumf (comb es hs d b) (broadcast ⟨2, ![M, K]⟩ z))) w
      (constant (F := Ideal) ⟨2, ![M, N]⟩ .f32 0x00000000#32) = _
  rw [Cert.MatProduct.matmul_zero_eq_prod]
  unfold projB
  congr 1
  funext y
  rw [mulf_apply, spreadCol_apply, maximumf_apply, broadcast_apply]
  rfl

/-- A vector cast to a column and spread along the rows reads, at `(p, c)`, the vector's entry `p`. -/
theorem spreadVec_apply {α : Type} (v : (⟨1, ![M]⟩ : Shape).Idx → α)
    (hcol : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ v hcol) hb (ix2 p c) = v (ix1 p) := by
  rw [Cert.Layout.broadcastTo_a1_ab_apply, Cert.LibColumn.shapeCast_a_a1_apply]

/-- The lane maximum of an `[a, b]` array at row `p`: the fold of `max` from the accumulator's value over the row. -/
theorem laneMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) := by
  refine (Ideal.multiReduction_maximumf_single src acc h hφ hacc (ix1 p)).trans ?_
  refine congrArg (Finset.fold max (Ideal.ofBits .f32 acc) · Finset.univ) ?_
  funext k
  exact congrArg src (Cert.LibHostRowMax.lift_row h p k)

/-- The row-wise log-softmax on the vector unit: the lane maximum from minus infinity, the shift, the exponentials,
    their lane sum from zero, its logarithm, the second shift. -/
theorem vec_lsmOf (a : FVec Ideal ⟨2, ![M, N]⟩ .f32)
    (hred : (⟨2, ![M, N]⟩ : Shape).Reduces [1] ⟨1, ![M]⟩) (hφ : FKind.Formats .f32)
    (hmax : (0xFF800000#32 : BitVec 32) = FKind.maximumf.neutral .f32 hφ)
    (hadd : (0x00000000#32 : BitVec 32) = 0x00000000#32)
    (hcol : (⟨1, ![M]⟩ : Shape).ShapeCasts ⟨2, ![M, 1]⟩) (hb : (⟨2, ![M, 1]⟩ : Shape).Broadcasts ⟨2, ![M, N]⟩) :
    subf (subf a (broadcastTo ⟨2, ![M, N]⟩ (shapeCast ⟨2, ![M, 1]⟩
            (multiReduction .maximumf [1] ⟨1, ![M]⟩ a 0xFF800000#32 hred hφ hmax) hcol) hb))
        (broadcastTo ⟨2, ![M, N]⟩ (log (shapeCast ⟨2, ![M, 1]⟩
            (multiReduction .add [1] ⟨1, ![M]⟩
              (exp (subf a (broadcastTo ⟨2, ![M, N]⟩ (shapeCast ⟨2, ![M, 1]⟩
                (multiReduction .maximumf [1] ⟨1, ![M]⟩ a 0xFF800000#32 hred hφ hmax) hcol) hb)))
              0x00000000#32 hred hφ hadd) hcol)) hb)
      = lsmOf (Ideal.ofBits .f32 0xFF800000#32) (Ideal.ofBits .f32 0x00000000#32) a := by
  funext y
  rw [eq_row_col y]
  generalize rowOf y = p
  generalize colOf y = c
  have hshift : ∀ k : Fin N,
      subf a (broadcastTo ⟨2, ![M, N]⟩ (shapeCast ⟨2, ![M, 1]⟩
          (multiReduction .maximumf [1] ⟨1, ![M]⟩ a 0xFF800000#32 hred hφ hmax) hcol) hb) (ix2 p k)
        = a (ix2 p k) - (Finset.univ : Finset (Fin N)).fold max (Ideal.ofBits .f32 0xFF800000#32) (fun k => a (ix2 p k)) := by
    intro k
    rw [subf_apply, spreadVec_apply, laneMax_apply]
  rw [subf_apply, hshift c, Cert.Layout.broadcastTo_a1_ab_apply]
  show _ - Ideal.log (shapeCast ⟨2, ![M, 1]⟩ _ hcol (ix2 p (0 : Fin 1))) = _
  rw [Cert.LibColumn.shapeCast_a_a1_apply, Cert.RowScalars.laneSum_apply]
  show _ = (a (ix2 p c) - _) - Ideal.log (Ideal.ofBits .f32 0x00000000#32 + ∑ k : Fin N, Ideal.exp (a (ix2 p k) - _))
  rw [Ideal.ofBits_zero_f32, zero_add]
  congr 2
  exact Finset.sum_congr rfl fun k _ => congrArg Ideal.exp (hshift k)

/-! ## Blocks of consecutive rows -/

/-- An array read through a map of indices that shifts the row by `o` and keeps the column is the stretch of the
    array that starts at row `o`. -/
theorem rowsAt_of_read {α : Type} (A : (⟨2, ![R, N]⟩ : Shape).Idx → α)
    (f : (⟨2, ![M, N]⟩ : Shape).Idx → (⟨2, ![R, N]⟩ : Shape).Idx)
    (h0 : ∀ y, (f y 0).val = o + (y 0).val) (h1 : ∀ y, (f y 1).val = (y 1).val) : RowsAt o (fun y => A (f y)) A :=
  fun p r j e => by
    show A (f (ix2 p j)) = A (ix2 r j)
    refine congrArg A (funext fun a => Fin.ext ?_)
    match a with
    | ⟨0, _⟩ => exact (h0 (ix2 p j)).trans e.symm
    | ⟨1, _⟩ => exact h1 (ix2 p j)

/-- Related arrays read at two indices with related rows and one column. -/
theorem rowsAt_read {α : Type} {hk : (⟨2, ![M, N]⟩ : Shape).Idx → α} {hr : (⟨2, ![R, N]⟩ : Shape).Idx → α}
    (h : RowsAt o hk hr) (y : (⟨2, ![M, N]⟩ : Shape).Idx) (i : (⟨2, ![R, N]⟩ : Shape).Idx)
    (h0 : (i 0).val = o + (y 0).val) (h1 : (i 1).val = (y 1).val) : hk y = hr i := by
  have hc : colOf i = colOf y := Fin.ext h1
  calc hk y = hk (ix2 (rowOf y) (colOf y)) := congrArg hk (eq_row_col y)
    _ = hr (ix2 (rowOf i) (colOf y)) := h (rowOf y) (rowOf i) (colOf y) h0
    _ = hr (ix2 (rowOf i) (colOf i)) := by rw [hc]
    _ = hr i := (congrArg hr (eq_row_col i)).symm

/-- An array read through a map of indices that keeps both coordinates is the array. -/
theorem read_id {α : Type} (A : (⟨2, ![R, N]⟩ : Shape).Idx → α)
    (f : (⟨2, ![R, N]⟩ : Shape).Idx → (⟨2, ![R, N]⟩ : Shape).Idx)
    (h0 : ∀ y, (f y 0).val = (y 0).val) (h1 : ∀ y, (f y 1).val = (y 1).val) : (fun y => A (f y)) = A :=
  funext fun y => congrArg A (funext fun a => Fin.ext (by
    match a with
    | ⟨0, _⟩ => exact h0 y
    | ⟨1, _⟩ => exact h1 y))

end Cert.Gcn.Blk

end
-- ==== Proof.KerRegion0.lean ====
/-
  The first launch: every block of 4000 rows of the result is the first dense stage of the same rows of the features and
  of the normalisation column, so the result array after the launch is that stage of the whole arrays.
-/
import proofs.«119770_j32229434589355_2_alg».proof.Proof.Gen.KernelIdeal.Frame
import proofs.«119770_j32229434589355_2_alg».proof.Proof.KerBlocks

set_option maxRecDepth 16384

noncomputable section

namespace Cert.KernelIdeal.RegV

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Bridge (RowsAt)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its loaded blocks is the first dense stage. -/
theorem pay0 (x0 : Vec Ideal S4000x128 .f32) (x1 : Vec Ideal S4000x1 .f32) (x2 : Vec Ideal S128x64 .f32) :
    k0_pay1 (F := Ideal) x0 x1 x2 = Blk.projA x0 x1 x2 := by
  unfold k0_pay1
  exact Blk.vec_projA x0 x1 x2 _ _ _

/-- The index maps over the grid: the row-blocked windows sit at block row `t`, column block `0`; the weights at `(0, 0)`. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block row is some point's. -/
theorem onto0 : ∀ q : Fin 25, ∃ t : Fin cfg0.N, t.val = q.val :=
  (by decide +kernel : ∀ q : Fin 25, ∃ t : Fin grid0.N, t.val = q.val)

theorem rows0_0 (c : Dev nD) (t : Fin cfg0.N) : RowsAt (t.val * 4000) (iblk0 V c 0 t) (V c main_arg0) := by
  obtain ⟨e0, e1, -⟩ := idx0 t
  refine Blk.rowsAt_of_read (V c main_arg0) (((cfg0.win 0).blk t).view.emb) (fun y => ?_) (fun y => ?_)
  · show win0_0.index t (0 : Fin 2) * 4000 + 1 * (y 0).val = _
    rw [e0]; omega
  · show win0_0.index t (1 : Fin 2) * 128 + 1 * (y 1).val = _
    rw [e1]; omega

theorem rows0_1 (c : Dev nD) (t : Fin cfg0.N) : RowsAt (t.val * 4000) (iblk0 V c 1 t) (V c main_v14) := by
  obtain ⟨-, -, e0, e1, -⟩ := idx0 t
  refine Blk.rowsAt_of_read (V c main_v14) (((cfg0.win 1).blk t).view.emb) (fun y => ?_) (fun y => ?_)
  · show win0_1.index t (0 : Fin 2) * 4000 + 1 * (y 0).val = _
    rw [e0]; omega
  · show win0_1.index t (1 : Fin 2) * 1 + 1 * (y 1).val = _
    rw [e1]; omega

theorem whole0_2 (c : Dev nD) (t : Fin cfg0.N) :
    (iblk0 V c 2 t : S128x64.Idx → EReal) = (V c main_arg2 : S128x64.Idx → EReal) := by
  obtain ⟨-, -, -, -, e0, e1, -⟩ := idx0 t
  refine Blk.read_id (V c main_arg2) (((cfg0.win 2).blk t).view.emb) (fun y => ?_) (fun y => ?_)
  · show win0_2.index t (0 : Fin 2) * 128 + 1 * (y 0).val = _
    rw [e0]; omega
  · show win0_2.index t (1 : Fin 2) * 64 + 1 * (y 1).val = _
    rw [e1]; omega

/-- What point `t` writes back is block `t` of the stage of the whole arrays. -/
theorem flushed0 (c : Dev nD) (t : Fin cfg0.N) :
    (dat0 V c).flushed 3 t
      = ((cfg0.win 3).blk t).view.read (Elt Ideal) (Blk.projA (V c main_arg0) (V c main_v14) (V c main_arg2)) := by
  show (cfg0.win 3).cut (grid0.coords t) ((dat0 V c).after 3 t) = _
  rw [after0_3]
  unfold out0_3
  rw [View.canon_unit_zero hz]
  simp only [View.ld_unit_zero (S := S4000x128) hz, View.ld_unit_zero (S := S4000x1) hz, View.ld_unit_zero (S := S128x64) hz]
  rw [pay0, whole0_2]
  obtain ⟨-, -, -, -, -, -, e0, e1⟩ := idx0 t
  funext j
  show Blk.projA (iblk0 V c 0 t) (iblk0 V c 1 t) (V c main_arg2) j
    = Blk.projA (V c main_arg0) (V c main_v14) (V c main_arg2) (((cfg0.win 3).blk t).view.emb j)
  refine Blk.rowsAt_read (Blk.rowsAt_projA (rows0_0 V c t) (rows0_1 V c t) (V c main_arg2)) j
    (((cfg0.win 3).blk t).view.emb j) ?_ ?_
  · show win0_3.index t (0 : Fin 2) * 4000 + 1 * (j 0).val = _
    rw [e0]; omega
  · show win0_3.index t (1 : Fin 2) * 64 + 1 * (j 1).val = _
    rw [e1]; omega

theorem mem_blk0 (t : Fin cfg0.N) (i : S100000x64.Idx) :
    i ∈ ((cfg0.win 3).blk t).view.set ↔ ∀ a : Fin 2, win0_3.index t a * S4000x64.size a ≤ (i a).val
      ∧ (i a).val < win0_3.index t a * S4000x64.size a + S4000x64.size a := by
  show i ∈ ((View.whole main_v15).slice (win0_3.rect t)).set ↔ _
  rw [View.set_slice_whole, Rect.mem_set_unit]
  exact Iff.rfl

/-- The blocks tile the array. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := onto0 ⟨(i 0).val / 4000, by omega⟩
  have ht' : t.val = (i 0).val / 4000 := ht
  obtain ⟨-, -, -, -, -, -, e0, e1⟩ := idx0 t
  refine ⟨t, flush0_3 t, ?_⟩
  rw [mem_blk0]
  intro a
  match a with
  | ⟨0, _⟩ =>
    show win0_3.index t (0 : Fin 2) * 4000 ≤ (i 0).val ∧ (i 0).val < win0_3.index t (0 : Fin 2) * 4000 + 4000
    rw [e0, ht']; omega
  | ⟨1, _⟩ =>
    show win0_3.index t (1 : Fin 2) * 64 ≤ (i 1).val ∧ (i 1).val < win0_3.index t (1 : Fin 2) * 64 + 64
    rw [e1]; omega

/-- THE RESULT ARRAY after the first launch. -/
theorem region0 (c : Dev nD) :
    (dat0 V c).arrAt 3 cfg0.N = Blk.projA (V c main_arg0) (V c main_v14) (V c main_arg2) :=
  (dat0 V c).arrAt_eq_of_cover 3 _ (fun t _ => flushed0 V c t) (cover0)

end Cert.KernelIdeal.RegV

end
-- ==== Proof.KerRegion1.lean ====
/-
  The second launch: every block of 4000 rows of the result is the second dense stage (normalise the aggregated rows plus
  the node's own row, add the bias, take the positive part, scale again, multiply by the second weight matrix) of the same
  rows of its operands, so the result array after the launch is that stage of the whole arrays.
-/
import proofs.«119770_j32229434589355_2_alg».proof.Proof.Gen.KernelIdeal.Frame
import proofs.«119770_j32229434589355_2_alg».proof.Proof.KerBlocks

set_option maxRecDepth 16384

noncomputable section

namespace Cert.KernelIdeal.RegV

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Bridge (RowsAt)
open Cert.Gcn

variable (V : (c : Dev nD) → (b : Ref sig .tc) → Buf (Elt Ideal) ((c : Thread nD τ).loc b))

theorem hz1 : (![0, 0] : Fin 2 → Nat) = fun _ => 0 := funext fun a => by fin_cases a <;> rfl

/-- The body's arithmetic on its loaded blocks is the second dense stage, floored at the zero word. -/
theorem pay1 (x0 : Vec Ideal S4000x64 .f32) (x1 : Vec Ideal S4000x64 .bf16) (x2 : Vec Ideal S4000x1 .f32)
    (x3 : Vec Ideal S1x64 .f32) (x4 : Vec Ideal S64x40 .f32) :
    k1_pay1 (F := Ideal) x0 x1 x2 x3 x4 = Blk.projB x0 x1 x2 x3 (Ideal.ofBits .f32 0x00000000#32) x4 := by
  unfold k1_pay1
  exact Blk.vec_projB x0 x1 x2 x3 x4 _ _ _ _ _ _ _ (Scalar.ofBits (F := Ideal) .f32 0x00000000#32)

/-- The index maps over the grid: the row-blocked windows sit at block row `t`, column block `0`; the bias row and the
    weights at `(0, 0)`. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every block row is some point's. -/
theorem onto1 : ∀ q : Fin 25, ∃ t : Fin cfg1.N, t.val = q.val :=
  (by decide +kernel : ∀ q : Fin 25, ∃ t : Fin grid1.N, t.val = q.val)

theorem rows1_0 (c : Dev nD) (t : Fin cfg1.N) : RowsAt (t.val * 4000) (iblk1 V c 0 t) (V c main_v26) := by
  obtain ⟨e0, e1, -⟩ := idx1 t
  refine Blk.rowsAt_of_read (V c main_v26) (((cfg1.win 0).blk t).view.emb) (fun y => ?_) (fun y => ?_)
  · show win1_0.index t (0 : Fin 2) * 4000 + 1 * (y 0).val = _
    rw [e0]; omega
  · show win1_0.index t (1 : Fin 2) * 64 + 1 * (y 1).val = _
    rw [e1]; omega

theorem rows1_1 (c : Dev nD) (t : Fin cfg1.N) : RowsAt (t.val * 4000) (iblk1 V c 1 t) (V c main_v15) := by
  obtain ⟨-, -, e0, e1, -⟩ := idx1 t
  refine Blk.rowsAt_of_read (V c main_v15) (((cfg1.win 1).blk t).view.emb) (fun y => ?_) (fun y => ?_)
  · show win1_1.index t (0 : Fin 2) * 4000 + 1 * (y 0).val = _
    rw [e0]; omega
  · show win1_1.index t (1 : Fin 2) * 64 + 1 * (y 1).val = _
    rw [e1]; omega

theorem rows1_2 (c : Dev nD) (t : Fin cfg1.N) : RowsAt (t.val * 4000) (iblk1 V c 2 t) (V c main_v14) := by
  obtain ⟨-, -, -, -, e0, e1, -⟩ := idx1 t
  refine Blk.rowsAt_of_read (V c main_v14) (((cfg1.win 2).blk t).view.emb) (fun y => ?_) (fun y => ?_)
  · show win1_2.index t (0 : Fin 2) * 4000 + 1 * (y 0).val = _
    rw [e0]; omega
  · show win1_2.index t (1 : Fin 2) * 1 + 1 * (y 1).val = _
    rw [e1]; omega

theorem whole1_3 (c : Dev nD) (t : Fin cfg1.N) :
    (iblk1 V c 3 t : S1x64.Idx → EReal) = (V c main_v27 : S1x64.Idx → EReal) := by
  obtain ⟨-, -, -, -, -, -, e0, e1, -⟩ := idx1 t
  refine Blk.read_id (V c main_v27) (((cfg1.win 3).blk t).view.emb) (fun y => ?_) (fun y => ?_)
  · show win1_3.index t (0 : Fin 2) * 1 + 1 * (y 0).val = _
    rw [e0]; omega
  · show win1_3.index t (1 : Fin 2) * 64 + 1 * (y 1).val = _
    rw [e1]; omega

theorem whole1_4 (c : Dev nD) (t : Fin cfg1.N) :
    (iblk1 V c 4 t : S64x40.Idx → EReal) = (V c main_arg4 : S64x40.Idx → EReal) := by
  obtain ⟨-, -, -, -, -, -, -, -, e0, e1, -⟩ := idx1 t
  refine Blk.read_id (V c main_arg4) (((cfg1.win 4).blk t).view.emb) (fun y => ?_) (fun y => ?_)
  · show win1_4.index t (0 : Fin 2) * 64 + 1 * (y 0).val = _
    rw [e0]; omega
  · show win1_4.index t (1 : Fin 2) * 40 + 1 * (y 1).val = _
    rw [e1]; omega

/-- What point `t` writes back is block `t` of the stage of the whole arrays. -/
theorem flushed1 (c : Dev nD) (t : Fin cfg1.N) :
    (dat1 V c).flushed 5 t
      = ((cfg1.win 5).blk t).view.read (Elt Ideal)
          (Blk.projB (V c main_v26) (V c main_v15) (V c main_v14) (V c main_v27) (Ideal.ofBits .f32 0x00000000#32)
            (V c main_arg4)) := by
  show (cfg1.win 5).cut (grid1.coords t) ((dat1 V c).after 5 t) = _
  rw [after1_5]
  unfold out1_5
  rw [View.canon_unit_zero hz1]
  simp only [View.ld_unit_zero (S := S4000x64) hz1, View.ld_unit_zero (S := S4000x1) hz1, View.ld_unit_zero (S := S1x64) hz1,
    View.ld_unit_zero (S := S64x40) hz1]
  rw [pay1, whole1_3, whole1_4]
  obtain ⟨-, -, -, -, -, -, -, -, -, -, e0, e1⟩ := idx1 t
  funext j
  show Blk.projB (iblk1 V c 0 t) (iblk1 V c 1 t) (iblk1 V c 2 t) (V c main_v27) (Ideal.ofBits .f32 0x00000000#32)
      (V c main_arg4) j
    = Blk.projB (V c main_v26) (V c main_v15) (V c main_v14) (V c main_v27) (Ideal.ofBits .f32 0x00000000#32)
      (V c main_arg4) (((cfg1.win 5).blk t).view.emb j)
  refine Blk.rowsAt_read (Blk.rowsAt_projB (rows1_0 V c t) (rows1_1 V c t) (rows1_2 V c t) (V c main_v27)
    (Ideal.ofBits .f32 0x00000000#32) (V c main_arg4)) j (((cfg1.win 5).blk t).view.emb j) ?_ ?_
  · show win1_5.index t (0 : Fin 2) * 4000 + 1 * (j 0).val = _
    rw [e0]; omega
  · show win1_5.index t (1 : Fin 2) * 40 + 1 * (j 1).val = _
    rw [e1]; omega

theorem mem_blk1 (t : Fin cfg1.N) (i : S100000x40.Idx) :
    i ∈ ((cfg1.win 5).blk t).view.set ↔ ∀ a : Fin 2, win1_5.index t a * S4000x40.size a ≤ (i a).val
      ∧ (i a).val < win1_5.index t a * S4000x40.size a + S4000x40.size a := by
  show i ∈ ((View.whole main_v28).slice (win1_5.rect t)).set ↔ _
  rw [View.set_slice_whole, Rect.mem_set_unit]
  exact Iff.rfl

/-- The blocks tile the array. -/
theorem cover1 (i : S100000x40.Idx) :
    ∃ t : Fin cfg1.N, (cfg1.win 5).flush t = true ∧ i ∈ ((cfg1.win 5).blk t).view.set := by
  have hi0 : (i 0).val < 100000 := (i 0).isLt
  have hi1 : (i 1).val < 40 := (i 1).isLt
  obtain ⟨t, ht⟩ := onto1 ⟨(i 0).val / 4000, by omega⟩
  have ht' : t.val = (i 0).val / 4000 := ht
  obtain ⟨-, -, -, -, -, -, -, -, -, -, e0, e1⟩ := idx1 t
  refine ⟨t, flush1_5 t, ?_⟩
  rw [mem_blk1]
  intro a
  match a with
  | ⟨0, _⟩ =>
    show win1_5.index t (0 : Fin 2) * 4000 ≤ (i 0).val ∧ (i 0).val < win1_5.index t (0 : Fin 2) * 4000 + 4000
    rw [e0, ht']; omega
  | ⟨1, _⟩ =>
    show win1_5.index t (1 : Fin 2) * 40 ≤ (i 1).val ∧ (i 1).val < win1_5.index t (1 : Fin 2) * 40 + 40
    rw [e1]; omega

/-- THE RESULT ARRAY after the second launch. -/
theorem region1 (c : Dev nD) :
    (dat1 V c).arrAt 5 cfg1.N
      = Blk.projB (V c main_v26) (V c main_v15) (V c main_v14) (V c main_v27) (Ideal.ofBits .f32 0x00000000#32)
          (V c main_arg4) :=
  (dat1 V c).arrAt_eq_of_cover 5 _ (fun t _ => flushed1 V c t) (cover1)

end Cert.KernelIdeal.RegV

end
-- ==== Proof.KerRegion2.lean ====
/-
  The third launch: every block of 4000 rows of the result is the row-wise log-softmax of the last combination
  (normalise the aggregated rows plus the node's own row, add the bias) of the same rows of its operands, so the result
  array after the launch is that stage of the whole arrays.
-/
import proofs.«119770_j32229434589355_2_alg».proof.Proof.Gen.KernelIdeal.Frame
import proofs.«119770_j32229434589355_2_alg».proof.Proof.KerBlocks

set_option maxRecDepth 16384

noncomputable section

namespace Cert.KernelIdeal.RegV

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Bridge (RowsAt)
open Cert.Gcn

variable (V : (c : Dev nD) → (b : Ref sig .tc) → Buf (Elt Ideal) ((c : Thread nD τ).loc b))

theorem hz2 : (![0, 0] : Fin 2 → Nat) = fun _ => 0 := funext fun a => by fin_cases a <;> rfl

/-- The body's arithmetic on its loaded blocks is the log-softmax of the combination, the maximum folded from the word
    of minus infinity and the sum started at the zero word. -/
theorem pay2 (x0 : Vec Ideal S4000x40 .f32) (x1 : Vec Ideal S4000x40 .bf16) (x2 : Vec Ideal S4000x1 .f32)
    (x3 : Vec Ideal S1x40 .f32) :
    k2_pay1 (F := Ideal) x0 x1 x2 x3
      = Blk.lsmC (Ideal.ofBits .f32 0xFF800000#32) (Ideal.ofBits .f32 0x00000000#32) x0 x1 x2 x3 := by
  unfold k2_pay1
  refine (Blk.vec_lsmOf _ _ _ _ _ _ _).trans ?_
  exact congrArg (Blk.lsmOf _ _) (Blk.vec_comb x0 x1 x2 x3 _ _ _ _ _ _ _)

/-- The index maps over the grid: the row-blocked windows sit at block row `t`, column block `0`; the bias row at `(0, 0)`. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Every block row is some point's. -/
theorem onto2 : ∀ q : Fin 25, ∃ t : Fin cfg2.N, t.val = q.val :=
  (by decide +kernel : ∀ q : Fin 25, ∃ t : Fin grid2.N, t.val = q.val)

theorem rows2_0 (c : Dev nD) (t : Fin cfg2.N) : RowsAt (t.val * 4000) (iblk2 V c 0 t) (V c main_v39) := by
  obtain ⟨e0, e1, -⟩ := idx2 t
  refine Blk.rowsAt_of_read (V c main_v39) (((cfg2.win 0).blk t).view.emb) (fun y => ?_) (fun y => ?_)
  · show win2_0.index t (0 : Fin 2) * 4000 + 1 * (y 0).val = _
    rw [e0]; omega
  · show win2_0.index t (1 : Fin 2) * 40 + 1 * (y 1).val = _
    rw [e1]; omega

theorem rows2_1 (c : Dev nD) (t : Fin cfg2.N) : RowsAt (t.val * 4000) (iblk2 V c 1 t) (V c main_v28) := by
  obtain ⟨-, -, e0, e1, -⟩ := idx2 t
  refine Blk.rowsAt_of_read (V c main_v28) (((cfg2.win 1).blk t).view.emb) (fun y => ?_) (fun y => ?_)
  · show win2_1.index t (0 : Fin 2) * 4000 + 1 * (y 0).val = _
    rw [e0]; omega
  · show win2_1.index t (1 : Fin 2) * 40 + 1 * (y 1).val = _
    rw [e1]; omega

theorem rows2_2 (c : Dev nD) (t : Fin cfg2.N) : RowsAt (t.val * 4000) (iblk2 V c 2 t) (V c main_v14) := by
  obtain ⟨-, -, -, -, e0, e1, -⟩ := idx2 t
  refine Blk.rowsAt_of_read (V c main_v14) (((cfg2.win 2).blk t).view.emb) (fun y => ?_) (fun y => ?_)
  · show win2_2.index t (0 : Fin 2) * 4000 + 1 * (y 0).val = _
    rw [e0]; omega
  · show win2_2.index t (1 : Fin 2) * 1 + 1 * (y 1).val = _
    rw [e1]; omega

theorem whole2_3 (c : Dev nD) (t : Fin cfg2.N) :
    (iblk2 V c 3 t : S1x40.Idx → EReal) = (V c main_v40 : S1x40.Idx → EReal) := by
  obtain ⟨-, -, -, -, -, -, e0, e1, -⟩ := idx2 t
  refine Blk.read_id (V c main_v40) (((cfg2.win 3).blk t).view.emb) (fun y => ?_) (fun y => ?_)
  · show win2_3.index t (0 : Fin 2) * 1 + 1 * (y 0).val = _
    rw [e0]; omega
  · show win2_3.index t (1 : Fin 2) * 40 + 1 * (y 1).val = _
    rw [e1]; omega

/-- What point `t` writes back is block `t` of the stage of the whole arrays. -/
theorem flushed2 (c : Dev nD) (t : Fin cfg2.N) :
    (dat2 V c).flushed 4 t
      = ((cfg2.win 4).blk t).view.read (Elt Ideal)
          (Blk.lsmC (Ideal.ofBits .f32 0xFF800000#32) (Ideal.ofBits .f32 0x00000000#32)
            (V c main_v39) (V c main_v28) (V c main_v14) (V c main_v40)) := by
  show (cfg2.win 4).cut (grid2.coords t) ((dat2 V c).after 4 t) = _
  rw [after2_4]
  unfold out2_4
  rw [View.canon_unit_zero hz2]
  simp only [View.ld_unit_zero (S := S4000x40) hz2, View.ld_unit_zero (S := S4000x1) hz2, View.ld_unit_zero (S := S1x40) hz2]
  rw [pay2, whole2_3]
  obtain ⟨-, -, -, -, -, -, -, -, e0, e1⟩ := idx2 t
  funext j
  show Blk.lsmC (Ideal.ofBits .f32 0xFF800000#32) (Ideal.ofBits .f32 0x00000000#32)
      (iblk2 V c 0 t) (iblk2 V c 1 t) (iblk2 V c 2 t) (V c main_v40) j
    = Blk.lsmC (Ideal.ofBits .f32 0xFF800000#32) (Ideal.ofBits .f32 0x00000000#32)
      (V c main_v39) (V c main_v28) (V c main_v14) (V c main_v40) (((cfg2.win 4).blk t).view.emb j)
  refine Blk.rowsAt_read (Blk.rowsAt_lsmC (Ideal.ofBits .f32 0xFF800000#32) (Ideal.ofBits .f32 0x00000000#32)
    (rows2_0 V c t) (rows2_1 V c t) (rows2_2 V c t) (V c main_v40)) j (((cfg2.win 4).blk t).view.emb j) ?_ ?_
  · show win2_4.index t (0 : Fin 2) * 4000 + 1 * (j 0).val = _
    rw [e0]; omega
  · show win2_4.index t (1 : Fin 2) * 40 + 1 * (j 1).val = _
    rw [e1]; omega

theorem mem_blk2 (t : Fin cfg2.N) (i : S100000x40.Idx) :
    i ∈ ((cfg2.win 4).blk t).view.set ↔ ∀ a : Fin 2, win2_4.index t a * S4000x40.size a ≤ (i a).val
      ∧ (i a).val < win2_4.index t a * S4000x40.size a + S4000x40.size a := by
  show i ∈ ((View.whole main_v41).slice (win2_4.rect t)).set ↔ _
  rw [View.set_slice_whole, Rect.mem_set_unit]
  exact Iff.rfl

/-- The blocks tile the array. -/
theorem cover2 (i : S100000x40.Idx) :
    ∃ t : Fin cfg2.N, (cfg2.win 4).flush t = true ∧ i ∈ ((cfg2.win 4).blk t).view.set := by
  have hi0 : (i 0).val < 100000 := (i 0).isLt
  have hi1 : (i 1).val < 40 := (i 1).isLt
  obtain ⟨t, ht⟩ := onto2 ⟨(i 0).val / 4000, by omega⟩
  have ht' : t.val = (i 0).val / 4000 := ht
  obtain ⟨-, -, -, -, -, -, -, -, e0, e1⟩ := idx2 t
  refine ⟨t, flush2_4 t, ?_⟩
  rw [mem_blk2]
  intro a
  match a with
  | ⟨0, _⟩ =>
    show win2_4.index t (0 : Fin 2) * 4000 ≤ (i 0).val ∧ (i 0).val < win2_4.index t (0 : Fin 2) * 4000 + 4000
    rw [e0, ht']; omega
  | ⟨1, _⟩ =>
    show win2_4.index t (1 : Fin 2) * 40 ≤ (i 1).val ∧ (i 1).val < win2_4.index t (1 : Fin 2) * 40 + 40
    rw [e1]; omega

/-- THE RESULT ARRAY after the third launch. -/
theorem region2 (c : Dev nD) :
    (dat2 V c).arrAt 4 cfg2.N
      = Blk.lsmC (Ideal.ofBits .f32 0xFF800000#32) (Ideal.ofBits .f32 0x00000000#32)
          (V c main_v39) (V c main_v28) (V c main_v14) (V c main_v40) :=
  (dat2 V c).arrAt_eq_of_cover 4 _ (fun t _ => flushed2 V c t) (cover2)

end Cert.KernelIdeal.RegV

end
-- ==== Proof.LibTRef.lean ====
/-
  Typed references: writing through one and reading back.

  A typed reference is a buffer together with the fact that the buffer's type is a given one; contents at the given type are
  carried to contents of the buffer, and back, along that fact. For any typed reference the round trip is the identity,
  in both orders: the fact is an equation between two types, and along an equation of a type with itself carrying is the
  identity.
-/
import Idealize.ShloMosaic.Lib.StableHlo

namespace Cert.LibTRef

open Idealize.ShloMosaic Idealize.ShloMosaic.StableHlo

variable {sig : RefSig} {Val : EltTy → Type} {T : BufTy}

/-- Carrying contents along an equation of types and back along the same equation is the identity. -/
theorem cast_cast_symm {α β : Type} (h : α = β) (h' : β = α) (v : α) : cast h' (cast h v) = v := by
  subst h; rfl

/-- Contents written through a typed reference read back through it unchanged. -/
theorem ofBuf_toBuf (x : TRef sig T) (v : T.Contents Val) : x.ofBuf (x.toBuf v) = v :=
  cast_cast_symm _ _ v

/-- A buffer's contents read through a typed reference write back through it unchanged. -/
theorem toBuf_ofBuf (x : TRef sig T) (u : x.ref.ty.Contents Val) : x.toBuf (x.ofBuf u) = u :=
  cast_cast_symm _ _ u

end Cert.LibTRef
-- ==== Proof.KerLayers.lean ====
/-
  The dense stages on whole arrays are the factored form's layers.

  With the normalisation column read as `dK`, the aggregated array read as the accumulation `agg` of the gathered rows,
  and the one-row bias read as a vector: the combination `d · (es + hs) + b` is one layer of the factored form on the
  prescaled features `hs`; the two products are the factored form's matrix products; the third stage is the log-softmax of
  a layer's rows.
-/
import proofs.«119770_j32229434589355_2_alg».proof.Proof.KerBlocks

noncomputable section

namespace Cert.Gcn.Blk

open Idealize.ShloMosaic Idealize.ShloMosaic.ValueIdx
open Cert.MatProduct (rowOf colOf prod eq_row_col)

variable {n E K N : ℕ}

/-- The first stage is the product of the prescaled features with the weights. -/
theorem projA_eq (x : (⟨2, ![n, K]⟩ : Shape).Idx → EReal) (d : (⟨2, ![n, 1]⟩ : Shape).Idx → EReal)
    (w : (⟨2, ![K, N]⟩ : Shape).Idx → EReal) (dK : Fin n → EReal) (hd : ∀ i u, d (ix2 i u) = dK i) (j : Fin n) (c : Fin N) :
    projA x d w (ix2 j c) = mm (fun i k => x (ix2 i k) * dK i) (fun k c => w (ix2 k c)) j c := by
  show ∑ k : Fin K, (x (ix2 j k) * d (ix2 j (0 : Fin 1))) * w (ix2 k c) = ∑ k : Fin K, (x (ix2 j k) * dK j) * w (ix2 k c)
  rw [hd]

/-- The combination is one layer of the factored form. -/
theorem comb_eq (es hs : (⟨2, ![n, N]⟩ : Shape).Idx → EReal) (d : (⟨2, ![n, 1]⟩ : Shape).Idx → EReal)
    (brow : (⟨2, ![1, N]⟩ : Shape).Idx → EReal) (z : EReal) (D : Fin E → ℤ) (S : Fin E → Fin n) (dK : Fin n → EReal)
    (b : (⟨1, ![N]⟩ : Shape).Idx → EReal) (hd : ∀ i u, d (ix2 i u) = dK i)
    (hes : ∀ i k, es (ix2 i k) = agg z D (fun e c => hs (ix2 (S e) c)) i k)
    (hb : ∀ k, brow (ix2 (0 : Fin 1) k) = b (ix1 k)) (i : Fin n) (k : Fin N) :
    comb es hs d brow (ix2 i k) = kLayer z dK D S (fun j c => hs (ix2 j c)) (fun c => b (ix1 c)) i k := by
  show d (ix2 i (0 : Fin 1)) * (es (ix2 i k) + hs (ix2 i k)) + brow (ix2 (0 : Fin 1) k)
    = dK i * (agg z D (fun e c => hs (ix2 (S e) c)) i k + hs (ix2 i k)) + b (ix1 k)
  rw [hd, hes, hb]

/-- The second stage is the product of the scaled positive part of a layer with the weights. -/
theorem projB_eq (es hs : (⟨2, ![n, K]⟩ : Shape).Idx → EReal) (d : (⟨2, ![n, 1]⟩ : Shape).Idx → EReal)
    (brow : (⟨2, ![1, K]⟩ : Shape).Idx → EReal) (z : EReal) (w : (⟨2, ![K, N]⟩ : Shape).Idx → EReal)
    (D : Fin E → ℤ) (S : Fin E → Fin n) (dK : Fin n → EReal)
    (b : (⟨1, ![K]⟩ : Shape).Idx → EReal) (hd : ∀ i u, d (ix2 i u) = dK i)
    (hes : ∀ i k, es (ix2 i k) = agg z D (fun e c => hs (ix2 (S e) c)) i k)
    (hb : ∀ k, brow (ix2 (0 : Fin 1) k) = b (ix1 k)) (j : Fin n) (c : Fin N) :
    projB es hs d brow z w (ix2 j c)
      = mm (fun i k => dK i * max (kLayer z dK D S (fun j c => hs (ix2 j c)) (fun c => b (ix1 c)) i k) z)
          (fun k c => w (ix2 k c)) j c := by
  show ∑ k : Fin K, (d (ix2 j (0 : Fin 1)) * max (comb es hs d brow (ix2 j k)) z) * w (ix2 k c)
    = ∑ k : Fin K, (dK j * max (kLayer z dK D S (fun j c => hs (ix2 j c)) (fun c => b (ix1 c)) j k) z) * w (ix2 k c)
  refine Finset.sum_congr rfl fun k _ => ?_
  rw [hd, comb_eq es hs d brow z D S dK b hd hes hb j k]

/-- The third stage is the log-softmax of a layer's row. -/
theorem lsmC_eq (ninf z : EReal) (es hs : (⟨2, ![n, N]⟩ : Shape).Idx → EReal) (d : (⟨2, ![n, 1]⟩ : Shape).Idx → EReal)
    (brow : (⟨2, ![1, N]⟩ : Shape).Idx → EReal) (D : Fin E → ℤ) (S : Fin E → Fin n) (dK : Fin n → EReal)
    (b : (⟨1, ![N]⟩ : Shape).Idx → EReal) (hd : ∀ i u, d (ix2 i u) = dK i)
    (hes : ∀ i k, es (ix2 i k) = agg z D (fun e c => hs (ix2 (S e) c)) i k)
    (hb : ∀ k, brow (ix2 (0 : Fin 1) k) = b (ix1 k)) (y : (⟨2, ![n, N]⟩ : Shape).Idx) :
    lsmC ninf z es hs d brow y
      = lsmRow ninf z (kLayer z dK D S (fun j c => hs (ix2 j c)) (fun c => b (ix1 c)) (rowOf y)) (colOf y) := by
  show lsmRow ninf z (fun k => comb es hs d brow (ix2 (rowOf y) k)) (colOf y) = _
  exact congrArg (fun r => lsmRow ninf z r (colOf y)) (funext fun k => comb_eq es hs d brow z D S dK b hd hes hb (rowOf y) k)

end Cert.Gcn.Blk

end
-- ==== Proof.KerStages.lean ====
/-
  The idealized kernel's result as a function of its arguments.

  The buffers are followed through the program: the normalisation column after the first stretches of host operations;
  the first launch's result (the first dense stage); the first aggregation; the second launch's result (the second dense
  stage); the second aggregation; the third launch's result (the log-softmax of the last combination). A buffer that a
  stretch or a launch does not write holds what it held before.
-/
import proofs.«119770_j32229434589355_2_alg».proof.Proof.Gen.KernelIdeal.Frame
import proofs.«119770_j32229434589355_2_alg».proof.Proof.KerHost
import proofs.«119770_j32229434589355_2_alg».proof.Proof.KerRegion0
import proofs.«119770_j32229434589355_2_alg».proof.Proof.KerRegion1
import proofs.«119770_j32229434589355_2_alg».proof.Proof.KerRegion2
import proofs.«119770_j32229434589355_2_alg».proof.Proof.LibTRef
import proofs.«119770_j32229434589355_2_alg».proof.Proof.KerLayers
import proofs.«119770_j32229434589355_2_alg».proof.Proof.LibRowBias
import Idealize.ShloMosaic.Lib.StableHlo.Run

set_option maxRecDepth 16384

noncomputable section

namespace Cert.KernelIdeal.HostV

open Cert.KernelIdeal Cert.KernelIdeal.Gen
open Idealize.ShloMosaic Idealize.ShloMosaic.TcCoe Idealize.ShloMosaic.ValueIdx
open Idealize.SL.Sem Idealize.ShloMosaic.StableHlo
open Cert.Gcn

variable (m : (ℓ : Loc nD τ sig) → Buf (Elt Ideal) ℓ) (ρ : Dev nD → PrngReg) (c : Dev nD)

/-- The arguments as launched. -/
abbrev a0 : S100000x128.Idx → EReal := m ((c : Thread nD τ).loc main_arg0)
abbrev a1 : IVec S2x1600000 32 := m ((c : Thread nD τ).loc main_arg1)
abbrev a2 : S128x64.Idx → EReal := m ((c : Thread nD τ).loc main_arg2)
abbrev a3 : S64.Idx → EReal := m ((c : Thread nD τ).loc main_arg3)
abbrev a4 : S64x40.Idx → EReal := m ((c : Thread nD τ).loc main_arg4)
abbrev a5 : S40.Idx → EReal := m ((c : Thread nD τ).loc main_arg5)

/-! ## Before the first launch -/

theorem w3_arg0 : (W3 m ρ c (Proc.devRef .tc main_arg0) : S100000x128.Idx → EReal) = a0 m c := by
  show StableHlo.after hostOps0_2 (StableHlo.after hostOps0_1 (StableHlo.after hostOps0 (W0 m ρ c)))
    (Proc.devRef .tc main_arg0) = _
  after_results
  try rfl

theorem w3_arg2 : (W3 m ρ c (Proc.devRef .tc main_arg2) : S128x64.Idx → EReal) = a2 m c := by
  show StableHlo.after hostOps0_2 (StableHlo.after hostOps0_1 (StableHlo.after hostOps0 (W0 m ρ c)))
    (Proc.devRef .tc main_arg2) = _
  after_results
  try rfl

theorem w3_arg3 : (W3 m ρ c (Proc.devRef .tc main_arg3) : S64.Idx → EReal) = a3 m c := by
  show StableHlo.after hostOps0_2 (StableHlo.after hostOps0_1 (StableHlo.after hostOps0 (W0 m ρ c)))
    (Proc.devRef .tc main_arg3) = _
  after_results
  try rfl

theorem w3_arg4 : (W3 m ρ c (Proc.devRef .tc main_arg4) : S64x40.Idx → EReal) = a4 m c := by
  show StableHlo.after hostOps0_2 (StableHlo.after hostOps0_1 (StableHlo.after hostOps0 (W0 m ρ c)))
    (Proc.devRef .tc main_arg4) = _
  after_results
  try rfl

theorem w3_arg5 : (W3 m ρ c (Proc.devRef .tc main_arg5) : S40.Idx → EReal) = a5 m c := by
  show StableHlo.after hostOps0_2 (StableHlo.after hostOps0_1 (StableHlo.after hostOps0 (W0 m ρ c)))
    (Proc.devRef .tc main_arg5) = _
  after_results
  try rfl

/-- The destination words, flattened, after the first stretch. -/
theorem w1_v3 : (W1 m ρ c (Proc.devRef .tc main_v3) : IVec S1600000 32) = dstVec (a1 m c) := by
  show StableHlo.after hostOps0 (W0 m ρ c) (Proc.devRef .tc main_v3) = _
  after_results
  try rfl

/-- The source words, flattened, after the first stretch. -/
theorem w1_v1 : (W1 m ρ c (Proc.devRef .tc main_v1) : IVec S1600000 32) = srcVec (a1 m c) := by
  show StableHlo.after hostOps0 (W0 m ρ c) (Proc.devRef .tc main_v1) = _
  after_results
  try rfl

theorem w3_v3 : (W3 m ρ c (Proc.devRef .tc main_v3) : IVec S1600000 32) = dstVec (a1 m c) := by
  refine Eq.trans ?_ (w1_v3 m ρ c)
  show StableHlo.after hostOps0_2 (StableHlo.after hostOps0_1 (W1 m ρ c)) (Proc.devRef .tc main_v3) = _
  generalize W1 m ρ c = Wv
  after_results
  try rfl

theorem w3_v1 : (W3 m ρ c (Proc.devRef .tc main_v1) : IVec S1600000 32) = srcVec (a1 m c) := by
  refine Eq.trans ?_ (w1_v1 m ρ c)
  show StableHlo.after hostOps0_2 (StableHlo.after hostOps0_1 (W1 m ρ c)) (Proc.devRef .tc main_v1) = _
  generalize W1 m ρ c = Wv
  after_results
  try rfl

/-- The degree after the first stretch. -/
theorem w1_v9 : (W1 m ρ c (Proc.devRef .tc main_v9) : S100000.Idx → EReal) = degV (a1 m c) := by
  show StableHlo.after hostOps0 (W0 m ρ c) (Proc.devRef .tc main_v9) = _
  after_results
  try rfl

theorem w1_v11 : (W1 m ρ c (Proc.devRef .tc main_v11) : IVec S100000 1)
    = cmpf .ogt (degV (a1 m c))
        (broadcastInDim S100000 ![] bcast_S_S100000 (constant (F := Ideal) S_ .f32 0x00000000#32)) := by
  show StableHlo.after hostOps0 (W0 m ρ c) (Proc.devRef .tc main_v11) = _
  after_results
  try rfl

theorem w1_v12 : (W1 m ρ c (Proc.devRef .tc main_v12) : S100000.Idx → EReal)
    = Host.rsqrt (F := Ideal) (degV (a1 m c)) := by
  show StableHlo.after hostOps0 (W0 m ρ c) (Proc.devRef .tc main_v12) = _
  after_results
  try rfl

theorem w1_cst3 : (W1 m ρ c (Proc.devRef .tc main_cst_3) : S_.Idx → EReal)
    = constant (F := Ideal) S_ .f32 0x00000000#32 := by
  show StableHlo.after hostOps0 (W0 m ρ c) (Proc.devRef .tc main_cst_3) = _
  after_results
  try rfl

/-- The normalisation vector after the called selection. -/
theorem w2_v13 : (W2 m ρ c (Proc.devRef .tc main_v13) : S100000.Idx → EReal)
    = select (W1 m ρ c (Proc.devRef .tc main_v11) : IVec S100000 1) (W1 m ρ c (Proc.devRef .tc main_v12) : S100000.Idx → EReal)
        (broadcastInDim S100000 ![] bcast_S_S100000 (W1 m ρ c (Proc.devRef .tc main_cst_3) : S_.Idx → EReal)) := by
  show StableHlo.after hostOps0_1 (W1 m ρ c) (Proc.devRef .tc main_v13) = _
  generalize W1 m ρ c = Wv
  after_results
  simp only [Cert.LibTRef.ofBuf_toBuf, Cert.LibTRef.toBuf_ofBuf]
  try rfl

theorem v3_v14 : (V3 m ρ c main_v14 : S100000x1.Idx → EReal) = dinv2 (a1 m c) := by
  have e : (V3 m ρ c main_v14 : S100000x1.Idx → EReal)
      = shapeCast S100000x1 (W2 m ρ c (Proc.devRef .tc main_v13) : S100000.Idx → EReal) shapeCasts_S100000_S100000x1 := by
    show StableHlo.after hostOps0_2 (W2 m ρ c) (Proc.devRef .tc main_v14) = _
    generalize W2 m ρ c = Wv
    after_results
    try rfl
  rw [e, w2_v13, w1_v11, w1_v12, w1_cst3]
  rfl

theorem v3_arg0 : (V3 m ρ c main_arg0 : S100000x128.Idx → EReal) = a0 m c := w3_arg0 m ρ c
theorem v3_arg2 : (V3 m ρ c main_arg2 : S128x64.Idx → EReal) = a2 m c := w3_arg2 m ρ c

/-! ## The first launch -/

theorem v4_v15 : (V4 m ρ c main_v15 : S100000x64.Idx → EReal) = Blk.projA (a0 m c) (dinv2 (a1 m c)) (a2 m c) := by
  refine (W4_arr m ρ c 3).trans ?_
  rw [RegV.region0 (V3 m ρ) c, v3_arg0, v3_v14, v3_arg2]

/-! ## Between the first and the second launch -/

theorem w4_v3 : (W4 m ρ c (Proc.devRef .tc main_v3) : IVec S1600000 32) = dstVec (a1 m c) :=
  (W4_of_ne m ρ c main_v3 (by decide)).trans (w3_v3 m ρ c)
theorem w4_v1 : (W4 m ρ c (Proc.devRef .tc main_v1) : IVec S1600000 32) = srcVec (a1 m c) :=
  (W4_of_ne m ρ c main_v1 (by decide)).trans (w3_v1 m ρ c)
theorem w4_arg3 : (W4 m ρ c (Proc.devRef .tc main_arg3) : S64.Idx → EReal) = a3 m c :=
  (W4_of_ne m ρ c main_arg3 (by decide)).trans (w3_arg3 m ρ c)
theorem w4_arg4 : (W4 m ρ c (Proc.devRef .tc main_arg4) : S64x40.Idx → EReal) = a4 m c :=
  (W4_of_ne m ρ c main_arg4 (by decide)).trans (w3_arg4 m ρ c)
theorem w4_arg5 : (W4 m ρ c (Proc.devRef .tc main_arg5) : S40.Idx → EReal) = a5 m c :=
  (W4_of_ne m ρ c main_arg5 (by decide)).trans (w3_arg5 m ρ c)
theorem w4_v14 : (W4 m ρ c (Proc.devRef .tc main_v14) : S100000x1.Idx → EReal) = dinv2 (a1 m c) :=
  ((W4_arr m ρ c 1).trans (((dat0 (V3 m ρ) c).arrAt_in 1 rfl _).trans (A_eq0 (V3 m ρ) c 1))).trans (v3_v14 m ρ c)

theorem v5_v26 : (V5 m ρ c main_v26 : S100000x64.Idx → EReal) = es64 (V4 m ρ c main_v15) (a1 m c) := by
  have e3 := w4_v3 m ρ c
  have e1 := w4_v1 m ρ c
  show StableHlo.after hostOps1 (W4 m ρ c) (Proc.devRef .tc main_v26)
    = es64 (W4 m ρ c (Proc.devRef .tc main_v15)) (a1 m c)
  generalize W4 m ρ c = Wv at e3 e1 ⊢
  after_results
  rw [e3, e1]
  try rfl

theorem v5_v15 : (V5 m ρ c main_v15 : S100000x64.Idx → EReal) = V4 m ρ c main_v15 := by
  show StableHlo.after hostOps1 (W4 m ρ c) (Proc.devRef .tc main_v15) = W4 m ρ c (Proc.devRef .tc main_v15)
  generalize W4 m ρ c = Wv
  after_results
  try rfl

theorem v5_v14 : (V5 m ρ c main_v14 : S100000x1.Idx → EReal) = dinv2 (a1 m c) := by
  refine Eq.trans ?_ (w4_v14 m ρ c)
  show StableHlo.after hostOps1 (W4 m ρ c) (Proc.devRef .tc main_v14) = W4 m ρ c (Proc.devRef .tc main_v14)
  generalize W4 m ρ c = Wv
  after_results
  try rfl

theorem v5_v27 : (V5 m ρ c main_v27 : S1x64.Idx → EReal) = shapeCast S1x64 (a3 m c) shapeCasts_S64_S1x64 := by
  have e := w4_arg3 m ρ c
  show StableHlo.after hostOps1 (W4 m ρ c) (Proc.devRef .tc main_v27) = _
  generalize W4 m ρ c = Wv at e ⊢
  after_results
  rw [e]
  try rfl

theorem v5_arg4 : (V5 m ρ c main_arg4 : S64x40.Idx → EReal) = a4 m c := by
  refine Eq.trans ?_ (w4_arg4 m ρ c)
  show StableHlo.after hostOps1 (W4 m ρ c) (Proc.devRef .tc main_arg4) = W4 m ρ c (Proc.devRef .tc main_arg4)
  generalize W4 m ρ c = Wv
  after_results
  try rfl

theorem w5_v3 : (W5 m ρ c (Proc.devRef .tc main_v3) : IVec S1600000 32) = dstVec (a1 m c) := by
  refine Eq.trans ?_ (w4_v3 m ρ c)
  show StableHlo.after hostOps1 (W4 m ρ c) (Proc.devRef .tc main_v3) = W4 m ρ c (Proc.devRef .tc main_v3)
  generalize W4 m ρ c = Wv
  after_results
  try rfl

theorem w5_v1 : (W5 m ρ c (Proc.devRef .tc main_v1) : IVec S1600000 32) = srcVec (a1 m c) := by
  refine Eq.trans ?_ (w4_v1 m ρ c)
  show StableHlo.after hostOps1 (W4 m ρ c) (Proc.devRef .tc main_v1) = W4 m ρ c (Proc.devRef .tc main_v1)
  generalize W4 m ρ c = Wv
  after_results
  try rfl

theorem w5_arg5 : (W5 m ρ c (Proc.devRef .tc main_arg5) : S40.Idx → EReal) = a5 m c := by
  refine Eq.trans ?_ (w4_arg5 m ρ c)
  show StableHlo.after hostOps1 (W4 m ρ c) (Proc.devRef .tc main_arg5) = W4 m ρ c (Proc.devRef .tc main_arg5)
  generalize W4 m ρ c = Wv
  after_results
  try rfl

/-! ## The second launch -/

theorem v6_v28 : (V6 m ρ c main_v28 : S100000x40.Idx → EReal)
    = Blk.projB (es64 (Blk.projA (a0 m c) (dinv2 (a1 m c)) (a2 m c)) (a1 m c)) (Blk.projA (a0 m c) (dinv2 (a1 m c)) (a2 m c))
        (dinv2 (a1 m c)) (shapeCast S1x64 (a3 m c) shapeCasts_S64_S1x64) (Ideal.ofBits .f32 0x00000000#32) (a4 m c) := by
  refine (W6_arr m ρ c 5).trans ?_
  rw [RegV.region1 (V5 m ρ) c, v5_v26, v5_v15, v5_v14, v5_v27, v5_arg4, v4_v15]

/-! ## Between the second and the third launch -/

theorem w6_v3 : (W6 m ρ c (Proc.devRef .tc main_v3) : IVec S1600000 32) = dstVec (a1 m c) :=
  (W6_of_ne m ρ c main_v3 (by decide)).trans (w5_v3 m ρ c)
theorem w6_v1 : (W6 m ρ c (Proc.devRef .tc main_v1) : IVec S1600000 32) = srcVec (a1 m c) :=
  (W6_of_ne m ρ c main_v1 (by decide)).trans (w5_v1 m ρ c)
theorem w6_arg5 : (W6 m ρ c (Proc.devRef .tc main_arg5) : S40.Idx → EReal) = a5 m c :=
  (W6_of_ne m ρ c main_arg5 (by decide)).trans (w5_arg5 m ρ c)
theorem w6_v14 : (W6 m ρ c (Proc.devRef .tc main_v14) : S100000x1.Idx → EReal) = dinv2 (a1 m c) :=
  ((W6_arr m ρ c 2).trans (((dat1 (V5 m ρ) c).arrAt_in 2 rfl _).trans (A_eq1 (V5 m ρ) c 2))).trans (v5_v14 m ρ c)

theorem v7_v39 : (V7 m ρ c main_v39 : S100000x40.Idx → EReal) = es40 (V6 m ρ c main_v28) (a1 m c) := by
  have e3 := w6_v3 m ρ c
  have e1 := w6_v1 m ρ c
  show StableHlo.after hostOps2 (W6 m ρ c) (Proc.devRef .tc main_v39)
    = es40 (W6 m ρ c (Proc.devRef .tc main_v28)) (a1 m c)
  generalize W6 m ρ c = Wv at e3 e1 ⊢
  after_results
  rw [e3, e1]
  try rfl

theorem v7_v28 : (V7 m ρ c main_v28 : S100000x40.Idx → EReal) = V6 m ρ c main_v28 := by
  show StableHlo.after hostOps2 (W6 m ρ c) (Proc.devRef .tc main_v28) = W6 m ρ c (Proc.devRef .tc main_v28)
  generalize W6 m ρ c = Wv
  after_results
  try rfl

theorem v7_v14 : (V7 m ρ c main_v14 : S100000x1.Idx → EReal) = dinv2 (a1 m c) := by
  refine Eq.trans ?_ (w6_v14 m ρ c)
  show StableHlo.after hostOps2 (W6 m ρ c) (Proc.devRef .tc main_v14) = W6 m ρ c (Proc.devRef .tc main_v14)
  generalize W6 m ρ c = Wv
  after_results
  try rfl

theorem v7_v40 : (V7 m ρ c main_v40 : S1x40.Idx → EReal) = shapeCast S1x40 (a5 m c) shapeCasts_S40_S1x40 := by
  have e := w6_arg5 m ρ c
  show StableHlo.after hostOps2 (W6 m ρ c) (Proc.devRef .tc main_v40) = _
  generalize W6 m ρ c = Wv at e ⊢
  after_results
  rw [e]
  try rfl

/-! ## The third launch: the result -/

/-- The first launch's result, the prescaled features times the first weights. -/
abbrev hs1 : S100000x64.Idx → EReal := Blk.projA (a0 m c) (dinv2 (a1 m c)) (a2 m c)

/-- The second launch's result. -/
abbrev hs2 : S100000x40.Idx → EReal :=
  Blk.projB (es64 (hs1 m c) (a1 m c)) (hs1 m c) (dinv2 (a1 m c)) (shapeCast S1x64 (a3 m c) shapeCasts_S64_S1x64)
    (Ideal.ofBits .f32 0x00000000#32) (a4 m c)

theorem v8_v41 : (W8 m ρ c (Proc.devRef .tc main_v41) : S100000x40.Idx → EReal)
    = Blk.lsmC (Ideal.ofBits .f32 0xFF800000#32) (Ideal.ofBits .f32 0x00000000#32) (es40 (hs2 m c) (a1 m c)) (hs2 m c)
        (dinv2 (a1 m c)) (shapeCast S1x40 (a5 m c) shapeCasts_S40_S1x40) := by
  refine (W8_arr m ρ c 4).trans ?_
  rw [RegV.region2 (V7 m ρ) c, v7_v39, v7_v28, v7_v14, v7_v40, v6_v28]

/-! ## The result is the factored form -/

/-- The destinations, read signed. -/
abbrev Dk : Fin 1600000 → ℤ := fun e => (dstW (a1 m c) e).toInt
/-- The node a source word designates. -/
abbrev Sk : Fin 1600000 → Fin 100000 := fun e => posOf (srcW (a1 m c) e)
/-- The nodes' normalisation. -/
abbrev dKk : Fin 100000 → EReal := fun i => dinvOf zW (kDeg zW oneW (Dk m c) i)

/-- THE KERNEL'S RESULT, as the factored form of its six arguments. -/
theorem kernel_value :
    (W8 m ρ c (Proc.devRef .tc main_v41) : S100000x40.Idx → EReal)
      = kerArr (a0 m c) (a1 m c) (a2 m c) (a3 m c) (a4 m c) (a5 m c) := by
  rw [v8_v41]
  funext y
  have hd : ∀ (i : Fin 100000) (u : Fin 1), dinv2 (a1 m c) (ix2 i u) = dKk m c i := dinv2_apply (a1 m c)
  have h1 : (fun (j : Fin 100000) (c' : Fin 64) => hs1 m c (ix2 j c'))
      = mm (fun i k => a0 m c (ix2 i k) * dKk m c i) (fun k c' => a2 m c (ix2 k c')) :=
    funext fun j => funext fun c' => Blk.projA_eq (a0 m c) (dinv2 (a1 m c)) (a2 m c) (dKk m c) hd j c'
  have h2 : (fun (j : Fin 100000) (c' : Fin 40) => hs2 m c (ix2 j c'))
      = mm (fun i k => dKk m c i * max (kLayer zW (dKk m c) (Dk m c) (Sk m c) (fun j c' => hs1 m c (ix2 j c'))
            (fun c' => a3 m c (ix1 c')) i k) zW) (fun k c' => a4 m c (ix2 k c')) :=
    funext fun j => funext fun c' =>
      Blk.projB_eq (es64 (hs1 m c) (a1 m c)) (hs1 m c) (dinv2 (a1 m c)) (shapeCast S1x64 (a3 m c) shapeCasts_S64_S1x64) zW
        (a4 m c) (Dk m c) (Sk m c) (dKk m c) (a3 m c) hd (es64_apply (hs1 m c) (a1 m c))
        (fun k => Cert.RowBias.vecRow_apply (a3 m c) shapeCasts_S64_S1x64 k) j c'
  rw [Blk.lsmC_eq ninfW zW (es40 (hs2 m c) (a1 m c)) (hs2 m c) (dinv2 (a1 m c))
    (shapeCast S1x40 (a5 m c) shapeCasts_S40_S1x40) (Dk m c) (Sk m c) (dKk m c) (a5 m c) hd
    (es40_apply (hs2 m c) (a1 m c)) (fun k => Cert.RowBias.vecRow_apply (a5 m c) shapeCasts_S40_S1x40 k) y, h2, h1]
  rfl

end Cert.KernelIdeal.HostV

end
-- ==== Proof.LibJoins.lean ====
/-
  A few layout operations read at an index, for any extents.

  A vector regarded as a column (`[a]` to `[a, 1]`); two matrices put side by side (`[m, n1]` and `[m, n2]` joined
  along the columns): a column below `n1` comes from the first, a column at or past it from the second; two
  vectors joined end to end, the same way.
-/
import Idealize.ShloMosaic.Lib.ValueIdx
import Idealize.ShloMosaic.Lib.ValueLayout
import Idealize.ShloMosaic.Lib.Pipeline.Value

noncomputable section

namespace Cert.Joins

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Two matrices side by side: a column of the first. -/
theorem join_cols_left {m n1 n2 : ℕ} (x1 : (⟨2, ![m, n1]⟩ : Shape).Idx → α) (x2 : (⟨2, ![m, n2]⟩ : Shape).Idx → α)
    (h : Shape.Concatenates [⟨2, ![m, n1]⟩, ⟨2, ![m, n2]⟩] ⟨2, ![m, n1 + n2]⟩ 1)
    (r : Fin m) (q : Fin (n1 + n2)) (c : Fin n1) (hc : c.val = q.val) :
    concatenate ⟨2, ![m, n1 + n2]⟩ 1 [⟨⟨2, ![m, n1]⟩, x1⟩, ⟨⟨2, ![m, n2]⟩, x2⟩] h (ix2 r q) = x1 (ix2 r c) :=
  concatenate_pair_apply_left 1 x1 x2 h (ix2 r q) rfl (ix2 r c) (fun b => by
    match b with
    | ⟨0, _⟩ => rfl
    | ⟨1, _⟩ => exact hc)

/-- Two matrices side by side: a column of the second. -/
theorem join_cols_right {m n1 n2 : ℕ} (x1 : (⟨2, ![m, n1]⟩ : Shape).Idx → α) (x2 : (⟨2, ![m, n2]⟩ : Shape).Idx → α)
    (h : Shape.Concatenates [⟨2, ![m, n1]⟩, ⟨2, ![m, n2]⟩] ⟨2, ![m, n1 + n2]⟩ 1)
    (r : Fin m) (q : Fin (n1 + n2)) (c : Fin n2) (hc : c.val + n1 = q.val) :
    concatenate ⟨2, ![m, n1 + n2]⟩ 1 [⟨⟨2, ![m, n1]⟩, x1⟩, ⟨⟨2, ![m, n2]⟩, x2⟩] h (ix2 r q) = x2 (ix2 r c) :=
  concatenate_pair_apply_right 1 x1 x2 h (ix2 r q) rfl rfl (ix2 r c) (fun b hb => by
    match b with
    | ⟨0, _⟩ => rfl
    | ⟨1, _⟩ => exact absurd rfl hb) hc

/-- Two vectors end to end: an entry of the first. -/
theorem join_vec_left {n1 n2 : ℕ} (x1 : (⟨1, ![n1]⟩ : Shape).Idx → α) (x2 : (⟨1, ![n2]⟩ : Shape).Idx → α)
    (h : Shape.Concatenates [⟨1, ![n1]⟩, ⟨1, ![n2]⟩] ⟨1, ![n1 + n2]⟩ 0)
    (q : Fin (n1 + n2)) (c : Fin n1) (hc : c.val = q.val) :
    concatenate ⟨1, ![n1 + n2]⟩ 0 [⟨⟨1, ![n1]⟩, x1⟩, ⟨⟨1, ![n2]⟩, x2⟩] h (ix1 q) = x1 (ix1 c) :=
  concatenate_pair_apply_left 0 x1 x2 h (ix1 q) rfl (ix1 c) (fun b => by
    match b with
    | ⟨0, _⟩ => exact hc)

/-- Two vectors end to end: an entry of the second. -/
theorem join_vec_right {n1 n2 : ℕ} (x1 : (⟨1, ![n1]⟩ : Shape).Idx → α) (x2 : (⟨1, ![n2]⟩ : Shape).Idx → α)
    (h : Shape.Concatenates [⟨1, ![n1]⟩, ⟨1, ![n2]⟩] ⟨1, ![n1 + n2]⟩ 0)
    (q : Fin (n1 + n2)) (c : Fin n2) (hc : c.val + n1 = q.val) :
    concatenate ⟨1, ![n1 + n2]⟩ 0 [⟨⟨1, ![n1]⟩, x1⟩, ⟨⟨1, ![n2]⟩, x2⟩] h (ix1 q) = x2 (ix1 c) :=
  concatenate_pair_apply_right 0 x1 x2 h (ix1 q) rfl rfl (ix1 c) (fun b hb => by
    match b with
    | ⟨0, _⟩ => exact absurd rfl hb) hc

end Cert.Joins

end
-- ==== Proof.LibGatherVec.lean ====
/-
  A vector gathered at a column of positions, read at an index, for any extents.

  What `vec[pos]` lowers to for a vector `[N]` and positions `[R]` held as an `[R, 1]` array: a gather with no offset
  axis, the vector's one axis collapsed, slices of one element. Result entry `r` is the vector at the position
  `pos (r, 0)`, read as a signed integer and clamped into `0 … N − 1`.
-/
import Idealize.ShloMosaic.Lib.ValueIdx

noncomputable section

namespace Cert.LibGatherVec

open Idealize.ShloMosaic Idealize.ShloMosaic.ValueIdx

variable {α : Type}

/-- The dimension numbers of that gather; their conditions are decided on a program's literal shapes. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at `r`: the vector at the position `pos (r, 0)`, read signed and clamped into the vector. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 ⟨min (idx (ix2 r (0 : Fin 1))).toInt.toNat (N - 1), by omega⟩) := by
  unfold Host.gather
  refine congrArg x (funext fun a => Fin.ext ?_)
  match a with
  | ⟨0, _⟩ =>
    show (vecDims N R wf).start (ix1 r) idx 0 + (vecDims N R wf).batchCoord (ix1 r) 0
      + (vecDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N R wf).startIndexMap from List.mem_singleton.mpr rfl)]
    have hsi : (vecDims N R wf).siIdx (ix1 r) ⟨List.idxOf (0 : Fin 1) (vecDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

end Cert.LibGatherVec

end
-- ==== Proof.RefValueEdges.lean ====
/-
  The edge-form graph convolution read off the reference program, first part: the edge list and the normalisation.

  The program lists the given edges followed by one loop per node. Its two joined vectors are the source and the destination
  words of that extended list; the degree of a node is the number of extended edges whose destination word, read signed,
  is the node; the normalisation of a node is the inverse square root of its degree where the degree is positive, else zero.
  A lookup reads a position word wrapped (a negative word gets the node count added), signed, and clamped into the nodes.
  Every stage is stated once, at an index given by its coordinates, as an equation with the specification's terms; the
  stages of the second layer repeat those of the first on the same edge list.
-/
import proofs.«119770_j32229434589355_2_alg».proof.Proof.RefRead
import proofs.«119770_j32229434589355_2_alg».proof.Proof.SpecIdx
import proofs.«119770_j32229434589355_2_alg».proof.Proof.LibJoins
import proofs.«119770_j32229434589355_2_alg».proof.Proof.LibScatterAddVec
import proofs.«119770_j32229434589355_2_alg».proof.Proof.LibGatherVec

noncomputable section

namespace Cert.Gcn.Ref

open Cert.ReferenceIdeal Cert.ReferenceIdeal.Gen Cert.ReferenceIdeal.ReadP Idealize.ShloMosaic Idealize.ShloMosaic.ValueIdx
open Idealize.ShloMosaic.TcCoe Idealize.SL.Sem Idealize.ShloMosaic.StableHlo

/-- Row 1 of the edge array, flattened, is the list of destination words. -/
theorem v5_at (x1 : (⟨S2x1600000, .i32⟩ : BufTy).Contents (Elt Ideal)) (c : Fin 1600000) :
    val_main_v5 (F := Ideal) x1 (ix1 c) = dstW x1 c := by
  rw [val_main_v5_apply, val_main_v4_apply]
  unfold dstW
  refine congrArg x1 (funext fun a => Fin.ext ?_)
  match a with
  | ⟨0, _⟩ => rfl
  | ⟨1, _⟩ => exact Nat.mod_eq_of_lt c.isLt

theorem v2_at (x1 : (⟨S2x1600000, .i32⟩ : BufTy).Contents (Elt Ideal)) (c : Fin 1600000) :
    val_main_v2 (F := Ideal) x1 (ix1 c) = srcW x1 c := by
  rw [val_main_v2_apply, val_main_v1_apply]
  unfold srcW
  refine congrArg x1 (funext fun a => Fin.ext ?_)
  match a with
  | ⟨0, _⟩ => rfl
  | ⟨1, _⟩ => exact Nat.mod_eq_of_lt c.isLt

theorem v6_at (x1 : (⟨S2x1600000, .i32⟩ : BufTy).Contents (Elt Ideal)) (e : Fin 1700000) :
    val_main_v6 (F := Ideal) x1 (ix1 e) = catW (dstW x1) e := by
  unfold val_main_v6 catW
  by_cases h : e.val < 1600000
  · rw [dif_pos h]
    refine (Cert.Joins.join_vec_left (n1 := 1600000) (n2 := 100000) _ _ _ e ⟨e.val, h⟩ rfl).trans ?_
    exact v5_at x1 ⟨e.val, h⟩
  · rw [dif_neg h]
    have he := e.isLt
    refine (Cert.Joins.join_vec_right (n1 := 1600000) (n2 := 100000) _ _ _ e ⟨e.val - 1600000, by omega⟩ (by show e.val - 1600000 + 1600000 = e.val; omega)).trans ?_
    rfl

theorem v3_at (x1 : (⟨S2x1600000, .i32⟩ : BufTy).Contents (Elt Ideal)) (e : Fin 1700000) :
    val_main_v3 (F := Ideal) x1 (ix1 e) = catW (srcW x1) e := by
  unfold val_main_v3 catW
  by_cases h : e.val < 1600000
  · rw [dif_pos h]
    refine (Cert.Joins.join_vec_left (n1 := 1600000) (n2 := 100000) _ _ _ e ⟨e.val, h⟩ rfl).trans ?_
    exact v2_at x1 ⟨e.val, h⟩
  · rw [dif_neg h]
    have he := e.isLt
    refine (Cert.Joins.join_vec_right (n1 := 1600000) (n2 := 100000) _ _ _ e ⟨e.val - 1600000, by omega⟩ (by show e.val - 1600000 + 1600000 = e.val; omega)).trans ?_
    rfl

/-- The destination of an edge of the extended list, read signed. -/
abbrev D' (x1 : (⟨S2x1600000, .i32⟩ : BufTy).Contents (Elt Ideal)) (e : Fin 1700000) : ℤ := (catW (dstW x1) e).toInt
/-- The node a source word of the extended list designates. -/
abbrev S' (x1 : (⟨S2x1600000, .i32⟩ : BufTy).Contents (Elt Ideal)) (e : Fin 1700000) : Fin 100000 := posOf (catW (srcW x1) e)
/-- The node a destination word of the extended list designates. -/
abbrev T' (x1 : (⟨S2x1600000, .i32⟩ : BufTy).Contents (Elt Ideal)) (e : Fin 1700000) : Fin 100000 := posOf (catW (dstW x1) e)

/-- A lookup in a vector of node values: the entry at the position word, read signed and clamped. -/
theorem gatherVec_at (d : (⟨S100000, .f32⟩ : BufTy).Contents (Elt Ideal)) (idx : (⟨S1700000x1, .i32⟩ : BufTy).Contents (Elt Ideal))
    (e : Fin 1700000) :
    Host.gather gather_S100000_S1700000x1_S1700000_n_0_n_n_0_1_1 d idx (ix1 e)
      = d (ix1 ⟨min (idx (ix2 e (0 : Fin 1))).toInt.toNat (100000 - 1), by omega⟩) :=
  Cert.LibGatherVec.gather_vec_apply (N := 100000) (R := 1700000) (by decide)
    Facts₀.gather_S100000_S1700000x1_S1700000_n_0_n_n_0_1_1_wf d idx e

/-- The same lookup when the position word is a wrapped word: the entry of the node that word designates. -/
theorem gatherVec_wrap (d : (⟨S100000, .f32⟩ : BufTy).Contents (Elt Ideal)) (idx : (⟨S1700000x1, .i32⟩ : BufTy).Contents (Elt Ideal))
    (e : Fin 1700000) (w : BitVec 32) (hw : idx (ix2 e (0 : Fin 1)) = wrapW w) :
    Host.gather gather_S100000_S1700000x1_S1700000_n_0_n_n_0_1_1 d idx (ix1 e) = d (ix1 (posOf w)) := by
  refine (gatherVec_at d idx e).trans (congrArg d (congrArg ix1 (Fin.ext ?_)))
  show min (idx (ix2 e (0 : Fin 1))).toInt.toNat (100000 - 1) = min (wrapW w).toInt.toNat (100000 - 1)
  rw [hw]

/-- The destination words as a column, for the degree. -/
theorem dcolA1_at (x1 : (⟨S2x1600000, .i32⟩ : BufTy).Contents (Elt Ideal)) (e : Fin 1700000) (u : Fin 1) :
    val_main_v10 (F := Ideal) x1 (ix2 e u) = catW (dstW x1) e := by
  rw [val_main_v10_apply]
  refine (congrArg (val_main_v6 (F := Ideal) x1) (?_ : idx_main_v10 (ix2 e u) = ix1 e)).trans (v6_at x1 e)
  funext a
  match a with
  | ⟨0, _⟩ => rfl

/-- The destination words as a column, for the degree (second layer). -/
theorem dcolA2_at (x1 : (⟨S2x1600000, .i32⟩ : BufTy).Contents (Elt Ideal)) (e : Fin 1700000) (u : Fin 1) :
    val_main_v51 (F := Ideal) x1 (ix2 e u) = catW (dstW x1) e := by
  rw [val_main_v51_apply]
  refine (congrArg (val_main_v6 (F := Ideal) x1) (?_ : idx_main_v51 (ix2 e u) = ix1 e)).trans (v6_at x1 e)
  funext a
  match a with
  | ⟨0, _⟩ => rfl

/-- The degree: ones accumulated at the destinations, from zero. -/
theorem deg1_at (x1 : (⟨S2x1600000, .i32⟩ : BufTy).Contents (Elt Ideal)) (n : Fin 100000) :
    val_main_v11 (F := Ideal) x1 (ix1 n) = rDeg zW oneW (D' x1) n := by
  unfold val_main_v11
  refine (Cert.LibScatterAddVec.host_scatterAdd_vec_apply (N := 100000) (E := 1700000)
    Facts₀.scatter_S100000_S1700000x1_S1700000_n_0_0_1_wf _ _ _ n).trans ?_
  unfold rDeg aggV
  rw [val_main_v9_apply, val_main_cst_0_apply]
  refine congrArg (zW + ·) (Finset.sum_congr ?_ ?_)
  · ext e
    simp only [Finset.mem_filter, Finset.mem_univ, true_and]
    rw [dcolA1_at]
  · intro e _
    rw [val_main_v8_apply, val_main_cst_apply]
    rfl

/-- The normalisation of a node: the inverse square root of its degree where that is positive, else zero. -/
theorem dinv1_at (x1 : (⟨S2x1600000, .i32⟩ : BufTy).Contents (Elt Ideal)) (n : Fin 100000) :
    val_main_v15 (F := Ideal) x1 (ix1 n) = dinvOf zW (rDeg zW oneW (D' x1) n) := by
  rw [val_main_v15_apply, val_main_v13_apply, val_main_v14_apply, deg1_at, val_main_v12_apply,
    val_main_cst_1_apply, val_main_call0_v1_apply, val_main_call0_v0_apply, val_main_cst_2_apply]
  generalize rDeg zW oneW (D' x1) n = dg
  unfold dinvOf
  rfl

/-- The source word of an edge, wrapped: a negative word gets the node count added. -/
theorem wsrc1_at (x1 : (⟨S2x1600000, .i32⟩ : BufTy).Contents (Elt Ideal)) (e : Fin 1700000) :
    val_main_v20 (F := Ideal) x1 (ix1 e) = wrapW (catW (srcW x1) e) := by
  rw [val_main_v20_apply, val_main_v17_apply, val_main_v19_apply, v3_at, val_main_v16_apply, val_main_c_apply,
    val_main_v18_apply, val_main_c_3_apply]
  rfl

/-- The wrapped source words as a column. -/
theorem wsrc1_col (x1 : (⟨S2x1600000, .i32⟩ : BufTy).Contents (Elt Ideal)) (e : Fin 1700000) (u : Fin 1) :
    val_main_v21 (F := Ideal) x1 (ix2 e u) = wrapW (catW (srcW x1) e) := by
  rw [val_main_v21_apply]
  refine (congrArg (val_main_v20 (F := Ideal) x1) (?_ : idx_main_v21 (ix2 e u) = ix1 e)).trans (wsrc1_at x1 e)
  funext a
  match a with
  | ⟨0, _⟩ => rfl

/-- The destination word of an edge, wrapped: a negative word gets the node count added. -/
theorem wdst1_at (x1 : (⟨S2x1600000, .i32⟩ : BufTy).Contents (Elt Ideal)) (e : Fin 1700000) :
    val_main_v27 (F := Ideal) x1 (ix1 e) = wrapW (catW (dstW x1) e) := by
  rw [val_main_v27_apply, val_main_v24_apply, val_main_v26_apply, v6_at, val_main_v23_apply, val_main_c_4_apply,
    val_main_v25_apply, val_main_c_5_apply]
  rfl

/-- The wrapped destination words as a column. -/
theorem wdst1_col (x1 : (⟨S2x1600000, .i32⟩ : BufTy).Contents (Elt Ideal)) (e : Fin 1700000) (u : Fin 1) :
    val_main_v28 (F := Ideal) x1 (ix2 e u) = wrapW (catW (dstW x1) e) := by
  rw [val_main_v28_apply]
  refine (congrArg (val_main_v27 (F := Ideal) x1) (?_ : idx_main_v28 (ix2 e u) = ix1 e)).trans (wdst1_at x1 e)
  funext a
  match a with
  | ⟨0, _⟩ => rfl

/-- The normalisation looked up at an edge's source. -/
theorem dsrc1_at (x1 : (⟨S2x1600000, .i32⟩ : BufTy).Contents (Elt Ideal)) (e : Fin 1700000) :
    val_main_v22 (F := Ideal) x1 (ix1 e) = dinvOf zW (rDeg zW oneW (D' x1) (S' x1 e)) := by
  unfold val_main_v22
  rw [gatherVec_wrap _ _ e (catW (srcW x1) e) (wsrc1_col x1 e 0)]
  exact dinv1_at x1 (S' x1 e)

/-- The normalisation looked up at an edge's destination. -/
theorem ddst1_at (x1 : (⟨S2x1600000, .i32⟩ : BufTy).Contents (Elt Ideal)) (e : Fin 1700000) :
    val_main_v29 (F := Ideal) x1 (ix1 e) = dinvOf zW (rDeg zW oneW (D' x1) (T' x1 e)) := by
  unfold val_main_v29
  rw [gatherVec_wrap _ _ e (catW (dstW x1) e) (wdst1_col x1 e 0)]
  exact dinv1_at x1 (T' x1 e)

/-- The weight of an edge: the product of the two ends' normalisations. -/
theorem norm1_at (x1 : (⟨S2x1600000, .i32⟩ : BufTy).Contents (Elt Ideal)) (e : Fin 1700000) :
    val_main_v30 (F := Ideal) x1 (ix1 e)
      = dinvOf zW (rDeg zW oneW (D' x1) (S' x1 e)) * dinvOf zW (rDeg zW oneW (D' x1) (T' x1 e)) := by
  rw [val_main_v30_apply, dsrc1_at, ddst1_at]
  rfl

/-- The source word of an edge, wrapped: a negative word gets the node count added. -/
theorem wrow1_at (x1 : (⟨S2x1600000, .i32⟩ : BufTy).Contents (Elt Ideal)) (e : Fin 1700000) :
    val_main_v35 (F := Ideal) x1 (ix1 e) = wrapW (catW (srcW x1) e) := by
  rw [val_main_v35_apply, val_main_v32_apply, val_main_v34_apply, v3_at, val_main_v31_apply, val_main_c_6_apply,
    val_main_v33_apply, val_main_c_7_apply]
  rfl

/-- The wrapped source words as a column, for the lookup of feature rows. -/
theorem wrow1_col (x1 : (⟨S2x1600000, .i32⟩ : BufTy).Contents (Elt Ideal)) (e : Fin 1700000) (u : Fin 1) :
    val_main_v36 (F := Ideal) x1 (ix2 e u) = wrapW (catW (srcW x1) e) := by
  rw [val_main_v36_apply]
  refine (congrArg (val_main_v35 (F := Ideal) x1) (?_ : idx_main_v36 (ix2 e u) = ix1 e)).trans (wrow1_at x1 e)
  funext a
  match a with
  | ⟨0, _⟩ => rfl

/-- The edge weights as a column. -/
theorem normcol1_at (x1 : (⟨S2x1600000, .i32⟩ : BufTy).Contents (Elt Ideal)) (e : Fin 1700000) (u : Fin 1) :
    val_main_v38 (F := Ideal) x1 (ix2 e u) = dinvOf zW (rDeg zW oneW (D' x1) (S' x1 e)) * dinvOf zW (rDeg zW oneW (D' x1) (T' x1 e)) := by
  rw [val_main_v38_apply]
  refine (congrArg (val_main_v30 (F := Ideal) x1) (?_ : idx_main_v38 (ix2 e u) = ix1 e)).trans (norm1_at x1 e)
  funext a
  match a with
  | ⟨0, _⟩ => rfl

/-- The destination words as a column, for the accumulation of rows. -/
theorem dcolB1_at (x1 : (⟨S2x1600000, .i32⟩ : BufTy).Contents (Elt Ideal)) (e : Fin 1700000) (u : Fin 1) :
    val_main_v42 (F := Ideal) x1 (ix2 e u) = catW (dstW x1) e := by
  rw [val_main_v42_apply]
  refine (congrArg (val_main_v6 (F := Ideal) x1) (?_ : idx_main_v42 (ix2 e u) = ix1 e)).trans (v6_at x1 e)
  funext a
  match a with
  | ⟨0, _⟩ => rfl

/-- The degree: ones accumulated at the destinations, from zero. -/
theorem deg2_at (x1 : (⟨S2x1600000, .i32⟩ : BufTy).Contents (Elt Ideal)) (n : Fin 100000) :
    val_main_v52 (F := Ideal) x1 (ix1 n) = rDeg zW oneW (D' x1) n := by
  unfold val_main_v52
  refine (Cert.LibScatterAddVec.host_scatterAdd_vec_apply (N := 100000) (E := 1700000)
    Facts₀.scatter_S100000_S1700000x1_S1700000_n_0_0_1_wf _ _ _ n).trans ?_
  unfold rDeg aggV
  rw [val_main_v50_apply, val_main_cst_10_apply]
  refine congrArg (zW + ·) (Finset.sum_congr ?_ ?_)
  · ext e
    simp only [Finset.mem_filter, Finset.mem_univ, true_and]
    rw [dcolA2_at]
  · intro e _
    rw [val_main_v49_apply, val_main_cst_9_apply]
    rfl

/-- The normalisation of a node: the inverse square root of its degree where that is positive, else zero. -/
theorem dinv2_at (x1 : (⟨S2x1600000, .i32⟩ : BufTy).Contents (Elt Ideal)) (n : Fin 100000) :
    val_main_v56 (F := Ideal) x1 (ix1 n) = dinvOf zW (rDeg zW oneW (D' x1) n) := by
  rw [val_main_v56_apply, val_main_v54_apply, val_main_v55_apply, deg2_at, val_main_v53_apply,
    val_main_cst_11_apply, val_main_call2_v1_apply, val_main_call2_v0_apply, val_main_cst_12_apply]
  generalize rDeg zW oneW (D' x1) n = dg
  unfold dinvOf
  rfl

/-- The source word of an edge, wrapped: a negative word gets the node count added. -/
theorem wsrc2_at (x1 : (⟨S2x1600000, .i32⟩ : BufTy).Contents (Elt Ideal)) (e : Fin 1700000) :
    val_main_v61 (F := Ideal) x1 (ix1 e) = wrapW (catW (srcW x1) e) := by
  rw [val_main_v61_apply, val_main_v58_apply, val_main_v60_apply, v3_at, val_main_v57_apply, val_main_c_13_apply,
    val_main_v59_apply, val_main_c_14_apply]
  rfl

/-- The wrapped source words as a column. -/
theorem wsrc2_col (x1 : (⟨S2x1600000, .i32⟩ : BufTy).Contents (Elt Ideal)) (e : Fin 1700000) (u : Fin 1) :
    val_main_v62 (F := Ideal) x1 (ix2 e u) = wrapW (catW (srcW x1) e) := by
  rw [val_main_v62_apply]
  refine (congrArg (val_main_v61 (F := Ideal) x1) (?_ : idx_main_v62 (ix2 e u) = ix1 e)).trans (wsrc2_at x1 e)
  funext a
  match a with
  | ⟨0, _⟩ => rfl

/-- The destination word of an edge, wrapped: a negative word gets the node count added. -/
theorem wdst2_at (x1 : (⟨S2x1600000, .i32⟩ : BufTy).Contents (Elt Ideal)) (e : Fin 1700000) :
    val_main_v68 (F := Ideal) x1 (ix1 e) = wrapW (catW (dstW x1) e) := by
  rw [val_main_v68_apply, val_main_v65_apply, val_main_v67_apply, v6_at, val_main_v64_apply, val_main_c_15_apply,
    val_main_v66_apply, val_main_c_16_apply]
  rfl

/-- The wrapped destination words as a column. -/
theorem wdst2_col (x1 : (⟨S2x1600000, .i32⟩ : BufTy).Contents (Elt Ideal)) (e : Fin 1700000) (u : Fin 1) :
    val_main_v69 (F := Ideal) x1 (ix2 e u) = wrapW (catW (dstW x1) e) := by
  rw [val_main_v69_apply]
  refine (congrArg (val_main_v68 (F := Ideal) x1) (?_ : idx_main_v69 (ix2 e u) = ix1 e)).trans (wdst2_at x1 e)
  funext a
  match a with
  | ⟨0, _⟩ => rfl

/-- The normalisation looked up at an edge's source. -/
theorem dsrc2_at (x1 : (⟨S2x1600000, .i32⟩ : BufTy).Contents (Elt Ideal)) (e : Fin 1700000) :
    val_main_v63 (F := Ideal) x1 (ix1 e) = dinvOf zW (rDeg zW oneW (D' x1) (S' x1 e)) := by
  unfold val_main_v63
  rw [gatherVec_wrap _ _ e (catW (srcW x1) e) (wsrc2_col x1 e 0)]
  exact dinv2_at x1 (S' x1 e)

/-- The normalisation looked up at an edge's destination. -/
theorem ddst2_at (x1 : (⟨S2x1600000, .i32⟩ : BufTy).Contents (Elt Ideal)) (e : Fin 1700000) :
    val_main_v70 (F := Ideal) x1 (ix1 e) = dinvOf zW (rDeg zW oneW (D' x1) (T' x1 e)) := by
  unfold val_main_v70
  rw [gatherVec_wrap _ _ e (catW (dstW x1) e) (wdst2_col x1 e 0)]
  exact dinv2_at x1 (T' x1 e)

/-- The weight of an edge: the product of the two ends' normalisations. -/
theorem norm2_at (x1 : (⟨S2x1600000, .i32⟩ : BufTy).Contents (Elt Ideal)) (e : Fin 1700000) :
    val_main_v71 (F := Ideal) x1 (ix1 e)
      = dinvOf zW (rDeg zW oneW (D' x1) (S' x1 e)) * dinvOf zW (rDeg zW oneW (D' x1) (T' x1 e)) := by
  rw [val_main_v71_apply, dsrc2_at, ddst2_at]
  rfl

/-- The source word of an edge, wrapped: a negative word gets the node count added. -/
theorem wrow2_at (x1 : (⟨S2x1600000, .i32⟩ : BufTy).Contents (Elt Ideal)) (e : Fin 1700000) :
    val_main_v76 (F := Ideal) x1 (ix1 e) = wrapW (catW (srcW x1) e) := by
  rw [val_main_v76_apply, val_main_v73_apply, val_main_v75_apply, v3_at, val_main_v72_apply, val_main_c_17_apply,
    val_main_v74_apply, val_main_c_18_apply]
  rfl

/-- The wrapped source words as a column, for the lookup of feature rows. -/
theorem wrow2_col (x1 : (⟨S2x1600000, .i32⟩ : BufTy).Contents (Elt Ideal)) (e : Fin 1700000) (u : Fin 1) :
    val_main_v77 (F := Ideal) x1 (ix2 e u) = wrapW (catW (srcW x1) e) := by
  rw [val_main_v77_apply]
  refine (congrArg (val_main_v76 (F := Ideal) x1) (?_ : idx_main_v77 (ix2 e u) = ix1 e)).trans (wrow2_at x1 e)
  funext a
  match a with
  | ⟨0, _⟩ => rfl

/-- The edge weights as a column. -/
theorem normcol2_at (x1 : (⟨S2x1600000, .i32⟩ : BufTy).Contents (Elt Ideal)) (e : Fin 1700000) (u : Fin 1) :
    val_main_v79 (F := Ideal) x1 (ix2 e u) = dinvOf zW (rDeg zW oneW (D' x1) (S' x1 e)) * dinvOf zW (rDeg zW oneW (D' x1) (T' x1 e)) := by
  rw [val_main_v79_apply]
  refine (congrArg (val_main_v71 (F := Ideal) x1) (?_ : idx_main_v79 (ix2 e u) = ix1 e)).trans (norm2_at x1 e)
  funext a
  match a with
  | ⟨0, _⟩ => rfl

/-- The destination words as a column, for the accumulation of rows. -/
theorem dcolB2_at (x1 : (⟨S2x1600000, .i32⟩ : BufTy).Contents (Elt Ideal)) (e : Fin 1700000) (u : Fin 1) :
    val_main_v83 (F := Ideal) x1 (ix2 e u) = catW (dstW x1) e := by
  rw [val_main_v83_apply]
  refine (congrArg (val_main_v6 (F := Ideal) x1) (?_ : idx_main_v83 (ix2 e u) = ix1 e)).trans (v6_at x1 e)
  funext a
  match a with
  | ⟨0, _⟩ => rfl

end Cert.Gcn.Ref

end
-- ==== Proof.RefValueLayers.lean ====
/-
  The edge-form graph convolution read off the reference program, second part: the two layers.

  A layer multiplies the node features by a weight matrix, looks up, for every edge of the extended list, the feature row of
  the edge's source, scales it by the edge's weight (the product of the two ends' normalisations), accumulates the scaled
  rows at the edges' destinations from zero, and adds the bias. Between the layers every entry is replaced by its maximum
  with zero. Every stage is stated once, at an index given by its coordinates, with the specification's terms.
-/
import proofs.«119770_j32229434589355_2_alg».proof.Proof.RefValueEdges
import proofs.«119770_j32229434589355_2_alg».proof.Proof.LibScatterAddRows
import proofs.«119770_j32229434589355_2_alg».proof.Proof.LibGatherRows

noncomputable section

namespace Cert.Gcn.Ref

open Cert.ReferenceIdeal Cert.ReferenceIdeal.Gen Cert.ReferenceIdeal.ReadP Idealize.ShloMosaic Idealize.ShloMosaic.ValueIdx
open Idealize.ShloMosaic.TcCoe Idealize.SL.Sem Idealize.ShloMosaic.StableHlo

/-- A lookup of rows of a table with 64 columns: entry `(e, c)` is column `c` of the row the position word designates. -/
theorem gatherRows64_wrap (h : (⟨S100000x64, .f32⟩ : BufTy).Contents (Elt Ideal)) (idx : (⟨S1700000x1, .i32⟩ : BufTy).Contents (Elt Ideal))
    (e : Fin 1700000) (c : Fin 64) (w : BitVec 32) (hw : idx (ix2 e (0 : Fin 1)) = wrapW w) :
    Host.gather gather_S100000x64_S1700000x1_S1700000x64_1_0_n_n_0_1_164 h idx (ix2 e c) = h (ix2 (posOf w) c) := by
  refine (Cert.LibGatherRows.gather_rows_apply (N := 100000) (R := 1700000) (C := 64) (by decide)
    Facts₀.gather_S100000x64_S1700000x1_S1700000x64_1_0_n_n_0_1_164_wf h idx e c).trans
    (congrArg h (congrArg (fun p : Fin 100000 => ix2 p c) (Fin.ext ?_)))
  show min (idx (ix2 e (0 : Fin 1))).toInt.toNat (100000 - 1) = min (wrapW w).toInt.toNat (100000 - 1)
  rw [hw]

/-- Rows with 64 columns accumulated at their destinations: the table's entry plus the sum, over the rows whose
    destination word read signed is `n`, of their column `c`. -/
theorem scatterRows64_at (x : FVec Ideal S100000x64 .f32) (idx : IVec S1700000x1 32)
    (upd : FVec Ideal S1700000x64 .f32) (n : Fin 100000) (c : Fin 64) :
    Host.scatterAdd scatter_S100000x64_S1700000x1_S1700000x64_1_0_0_1 x idx upd (ix2 n c)
      = x (ix2 n c) + ∑ e ∈ Finset.univ.filter (fun e : Fin 1700000 => (idx (ix2 e (0 : Fin 1))).toInt = (n.val : Int)),
          upd (ix2 e c) :=
  Cert.LibScatterAddRows.host_scatterAdd_rows_apply (N := 100000) (E := 1700000) (C := 64)
    Facts₀.scatter_S100000x64_S1700000x1_S1700000x64_1_0_0_1_wf x idx upd n c

/-- A lookup of rows of a table with 40 columns: entry `(e, c)` is column `c` of the row the position word designates. -/
theorem gatherRows40_wrap (h : (⟨S100000x40, .f32⟩ : BufTy).Contents (Elt Ideal)) (idx : (⟨S1700000x1, .i32⟩ : BufTy).Contents (Elt Ideal))
    (e : Fin 1700000) (c : Fin 40) (w : BitVec 32) (hw : idx (ix2 e (0 : Fin 1)) = wrapW w) :
    Host.gather gather_S100000x40_S1700000x1_S1700000x40_1_0_n_n_0_1_140 h idx (ix2 e c) = h (ix2 (posOf w) c) := by
  refine (Cert.LibGatherRows.gather_rows_apply (N := 100000) (R := 1700000) (C := 40) (by decide)
    Facts₀.gather_S100000x40_S1700000x1_S1700000x40_1_0_n_n_0_1_140_wf h idx e c).trans
    (congrArg h (congrArg (fun p : Fin 100000 => ix2 p c) (Fin.ext ?_)))
  show min (idx (ix2 e (0 : Fin 1))).toInt.toNat (100000 - 1) = min (wrapW w).toInt.toNat (100000 - 1)
  rw [hw]

/-- Rows with 40 columns accumulated at their destinations: the table's entry plus the sum, over the rows whose
    destination word read signed is `n`, of their column `c`. -/
theorem scatterRows40_at (x : FVec Ideal S100000x40 .f32) (idx : IVec S1700000x1 32)
    (upd : FVec Ideal S1700000x40 .f32) (n : Fin 100000) (c : Fin 40) :
    Host.scatterAdd scatter_S100000x40_S1700000x1_S1700000x40_1_0_0_1 x idx upd (ix2 n c)
      = x (ix2 n c) + ∑ e ∈ Finset.univ.filter (fun e : Fin 1700000 => (idx (ix2 e (0 : Fin 1))).toInt = (n.val : Int)),
          upd (ix2 e c) :=
  Cert.LibScatterAddRows.host_scatterAdd_rows_apply (N := 100000) (E := 1700000) (C := 40)
    Facts₀.scatter_S100000x40_S1700000x1_S1700000x40_1_0_0_1_wf x idx upd n c

/-- The normalisation of a node. -/
abbrev dN (x1 : (⟨S2x1600000, .i32⟩ : BufTy).Contents (Elt Ideal)) (i : Fin 100000) : EReal := dinvOf zW (rDeg zW oneW (D' x1) i)

/-- The first layer's features: the input times the first weight matrix. -/
abbrev H1 (x0 : (⟨S100000x128, .f32⟩ : BufTy).Contents (Elt Ideal)) (x2 : (⟨S128x64, .f32⟩ : BufTy).Contents (Elt Ideal)) : Fin 100000 → Fin 64 → EReal :=
  mm (fun i k => x0 (ix2 i k)) (fun k c => x2 (ix2 k c))

/-- The first layer. -/
abbrev L1 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) : Fin 100000 → Fin 64 → EReal :=
  rLayer zW (dN x1) (D' x1) (S' x1) (T' x1) (H1 x0 x2) (fun c => x3 (ix1 c))

/-- The second layer's features: the rectified first layer times the second weight matrix. -/
abbrev H2 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) : Fin 100000 → Fin 40 → EReal :=
  mm (fun i k => max (L1 x0 x1 x2 x3 i k) zW) (fun k c => x4 (ix2 k c))

/-- The second layer. -/
abbrev L2 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) (x5 : (⟨S40, .f32⟩ : BufTy).Contents (Elt Ideal)) : Fin 100000 → Fin 40 → EReal :=
  rLayer zW (dN x1) (D' x1) (S' x1) (T' x1) (H2 x0 x1 x2 x3 x4) (fun c => x5 (ix1 c))

/-- The first matrix product, entry by entry. -/
theorem feat1_at (x0 : (⟨S100000x128, .f32⟩ : BufTy).Contents (Elt Ideal)) (x2 : (⟨S128x64, .f32⟩ : BufTy).Contents (Elt Ideal)) (i : Fin 100000) (c : Fin 64) :
    val_main_v7 (F := Ideal) x0 x2 (ix2 i c) = H1 x0 x2 i c := by
  rw [val_main_v7_apply]
  show _ = ∑ k : Fin 128, x0 (ix2 i k) * x2 (ix2 k c)
  refine Finset.sum_congr rfl fun k _ => ?_
  refine congrArg₂ (· * ·) (congrArg x0 (funext fun a => ?_)) (congrArg x2 (funext fun a => ?_))
  · match a with
    | ⟨0, _⟩ => rfl
    | ⟨1, _⟩ => rfl
  · match a with
    | ⟨0, _⟩ => rfl
    | ⟨1, _⟩ => rfl

/-- The feature row looked up at an edge's source. -/
theorem rows1_at (x0 : (⟨S100000x128, .f32⟩ : BufTy).Contents (Elt Ideal)) (x1 : (⟨S2x1600000, .i32⟩ : BufTy).Contents (Elt Ideal)) (x2 : (⟨S128x64, .f32⟩ : BufTy).Contents (Elt Ideal)) (e : Fin 1700000) (c : Fin 64) :
    val_main_v37 (F := Ideal) x0 x1 x2 (ix2 e c) = H1 x0 x2 (S' x1 e) c := by
  unfold val_main_v37
  rw [gatherRows64_wrap _ _ e c (catW (srcW x1) e) (wrow1_col x1 e 0)]
  exact feat1_at x0 x2 (S' x1 e) c

/-- The edge weights spread along the columns. -/
theorem wspread1_at (x1 : (⟨S2x1600000, .i32⟩ : BufTy).Contents (Elt Ideal)) (e : Fin 1700000) (c : Fin 64) :
    val_main_v39 (F := Ideal) x1 (ix2 e c) = dN x1 (S' x1 e) * dN x1 (T' x1 e) := by
  rw [val_main_v39_apply]
  refine (congrArg (val_main_v38 (F := Ideal) x1) (?_ : idx_main_v39 (ix2 e c) = ix2 e (0 : Fin 1))).trans
    (normcol1_at x1 e 0)
  funext a
  match a with
  | ⟨0, _⟩ => rfl
  | ⟨1, _⟩ => rfl

/-- The message of an edge: the source's feature row times the edge's weight. -/
theorem msg1_at (x0 : (⟨S100000x128, .f32⟩ : BufTy).Contents (Elt Ideal)) (x1 : (⟨S2x1600000, .i32⟩ : BufTy).Contents (Elt Ideal)) (x2 : (⟨S128x64, .f32⟩ : BufTy).Contents (Elt Ideal)) (e : Fin 1700000) (c : Fin 64) :
    val_main_v40 (F := Ideal) x0 x1 x2 (ix2 e c) = H1 x0 x2 (S' x1 e) c * (dN x1 (S' x1 e) * dN x1 (T' x1 e)) := by
  rw [val_main_v40_apply, rows1_at, wspread1_at]
  rfl

/-- The messages accumulated at their destinations, from zero. -/
theorem agg1_at (x0 : (⟨S100000x128, .f32⟩ : BufTy).Contents (Elt Ideal)) (x1 : (⟨S2x1600000, .i32⟩ : BufTy).Contents (Elt Ideal)) (x2 : (⟨S128x64, .f32⟩ : BufTy).Contents (Elt Ideal)) (n : Fin 100000) (c : Fin 64) :
    val_main_v43 (F := Ideal) x0 x1 x2 (ix2 n c)
      = agg zW (D' x1) (fun e c => H1 x0 x2 (S' x1 e) c * (dN x1 (S' x1 e) * dN x1 (T' x1 e))) n c := by
  unfold val_main_v43
  rw [scatterRows64_at, val_main_v41_apply, val_main_cst_8_apply]
  unfold agg
  refine congrArg (zW + ·) (Finset.sum_congr ?_ ?_)
  · ext e
    simp only [Finset.mem_filter, Finset.mem_univ, true_and]
    rw [dcolB1_at]
  · intro e _
    exact msg1_at x0 x1 x2 e c

/-- The bias spread down the rows. -/
theorem bias1_at (x3 : (⟨S64, .f32⟩ : BufTy).Contents (Elt Ideal)) (i : Fin 100000) (c : Fin 64) :
    val_main_v45 (F := Ideal) x3 (ix2 i c) = x3 (ix1 c) := by
  rw [val_main_v45_apply, val_main_v44_apply]
  refine congrArg x3 (funext fun a => ?_)
  match a with
  | ⟨0, _⟩ => rfl

/-- The layer: the accumulated messages plus the bias. -/
theorem layer1_at (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (i : Fin 100000) (c : Fin 64) :
    val_main_v46 (F := Ideal) x0 x1 x2 x3 (ix2 i c) = L1 x0 x1 x2 x3 i c := by
  rw [val_main_v46_apply, agg1_at, bias1_at]
  rfl

/-- The rectification: the maximum with zero. -/
theorem relu1_at (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (i : Fin 100000) (c : Fin 64) :
    val_main_v47 (F := Ideal) x0 x1 x2 x3 (ix2 i c) = max (L1 x0 x1 x2 x3 i c) zW := by
  rw [val_main_v47_apply, layer1_at, val_main_call1_v0_apply, val_main_call1_cst_apply]
  rfl

/-- The second matrix product, entry by entry. -/
theorem feat2_at (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) (i : Fin 100000) (c : Fin 40) :
    val_main_v48 (F := Ideal) x0 x1 x2 x3 x4 (ix2 i c) = H2 x0 x1 x2 x3 x4 i c := by
  rw [val_main_v48_apply]
  show _ = ∑ k : Fin 64, max (L1 x0 x1 x2 x3 i k) zW * x4 (ix2 k c)
  refine Finset.sum_congr rfl fun k _ => ?_
  refine congrArg₂ (· * ·) ?_ (congrArg x4 (funext fun a => ?_))
  · refine (congrArg (val_main_v47 (F := Ideal) x0 x1 x2 x3) (?_ : lidx_main_v48 (ix2 i c) k = ix2 i k)).trans
      (relu1_at x0 x1 x2 x3 i k)
    funext a
    match a with
    | ⟨0, _⟩ => rfl
    | ⟨1, _⟩ => rfl
  · match a with
    | ⟨0, _⟩ => rfl
    | ⟨1, _⟩ => rfl

/-- The feature row looked up at an edge's source. -/
theorem rows2_at (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) (e : Fin 1700000) (c : Fin 40) :
    val_main_v78 (F := Ideal) x0 x1 x2 x3 x4 (ix2 e c) = H2 x0 x1 x2 x3 x4 (S' x1 e) c := by
  unfold val_main_v78
  rw [gatherRows40_wrap _ _ e c (catW (srcW x1) e) (wrow2_col x1 e 0)]
  exact feat2_at x0 x1 x2 x3 x4 (S' x1 e) c

/-- The edge weights spread along the columns. -/
theorem wspread2_at (x1 : (⟨S2x1600000, .i32⟩ : BufTy).Contents (Elt Ideal)) (e : Fin 1700000) (c : Fin 40) :
    val_main_v80 (F := Ideal) x1 (ix2 e c) = dN x1 (S' x1 e) * dN x1 (T' x1 e) := by
  rw [val_main_v80_apply]
  refine (congrArg (val_main_v79 (F := Ideal) x1) (?_ : idx_main_v80 (ix2 e c) = ix2 e (0 : Fin 1))).trans
    (normcol2_at x1 e 0)
  funext a
  match a with
  | ⟨0, _⟩ => rfl
  | ⟨1, _⟩ => rfl

/-- The message of an edge: the source's feature row times the edge's weight. -/
theorem msg2_at (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) (e : Fin 1700000) (c : Fin 40) :
    val_main_v81 (F := Ideal) x0 x1 x2 x3 x4 (ix2 e c) = H2 x0 x1 x2 x3 x4 (S' x1 e) c * (dN x1 (S' x1 e) * dN x1 (T' x1 e)) := by
  rw [val_main_v81_apply, rows2_at, wspread2_at]
  rfl

/-- The messages accumulated at their destinations, from zero. -/
theorem agg2_at (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) (n : Fin 100000) (c : Fin 40) :
    val_main_v84 (F := Ideal) x0 x1 x2 x3 x4 (ix2 n c)
      = agg zW (D' x1) (fun e c => H2 x0 x1 x2 x3 x4 (S' x1 e) c * (dN x1 (S' x1 e) * dN x1 (T' x1 e))) n c := by
  unfold val_main_v84
  rw [scatterRows40_at, val_main_v82_apply, val_main_cst_19_apply]
  unfold agg
  refine congrArg (zW + ·) (Finset.sum_congr ?_ ?_)
  · ext e
    simp only [Finset.mem_filter, Finset.mem_univ, true_and]
    rw [dcolB2_at]
  · intro e _
    exact msg2_at x0 x1 x2 x3 x4 e c

/-- The bias spread down the rows. -/
theorem bias2_at (x5 : (⟨S40, .f32⟩ : BufTy).Contents (Elt Ideal)) (i : Fin 100000) (c : Fin 40) :
    val_main_v86 (F := Ideal) x5 (ix2 i c) = x5 (ix1 c) := by
  rw [val_main_v86_apply, val_main_v85_apply]
  refine congrArg x5 (funext fun a => ?_)
  match a with
  | ⟨0, _⟩ => rfl

/-- The layer: the accumulated messages plus the bias. -/
theorem layer2_at (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) (x5 : (⟨S40, .f32⟩ : BufTy).Contents (Elt Ideal)) (i : Fin 100000) (c : Fin 40) :
    val_main_v87 (F := Ideal) x0 x1 x2 x3 x4 x5 (ix2 i c) = L2 x0 x1 x2 x3 x4 x5 i c := by
  rw [val_main_v87_apply, agg2_at, bias2_at]
  rfl

end Cert.Gcn.Ref

end
-- ==== Proof.LibHostRowSum.lean ====
/-
  A host sum along the rows of a matrix, and the host's pointwise exponential and logarithm, read at an entry.

  For any extents: the host reduction of an `[n, d]` array along its second axis with addition as its body is, at row
  `p` and at the exact values, the initial value plus the sum of the row's `d` entries. The host's exponential and
  logarithm of an array are, entry by entry, the exact exponential and logarithm.
-/
import proofs.«119770_j32229434589355_2_alg».proof.Proof.LibHostRowMax
import Idealize.ShloMosaic.PureOps.Ideal.Laws
import Idealize.ShloMosaic.Lib.ValueIdx

noncomputable section

namespace Cert.LibHostRowSum

open Idealize.ShloMosaic Idealize.ShloMosaic.ValueIdx

/-- The host's row sum at row `p`: the initial value plus the sum over the row. -/
theorem reduceAdd_row {n d : ℕ} {u : Shape} (A : (⟨2, ![n, d]⟩ : Shape).Idx → EReal) (init : u.Idx → EReal)
    (h' : (⟨2, ![n, d]⟩ : Shape).ReducesTo [1] ⟨1, ![n]⟩) (hR : (⟨2, ![n, d]⟩ : Shape).Reduces [1] ⟨1, ![n]⟩)
    (hu : 0 < u.numel) (p : Fin n) :
    Host.reduceAdd (F := Ideal) (φ := .f32) A init h' hu (ix1 p)
      = init (Shape.Idx.first hu) + ∑ k : Fin d, A (ix2 p k) := by
  unfold Host.reduceAdd
  rw [Ideal.hostReduceAdd_def, Ideal.hostReduceAdd_single h' hR]
  refine congrArg (init (Shape.Idx.first hu) + ·) (Finset.sum_congr rfl fun k _ => ?_)
  exact congrArg A (Cert.LibHostRowMax.lift_row hR p k)

/-- The host's exponential of an array, at an entry. -/
theorem hostExp_apply {s : Shape} (v : FVec Ideal s .f32) (i : s.Idx) : Host.exp v i = Ideal.exp (v i) := rfl

/-- The host's logarithm of an array, at an entry. -/
theorem hostLog_apply {s : Shape} (v : FVec Ideal s .f32) (i : s.Idx) : Host.log v i = Ideal.log (v i) := rfl

end Cert.LibHostRowSum

end
-- ==== Proof.RefValue.lean ====
/-
  The edge-form graph convolution read off the reference program, last part: the row-wise log-softmax and the whole value.

  The program takes each row's maximum as a fold from minus infinity (one more maximum with minus infinity changes nothing),
  subtracts it from the row, sums the exponentials of the shifted entries from zero, and subtracts the logarithm of that sum
  from the shifted entries. With the two layers read before, the program's result is, entry by entry, the specification's
  edge form over the extended edge list.
-/
import proofs.«119770_j32229434589355_2_alg».proof.Proof.RefValueLayers
import proofs.«119770_j32229434589355_2_alg».proof.Proof.LibHostRowMax
import proofs.«119770_j32229434589355_2_alg».proof.Proof.LibHostRowSum
import proofs.«119770_j32229434589355_2_alg».proof.Proof.LibHostColumn

noncomputable section

namespace Cert.Gcn.Ref

open Cert.ReferenceIdeal Cert.ReferenceIdeal.Gen Cert.ReferenceIdeal.ReadP Idealize.ShloMosaic Idealize.ShloMosaic.ValueIdx
open Idealize.ShloMosaic.TcCoe Idealize.SL.Sem Idealize.ShloMosaic.StableHlo

/-- The maximum of a row of the second layer, as a fold from minus infinity. -/
abbrev rowMax (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) (x5 : (⟨S40, .f32⟩ : BufTy).Contents (Elt Ideal)) (p : Fin 100000) : EReal :=
  (Finset.univ : Finset (Fin 40)).fold max ninfW (L2 x0 x1 x2 x3 x4 x5 p)

/-- The row maximum the program computes. -/
theorem rowmax_at (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) (x5 : (⟨S40, .f32⟩ : BufTy).Contents (Elt Ideal)) (p : Fin 100000) :
    val_main_call3_v0 (F := Ideal) x0 x1 x2 x3 x4 x5 (ix1 p) = rowMax x0 x1 x2 x3 x4 x5 p := by
  unfold val_main_call3_v0
  show _ = (Finset.univ : Finset (Fin 40)).fold max ninfW (L2 x0 x1 x2 x3 x4 x5 p)
  have hA : ∀ k : Fin 40, val_main_v87 (F := Ideal) x0 x1 x2 x3 x4 x5 (ix2 p k) = L2 x0 x1 x2 x3 x4 x5 p k :=
    fun k => layer2_at x0 x1 x2 x3 x4 x5 p k
  generalize val_main_v87 (F := Ideal) x0 x1 x2 x3 x4 x5 = A at hA ⊢
  generalize L2 x0 x1 x2 x3 x4 x5 p = r at hA ⊢
  refine (Cert.LibHostRowMax.reduce_max_row (n := 100000) (d := 40) A _ Facts₀.reducesTo_S100000x40_S100000_d1
    (by decide) Facts₀.h_S_ p).trans ?_
  rw [val_main_call3_cst_apply, Ideal.ofBits_def]
  exact congrArg (fun f => (Finset.univ : Finset (Fin 40)).fold max ninfW f) (funext hA)

/-- One more maximum with minus infinity leaves the row maximum as it is. -/
theorem rowmax2_at (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) (x5 : (⟨S40, .f32⟩ : BufTy).Contents (Elt Ideal)) (p : Fin 100000) :
    val_main_call3_v2 (F := Ideal) x0 x1 x2 x3 x4 x5 (ix1 p) = rowMax x0 x1 x2 x3 x4 x5 p := by
  rw [val_main_call3_v2_apply, rowmax_at, val_main_call3_v1_apply, val_main_call3_cst_0_apply, Ideal.ofBits_def,
    Ideal.maximumf_def]
  exact Cert.LibHostColumn.max_start_fold Finset.univ ninfW (L2 x0 x1 x2 x3 x4 x5 p)

/-- The row maximum spread along its row. -/
theorem rowmax_spread_at (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) (x5 : (⟨S40, .f32⟩ : BufTy).Contents (Elt Ideal)) (p : Fin 100000) (c : Fin 40) :
    val_main_call3_v4 (F := Ideal) x0 x1 x2 x3 x4 x5 (ix2 p c) = rowMax x0 x1 x2 x3 x4 x5 p := by
  rw [val_main_call3_v4_apply]
  refine (congrArg (val_main_call3_v3 (F := Ideal) x0 x1 x2 x3 x4 x5) (?_ : idx_main_call3_v4 (ix2 p c) = ix2 p (0 : Fin 1))).trans ?_
  · funext a
    match a with
    | ⟨0, _⟩ => rfl
    | ⟨1, _⟩ => rfl
  rw [val_main_call3_v3_apply]
  refine (congrArg (val_main_call3_v2 (F := Ideal) x0 x1 x2 x3 x4 x5) (?_ : idx_main_call3_v3 (ix2 p (0 : Fin 1)) = ix1 p)).trans
    (rowmax2_at x0 x1 x2 x3 x4 x5 p)
  funext a
  match a with
  | ⟨0, _⟩ => rfl

/-- An entry minus its row's maximum. -/
theorem shift_at (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) (x5 : (⟨S40, .f32⟩ : BufTy).Contents (Elt Ideal)) (p : Fin 100000) (c : Fin 40) :
    val_main_call3_v5 (F := Ideal) x0 x1 x2 x3 x4 x5 (ix2 p c) = L2 x0 x1 x2 x3 x4 x5 p c - rowMax x0 x1 x2 x3 x4 x5 p := by
  rw [val_main_call3_v5_apply, layer2_at, rowmax_spread_at]
  rfl

/-- The sum of the exponentials of a row's shifted entries, from zero. -/
theorem expsum_at (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) (x5 : (⟨S40, .f32⟩ : BufTy).Contents (Elt Ideal)) (p : Fin 100000) :
    val_main_call3_v7 (F := Ideal) x0 x1 x2 x3 x4 x5 (ix1 p)
      = zW + ∑ k : Fin 40, Ideal.exp (L2 x0 x1 x2 x3 x4 x5 p k - rowMax x0 x1 x2 x3 x4 x5 p) := by
  rw [val_main_call3_v7_apply, val_main_call3_cst_1_apply]
  refine congrArg (zW + ·) (Finset.sum_congr rfl fun k _ => ?_)
  refine (congrArg (val_main_call3_v6 (F := Ideal) x0 x1 x2 x3 x4 x5) (?_ : idx_main_call3_v7 (ix1 p) k = ix2 p k)).trans ?_
  · funext a
    match a with
    | ⟨0, _⟩ => rfl
    | ⟨1, _⟩ => rfl
  rw [val_main_call3_v6_apply, shift_at, Ideal.hostUnary_exp_def]

/-- The logarithm of that sum, spread along its row. -/
theorem logsum_spread_at (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) (x5 : (⟨S40, .f32⟩ : BufTy).Contents (Elt Ideal)) (p : Fin 100000) (c : Fin 40) :
    val_main_call3_v10 (F := Ideal) x0 x1 x2 x3 x4 x5 (ix2 p c)
      = Ideal.log (zW + ∑ k : Fin 40, Ideal.exp (L2 x0 x1 x2 x3 x4 x5 p k - rowMax x0 x1 x2 x3 x4 x5 p)) := by
  rw [val_main_call3_v10_apply]
  refine (congrArg (val_main_call3_v9 (F := Ideal) x0 x1 x2 x3 x4 x5) (?_ : idx_main_call3_v10 (ix2 p c) = ix2 p (0 : Fin 1))).trans ?_
  · funext a
    match a with
    | ⟨0, _⟩ => rfl
    | ⟨1, _⟩ => rfl
  rw [val_main_call3_v9_apply, val_main_call3_v8_apply]
  refine (congrArg (fun t => FloatOps.hostUnary (F := Ideal) (φ := .f32) .log (val_main_call3_v7 (F := Ideal) x0 x1 x2 x3 x4 x5 t))
    (?_ : idx_main_call3_v8 (ix2 p (0 : Fin 1)) = ix1 p)).trans ?_
  · funext a
    match a with
    | ⟨0, _⟩ => rfl
  rw [expsum_at, Ideal.hostUnary_log_def]

/-- The program's result at an entry: the log-softmax of the second layer's row. -/
theorem lsm_at (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) (x5 : (⟨S40, .f32⟩ : BufTy).Contents (Elt Ideal)) (p : Fin 100000) (c : Fin 40) :
    val_main_v88 (F := Ideal) x0 x1 x2 x3 x4 x5 (ix2 p c) = lsmRow ninfW zW (L2 x0 x1 x2 x3 x4 x5 p) c := by
  rw [val_main_v88_apply, shift_at, logsum_spread_at]
  rfl

/-- THE REFERENCE'S VALUE: the program's result is the edge-form computation of the specification. -/
theorem value (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) (x5 : (⟨S40, .f32⟩ : BufTy).Contents (Elt Ideal)) :
    val_main_v88 (F := Ideal) x0 x1 x2 x3 x4 x5 = Cert.Gcn.refArr x0 x1 x2 x3 x4 x5 := by
  funext y
  obtain ⟨p, c, rfl⟩ : ∃ (p : Fin 100000) (c : Fin 40), y = ix2 p c := ⟨y 0, y 1, eq_ix2 y⟩
  rw [lsm_at]
  rfl

end Cert.Gcn.Ref

end
-- ==== Proof.GcnMathBase.lean ====
/-
  Elementary facts for the comparison of the two forms of the graph convolution: a finite sum of real numbers
  taken in the extended reals is the real sum; the normalisation `dinvOf 0 dg` is a real number for every `dg`;
  a sum over the edges into a node, taken over the list "given edges, then one loop per node", is the sum over
  the given edges into that node plus the term of the node's own loop; hence the two degrees agree.
-/
import proofs.«119770_j32229434589355_2_alg».proof.Proof.Spec

noncomputable section

namespace Cert.Gcn

open Idealize.ShloMosaic Finset

/-- The extended-real sum of finitely many real numbers is their real sum. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The maximum of two real numbers, taken in the extended reals. -/
theorem coe_max (a b : ℝ) : max (a : EReal) (b : EReal) = ((max a b : ℝ) : EReal) :=
  (EReal.coe_strictMono.monotone.map_max).symm

/-- The comparison "`dg` is above `0`" as a one-bit word. -/
theorem cmp_ogt_zero (dg : EReal) : Ideal.cmp .ogt dg 0 = BitVec.ofBool (decide ((0 : EReal) < dg)) := rfl

/-- The reciprocal square root at `⊤`. -/
theorem rsqrt_top : Ideal.rsqrt ⊤ = 0 := rfl

/-- The reciprocal square root at a real number. -/
theorem rsqrt_coe (r : ℝ) :
    Ideal.rsqrt (r : EReal) = if r < 0 then ⊥ else if r = 0 then ⊤ else (((Real.sqrt r)⁻¹ : ℝ) : EReal) := rfl

/-- `dinvOf 0 dg` is a real number, whatever the extended real `dg` is: `0` unless `dg` is above `0`; at `⊤` the
    reciprocal square root is `0`; at a positive real `r` it is `(√r)⁻¹`. -/
theorem dinvOf_real (dg : EReal) : ∃ r : ℝ, dinvOf 0 dg = (r : EReal) := by
  unfold dinvOf Scalar.select
  rw [cmp_ogt_zero]
  by_cases h : (0 : EReal) < dg
  · induction dg using EReal.rec with
    | bot => exact absurd h (by simp)
    | top => exact ⟨0, by simp [rsqrt_top]⟩
    | coe r =>
      have hr : 0 < r := EReal.coe_pos.mp h
      refine ⟨(Real.sqrt r)⁻¹, ?_⟩
      rw [rsqrt_coe, if_neg (not_lt.mpr hr.le), if_neg hr.ne']
      simp [h]
  · exact ⟨0, by simp [h]⟩

variable {n E : ℕ}

/-- Over the edge list "the `E` given edges, then the loop `j → j` for every node `j`", the sum over the edges into `i`
    is the sum over the given edges into `i` plus the term of the loop at `i`. -/
theorem sum_into_split {M : Type*} [AddCommMonoid M] (D : Fin E → ℤ) (D' : Fin (E + n) → ℤ)
    (hDl : ∀ e : Fin E, D' (Fin.castAdd n e) = D e)
    (hDr : ∀ j : Fin n, D' (Fin.natAdd E j) = (j.val : ℤ))
    (g : Fin (E + n) → M) (i : Fin n) :
    ∑ e ∈ univ.filter (fun e : Fin (E + n) => D' e = (i.val : ℤ)), g e
      = ∑ e ∈ univ.filter (fun e : Fin E => D e = (i.val : ℤ)), g (Fin.castAdd n e) + g (Fin.natAdd E i) := by
  rw [Finset.sum_filter, Fin.sum_univ_add, Finset.sum_filter]
  congr 1
  · exact Finset.sum_congr rfl (fun e _ => by rw [hDl])
  · rw [Finset.sum_eq_single i]
    · rw [if_pos (hDr i)]
    · intro j _ hj
      rw [if_neg]
      intro hh
      rw [hDr] at hh
      exact hj (Fin.ext (by exact_mod_cast hh))
    · intro hi
      exact absurd (Finset.mem_univ i) hi

/-- The degree counted over the list that holds the loops is the degree counted over the given edges plus one. -/
theorem rDeg_eq_kDeg (z one : EReal) (D : Fin E → ℤ) (D' : Fin (E + n) → ℤ)
    (hDl : ∀ e : Fin E, D' (Fin.castAdd n e) = D e)
    (hDr : ∀ j : Fin n, D' (Fin.natAdd E j) = (j.val : ℤ)) (i : Fin n) :
    rDeg z one D' i = kDeg z one D i := by
  unfold rDeg kDeg aggV
  rw [sum_into_split D D' hDl hDr (fun _ => one) i, add_assoc]

end Cert.Gcn

end
-- ==== Proof.GcnMathLayer.lean ====
/-
  One layer of the graph convolution on real data, in both forms, is the coercion of one real array.

  With real normalisations `dr`, real features `h` and a real bias `b`, put
  `layerO i c = dr i · (Σ_{e → i} dr (S e) · h (S e) c + dr i · h i c) + b c`.
  The factored form on the prescaled features `dr j · h j c` gives `layerO` by pushing the coercion outward; the
  edge form splits its sum into the given edges into `i` (where the destination's normalisation is `dr i`) and the loop
  at `i`, and `Σ h (S e) c · (dr (S e) · dr i) + h i c · (dr i · dr i)` is `dr i · (Σ dr (S e) · h (S e) c + dr i · h i c)`.
-/
import proofs.«119770_j32229434589355_2_alg».proof.Proof.GcnMathBase

noncomputable section

namespace Cert.Gcn

open Idealize.ShloMosaic Finset

variable {n E C K : ℕ}

/-- The real matrix product, entry by entry. -/
def mmR (a : Fin n → Fin K → ℝ) (w : Fin K → Fin C → ℝ) (i : Fin n) (c : Fin C) : ℝ := ∑ k : Fin K, a i k * w k c

/-- The positive part of a real array, entry by entry. -/
def reluR (o : Fin n → Fin K → ℝ) (i : Fin n) (k : Fin K) : ℝ := max (o i k) 0

/-- One layer over the real numbers: the node's normalisation times (the normalised features gathered over the edges
    into the node, plus the node's own), plus the bias. -/
def layerO (dr : Fin n → ℝ) (D : Fin E → ℤ) (S : Fin E → Fin n) (h : Fin n → Fin C → ℝ) (b : Fin C → ℝ)
    (i : Fin n) (c : Fin C) : ℝ :=
  dr i * (∑ e ∈ univ.filter (fun e : Fin E => D e = (i.val : ℤ)), dr (S e) * h (S e) c + dr i * h i c) + b c

/-- The product of two real matrices, taken in the extended reals. -/
theorem mm_coe (a : Fin n → Fin K → ℝ) (w : Fin K → Fin C → ℝ) :
    mm (fun i k => (a i k : EReal)) (fun k c => (w k c : EReal)) = fun i c => ((mmR a w i c : ℝ) : EReal) := by
  funext i c
  unfold mm mmR
  simp only [← EReal.coe_mul]
  exact coe_sum _ _

/-- Rows scaled on the right before the product: the scale comes out of the sum. -/
theorem mm_scale_right (dr : Fin n → ℝ) (a : Fin n → Fin K → ℝ) (w : Fin K → Fin C → ℝ) :
    mm (fun i k => (a i k : EReal) * (dr i : EReal)) (fun k c => (w k c : EReal))
      = fun i c => ((dr i * mmR a w i c : ℝ) : EReal) := by
  funext i c
  unfold mm mmR
  simp only [← EReal.coe_mul]
  rw [coe_sum, Finset.mul_sum]
  exact congrArg _ (Finset.sum_congr rfl (fun k _ => by ring))

/-- Rows scaled on the left before the product: the scale comes out of the sum. -/
theorem mm_scale_left (dr : Fin n → ℝ) (a : Fin n → Fin K → ℝ) (w : Fin K → Fin C → ℝ) :
    mm (fun i k => (dr i : EReal) * (a i k : EReal)) (fun k c => (w k c : EReal))
      = fun i c => ((dr i * mmR a w i c : ℝ) : EReal) := by
  funext i c
  unfold mm mmR
  simp only [← EReal.coe_mul]
  rw [coe_sum, Finset.mul_sum]
  exact congrArg _ (Finset.sum_congr rfl (fun k _ => by ring))

/-- The positive part of a real number, taken in the extended reals. -/
theorem relu_coe (o : Fin n → Fin K → ℝ) (i : Fin n) (k : Fin K) :
    max ((o i k : ℝ) : EReal) 0 = ((reluR o i k : ℝ) : EReal) := by
  unfold reluR
  rw [← EReal.coe_zero, coe_max]

/-- The factored form of a layer on the prescaled real features `dr j · h j c`. -/
theorem kLayer_coe (dr : Fin n → ℝ) (D : Fin E → ℤ) (S : Fin E → Fin n) (h : Fin n → Fin C → ℝ) (b : Fin C → ℝ) :
    kLayer 0 (fun i => (dr i : EReal)) D S (fun j c => ((dr j * h j c : ℝ) : EReal)) (fun c => (b c : EReal))
      = fun i c => ((layerO dr D S h b i c : ℝ) : EReal) := by
  funext i c
  unfold kLayer agg layerO
  rw [zero_add, coe_sum, ← EReal.coe_add, ← EReal.coe_mul, ← EReal.coe_add]

/-- The identity of one layer over the real numbers. -/
theorem layer_real (dr : Fin n → ℝ) (D : Fin E → ℤ) (S : Fin E → Fin n) (h : Fin n → Fin C → ℝ) (b : Fin C → ℝ)
    (i : Fin n) (c : Fin C) :
    (∑ e ∈ univ.filter (fun e : Fin E => D e = (i.val : ℤ)), h (S e) c * (dr (S e) * dr i) + h i c * (dr i * dr i)) + b c
      = layerO dr D S h b i c := by
  unfold layerO
  rw [mul_add, Finset.mul_sum]
  congr 1
  congr 1
  · exact Finset.sum_congr rfl (fun e _ => by ring)
  · ring

/-- The edge form of a layer on real features, over the list "given edges, then one loop per node". -/
theorem rLayer_coe (dr : Fin n → ℝ) (D : Fin E → ℤ) (S : Fin E → Fin n) (D' : Fin (E + n) → ℤ) (S' T' : Fin (E + n) → Fin n)
    (hDl : ∀ e : Fin E, D' (Fin.castAdd n e) = D e)
    (hSl : ∀ e : Fin E, S' (Fin.castAdd n e) = S e)
    (hTl : ∀ (e : Fin E) (i : Fin n), D e = (i.val : ℤ) → T' (Fin.castAdd n e) = i)
    (hDr : ∀ j : Fin n, D' (Fin.natAdd E j) = (j.val : ℤ))
    (hSr : ∀ j : Fin n, S' (Fin.natAdd E j) = j)
    (hTr : ∀ j : Fin n, T' (Fin.natAdd E j) = j)
    (h : Fin n → Fin C → ℝ) (b : Fin C → ℝ) :
    rLayer 0 (fun i => (dr i : EReal)) D' S' T' (fun j c => (h j c : EReal)) (fun c => (b c : EReal))
      = fun i c => ((layerO dr D S h b i c : ℝ) : EReal) := by
  funext i c
  unfold rLayer agg
  rw [sum_into_split D D' hDl hDr _ i]
  beta_reduce
  rw [hSr, hTr, zero_add]
  have hsum : ∑ e ∈ univ.filter (fun e : Fin E => D e = (i.val : ℤ)),
        ((h (S' (Fin.castAdd n e)) c : ℝ) : EReal) * ((dr (S' (Fin.castAdd n e)) : EReal) * (dr (T' (Fin.castAdd n e)) : EReal))
      = ((∑ e ∈ univ.filter (fun e : Fin E => D e = (i.val : ℤ)), h (S e) c * (dr (S e) * dr i) : ℝ) : EReal) := by
    rw [← coe_sum]
    refine Finset.sum_congr rfl (fun e he => ?_)
    rw [hSl, hTl e i (Finset.mem_filter.mp he).2, ← EReal.coe_mul, ← EReal.coe_mul]
  rw [hsum, ← EReal.coe_mul, ← EReal.coe_mul, ← EReal.coe_add, ← EReal.coe_add, layer_real]

end Cert.Gcn

end
-- ==== Proof.GcnMath.lean ====
/-
  The edge form of the two-layer graph convolution equals the factored form, for real features, weights and biases.
-/
import proofs.«119770_j32229434589355_2_alg».proof.Proof.GcnMathLayer

noncomputable section

namespace Cert.Gcn

open Idealize.ShloMosaic Finset

/-- For real data the edge form and the factored form are one function. The edge list of the edge form is the `E` given
    edges followed by one loop per node: on a given edge it has the same destination number and source, and looks the
    destination's normalisation up at the destination itself whenever that is a node; loop `j` goes from `j` to `j`. -/
theorem refOut_eq_kerOut {n E K1 K2 K3 : ℕ} (z one ninf : EReal) (hz : z = 0)
    (D : Fin E → ℤ) (S : Fin E → Fin n) (D' : Fin (E + n) → ℤ) (S' T' : Fin (E + n) → Fin n)
    (hDl : ∀ e : Fin E, D' (Fin.castAdd n e) = D e)
    (hSl : ∀ e : Fin E, S' (Fin.castAdd n e) = S e)
    (hTl : ∀ (e : Fin E) (i : Fin n), D e = (i.val : ℤ) → T' (Fin.castAdd n e) = i)
    (hDr : ∀ j : Fin n, D' (Fin.natAdd E j) = (j.val : ℤ))
    (hSr : ∀ j : Fin n, S' (Fin.natAdd E j) = j)
    (hTr : ∀ j : Fin n, T' (Fin.natAdd E j) = j)
    (x : Fin n → Fin K1 → ℝ) (W1 : Fin K1 → Fin K2 → ℝ) (b1 : Fin K2 → ℝ) (W2 : Fin K2 → Fin K3 → ℝ) (b2 : Fin K3 → ℝ) :
    refOut z one ninf D' S' T' (fun i k => (x i k : EReal)) (fun k c => (W1 k c : EReal)) (fun c => (b1 c : EReal))
        (fun k c => (W2 k c : EReal)) (fun c => (b2 c : EReal))
      = kerOut z one ninf D S (fun i k => (x i k : EReal)) (fun k c => (W1 k c : EReal)) (fun c => (b1 c : EReal))
        (fun k c => (W2 k c : EReal)) (fun c => (b2 c : EReal)) := by
  subst hz
  -- the two degrees agree, and the common normalisation is a real number at every node
  have hdeg : ∀ i : Fin n, rDeg 0 one D' i = kDeg 0 one D i := rDeg_eq_kDeg 0 one D D' hDl hDr
  choose dr hdr using fun i : Fin n => dinvOf_real (kDeg 0 one D i)
  funext i c
  unfold refOut kerOut
  simp only [hdeg, hdr]
  -- first layer: both forms are the coercion of `layerO dr D S (mmR x W1) b1`
  rw [mm_coe, rLayer_coe dr D S D' S' T' hDl hSl hTl hDr hSr hTr, mm_scale_right, kLayer_coe]
  -- the positive part stays real
  simp only [relu_coe]
  -- second layer: the same identity on the positive part of the first layer's output
  rw [mm_coe, rLayer_coe dr D S D' S' T' hDl hSl hTl hDr hSr hTr, mm_scale_left, kLayer_coe]

end Cert.Gcn

end
-- ==== Proof.Bridge.lean ====
/-
  For real features, weights and biases the edge form and the factored form are one array.

  The edge form's list is the `1600000` given edges followed by the loops `0, …, 99999` written as 32-bit words. On a
  given edge it has the given words. A loop's word `j` reads, signed, as `j`; it is not negative, so wrapping leaves it,
  and clamped into `0 … 99999` it designates node `j`. A destination word that reads, signed, as the node `i` designates
  node `i` when it is looked up. These are the hypotheses under which the two forms agree.
-/
import proofs.«119770_j32229434589355_2_alg».proof.Proof.SpecIdx
import proofs.«119770_j32229434589355_2_alg».proof.Proof.GcnMath

noncomputable section

namespace Cert.Gcn

open Idealize.ShloMosaic Idealize.ShloMosaic.ValueIdx
open Cert.MatProduct (rowOf colOf)

/-- A small number written as a 32-bit word reads, signed, as itself. -/
theorem toInt_ofNat_small (j : ℕ) (hj : j < 100000) : (BitVec.ofNat 32 j).toInt = (j : ℤ) := by
  rw [BitVec.toInt_eq_toNat_cond, BitVec.toNat_ofNat]
  have h : j % 2 ^ 32 = j := Nat.mod_eq_of_lt (by omega)
  rw [h]
  split <;> omega

/-- Wrapping leaves a word that is not negative. -/
theorem wrapW_of_nonneg (w : BitVec 32) (h : 0 ≤ w.toInt) : wrapW w = w := by
  unfold wrapW
  have hs : w.slt 0#32 = false := by
    rw [BitVec.slt]
    simp only [BitVec.toInt_zero, decide_eq_false_iff_not, not_lt]
    exact h
  show Scalar.select (BitVec.ofBool (w.slt 0#32)) _ w = w
  rw [hs]
  rfl

/-- A word that reads, signed, as the node `i` designates node `i`. -/
theorem posOf_of_toInt (w : BitVec 32) (i : Fin 100000) (h : w.toInt = (i.val : ℤ)) : posOf w = i := by
  have hi := i.isLt
  refine Fin.ext ?_
  show min (wrapW w).toInt.toNat (100000 - 1) = i.val
  rw [wrapW_of_nonneg w (by omega), h]
  omega

theorem catW_left (a : Fin 1600000 → BitVec 32) (e : Fin 1600000) :
    catW a (Fin.castAdd 100000 e : Fin (1600000 + 100000)) = a e := by
  unfold catW
  have h : (Fin.castAdd 100000 e : Fin (1600000 + 100000)).val < 1600000 := e.isLt
  rw [dif_pos h]
  rfl

theorem catW_right (a : Fin 1600000 → BitVec 32) (j : Fin 100000) :
    catW a (Fin.natAdd 1600000 j : Fin (1600000 + 100000)) = BitVec.ofNat 32 j.val := by
  unfold catW
  have h : ¬ (Fin.natAdd 1600000 j : Fin (1600000 + 100000)).val < 1600000 := by
    show ¬ 1600000 + j.val < 1600000
    omega
  rw [dif_neg h]
  show BitVec.ofNat 32 (1600000 + j.val - 1600000) = _
  rw [Nat.add_sub_cancel_left]

/-- THE TWO FORMS AGREE when every feature, weight and bias is a real number. -/
theorem refArr_eq_kerArr (x : (⟨2, ![100000, 128]⟩ : Shape).Idx → EReal) (ei : (⟨2, ![2, 1600000]⟩ : Shape).Idx → BitVec 32)
    (w1 : (⟨2, ![128, 64]⟩ : Shape).Idx → EReal) (b1 : (⟨1, ![64]⟩ : Shape).Idx → EReal)
    (w2 : (⟨2, ![64, 40]⟩ : Shape).Idx → EReal) (b2 : (⟨1, ![40]⟩ : Shape).Idx → EReal)
    (hx : ∀ i, ∃ r : ℝ, x i = (r : EReal)) (hw1 : ∀ i, ∃ r : ℝ, w1 i = (r : EReal)) (hb1 : ∀ i, ∃ r : ℝ, b1 i = (r : EReal))
    (hw2 : ∀ i, ∃ r : ℝ, w2 i = (r : EReal)) (hb2 : ∀ i, ∃ r : ℝ, b2 i = (r : EReal)) :
    refArr x ei w1 b1 w2 b2 = kerArr x ei w1 b1 w2 b2 := by
  choose xr hxr using hx
  choose w1r hw1r using hw1
  choose b1r hb1r using hb1
  choose w2r hw2r using hw2
  choose b2r hb2r using hb2
  have key := refOut_eq_kerOut (n := 100000) (E := 1600000) zW oneW ninfW Ideal.ofBits_zero_f32
    (fun e : Fin 1600000 => (dstW ei e).toInt) (fun e : Fin 1600000 => posOf (srcW ei e))
    (fun e : Fin (1600000 + 100000) => (catW (dstW ei) e).toInt) (fun e : Fin (1600000 + 100000) => posOf (catW (srcW ei) e))
    (fun e : Fin (1600000 + 100000) => posOf (catW (dstW ei) e))
    (fun e => by rw [catW_left])
    (fun e => by rw [catW_left])
    (fun e i h => by rw [catW_left]; exact posOf_of_toInt _ i h)
    (fun j => by rw [catW_right]; exact toInt_ofNat_small j.val j.isLt)
    (fun j => by rw [catW_right]; exact posOf_of_toInt _ j (toInt_ofNat_small j.val j.isLt))
    (fun j => by rw [catW_right]; exact posOf_of_toInt _ j (toInt_ofNat_small j.val j.isLt))
    (fun i k => xr (ix2 i k)) (fun k c => w1r (ix2 k c)) (fun c => b1r (ix1 c)) (fun k c => w2r (ix2 k c))
    (fun c => b2r (ix1 c))
  funext y
  unfold refArr kerArr
  simp only [hxr, hw1r, hb1r, hw2r, hb2r]
  exact congrFun (congrFun key (rowOf y)) (colOf y)

end Cert.Gcn

end
-- ==== Proof.Finite.lean ====
/-
  The precondition says every feature, weight and bias is a real number.

  The printed precondition is a conjunction, over the five float arguments, of "every entry's absolute value is below plus
  infinity". A conjunction of one-bit words is one exactly when each is; an `and` over all entries that is one had a one at
  every entry; and an extended real whose absolute value `max x (-x)` is below the top is neither infinity.
-/
import proofs.«119770_j32229434589355_2_alg».proof.Pre_finite_inputs
import proofs.«119770_j32229434589355_2_alg».proof.Proof.LibHostRow
import Idealize.ShloMosaic.Lib.ReduceAll
import Idealize.ShloMosaic.Lib.Affine
import Idealize.ShloMosaic.Lib.ValueIdx
import Idealize.ShloMosaic.PureOps.Ideal.Laws

noncomputable section

namespace Cert.Gcn.Finite

open Idealize.ShloMosaic Cert.Pre_finite_inputs

instance subS : Subsingleton S_.Idx := ⟨fun a b => funext fun d => d.elim0⟩

/-- The word `0x7F800000` is plus infinity. -/
theorem inf_word : Ideal.ofBits .f32 0x7F800000#32 = ⊤ := by simp [Ideal.ofBits, Ideal.ieee]

/-- An extended real whose absolute value is below the top is a real number. -/
theorem real_of_abs_lt_top (x : EReal) (h : max x (-x) < ⊤) : ∃ r : ℝ, x = (r : EReal) := by
  induction x using EReal.rec with
  | bot => simp at h
  | coe r => exact ⟨r, rfl⟩
  | top => simp at h

/-- An entry that passes the comparison with the splat of plus infinity is a real number. -/
theorem entry_real {s : Shape} (a : FVec Ideal s .f32) (hb : S_.BroadcastsInDim s (![] : Fin 0 → Fin s.rank)) (i : s.Idx)
    (h : cmpf .olt (Host.absf a) (broadcastInDim s ![] hb (constant (F := Ideal) S_ .f32 0x7F800000#32)) i = 1#1) :
    ∃ r : ℝ, a i = (r : EReal) := by
  have h' : Ideal.cmp .olt (max (a i) (-(a i)))
      (broadcastInDim s ![] hb (constant (F := Ideal) S_ .f32 0x7F800000#32) i) = 1#1 := h
  rw [Cert.LibHostRow.scalar_apply] at h'
  have h2 : Ideal.cmp .olt (max (a i) (-(a i))) ⊤ = 1#1 := by rw [← inf_word]; exact h'
  apply real_of_abs_lt_top
  have h3 : Ideal.cmp .olt (max (a i) (-(a i))) ⊤ = BitVec.ofBool (decide (max (a i) (-(a i)) < ⊤)) := rfl
  rw [h3] at h2
  cases hd : decide (max (a i) (-(a i)) < ⊤) with
  | true => exact of_decide_eq_true hd
  | false => rw [hd] at h2; exact absurd h2 (by decide)

variable [Facts]

/-- THE PRECONDITION, OPENED: the five float arguments hold real numbers. -/
theorem real_of_pre (a0 : FVec Ideal S100000x128 .f32) (a1 : IVec S2x1600000 32) (a2 : FVec Ideal S128x64 .f32)
    (a3 : FVec Ideal S64 .f32) (a4 : FVec Ideal S64x40 .f32) (a5 : FVec Ideal S40 .f32)
    (h : fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have h0 := congrFun h ValueIdx.ix0
  dsimp only [fn, fn_part1] at h0
  change IntOp.andi _ _ = 1#1 at h0
  obtain ⟨h01, h5⟩ := IntOp.andi_eq_one.mp h0
  change IntOp.andi _ _ = 1#1 at h01
  obtain ⟨h02, h4⟩ := IntOp.andi_eq_one.mp h01
  change IntOp.andi _ _ = 1#1 at h02
  obtain ⟨h03, h3⟩ := IntOp.andi_eq_one.mp h02
  change IntOp.andi _ _ = 1#1 at h03
  obtain ⟨h1, h2⟩ := IntOp.andi_eq_one.mp h03
  exact ⟨fun i => entry_real a0 _ i (Host.reduce_andi_all _ _ _ _ _ h1 i),
    fun i => entry_real a2 _ i (Host.reduce_andi_all _ _ _ _ _ h2 i),
    fun i => entry_real a3 _ i (Host.reduce_andi_all _ _ _ _ _ h3 i),
    fun i => entry_real a4 _ i (Host.reduce_andi_all _ _ _ _ _ h4 i),
    fun i => entry_real a5 _ i (Host.reduce_andi_all _ _ _ _ _ h5 i)⟩

end Cert.Gcn.Finite

end
-- ==== Proof.lean ====
/-
  The certificate of a two-layer graph convolution with a log-softmax head: the kernel (three launches among stretches of
  host operations, with the degree normalisation kept at the nodes and the self-loops added as a dense term) against the
  reference (the self-loops appended to the edge list, every edge's message weighed by the normalisation of its two
  ends).

  The three frames: the two kernels' are the generated frame certificates; the reference's is its run with the result
  dropped. The ideal pass rewrote nothing, so the idealization claim is trivial. The value claim: the idealized kernel's
  run ends with the result at the factored form of the six arguments (KerRun.lean, KerStages.lean); the reference's run
  ends at its composed term, which read stage by stage is the edge form (RefRun.lean, RefRead.lean, RefValue.lean); the
  precondition makes every feature, weight and bias a real number (Finite.lean), and for real data the two forms are
  one array (GcnMath.lean, Bridge.lean): distributing a node's normalisation over the sum of its incoming messages is
  the one law that needs finiteness.
-/
import proofs.«119770_j32229434589355_2_alg».proof.Defs
import proofs.«119770_j32229434589355_2_alg».proof.Proof.Gen.Kernel
import proofs.«119770_j32229434589355_2_alg».proof.Proof.Gen.Kernel.Frame
import proofs.«119770_j32229434589355_2_alg».proof.Proof.Gen.KernelIdeal
import proofs.«119770_j32229434589355_2_alg».proof.Proof.Gen.KernelIdeal.Frame
import proofs.«119770_j32229434589355_2_alg».proof.Proof.Gen.ReferenceIdeal
import proofs.«119770_j32229434589355_2_alg».proof.Proof.Gen.Pre_finite_inputs
import proofs.«119770_j32229434589355_2_alg».proof.Proof.KerRun
import proofs.«119770_j32229434589355_2_alg».proof.Proof.KerStages
import proofs.«119770_j32229434589355_2_alg».proof.Proof.RefRun
import proofs.«119770_j32229434589355_2_alg».proof.Proof.RefRead
import proofs.«119770_j32229434589355_2_alg».proof.Proof.RefValue
import proofs.«119770_j32229434589355_2_alg».proof.Proof.Bridge
import proofs.«119770_j32229434589355_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs end with the result at the factored form of the arguments: the kernel by its run and its
    stages, the reference through the edge form, which for the real data the precondition grants is the factored form. -/
theorem algebraic : Cert.algebraic_KernelIdeal_ReferenceIdeal := by
  intro m ρ m' ρ' hpre hagree
  refine ⟨fun c => Cert.Gcn.kerArr (Cert.KernelIdeal.HostV.a0 m c) (Cert.KernelIdeal.HostV.a1 m c)
    (Cert.KernelIdeal.HostV.a2 m c) (Cert.KernelIdeal.HostV.a3 m c) (Cert.KernelIdeal.HostV.a4 m c)
    (Cert.KernelIdeal.HostV.a5 m c), ?_, ?_⟩
  · exact (θ_run Cert.KernelIdeal.defs _ _).mono
      (fun r h c => ⟨(h c).1.trans (Cert.KernelIdeal.HostV.kernel_value m ρ c), (h c).2⟩)
      (Cert.KernelIdeal.RunV.run_main m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v88_eq, Cert.Gcn.Ref.value, (hagree c).1, (hagree c).2.1, (hagree c).2.2.1,
      (hagree c).2.2.2.1, (hagree c).2.2.2.2.1, (hagree c).2.2.2.2.2]
    obtain ⟨h0, h2, h3, h4, h5⟩ := Cert.Gcn.Finite.real_of_pre _ _ _ _ _ _ (hpre c)
    exact Cert.Gcn.refArr_eq_kerArr _ _ _ _ _ _ h0 h2 h3 h4 h5

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
